-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4096x512 .f32) (main_arg1 : IVec S4096 32) (main_arg2 : FVec F S16384x512 .f32) (main_arg3 : FVec F S512x512 .f32) (main_arg4 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S16384x512 .f32 := Host.absf main_arg2
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4096x512 : Shape := ⟨2, ![4096, 512]⟩
abbrev S4096 : Shape := ⟨1, ![4096]⟩
abbrev S16384x512 : Shape := ⟨2, ![16384, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S4096x1 : Shape := ⟨2, ![4096, 1]⟩
abbrev S1x1 : Shape := ⟨2, ![1, 1]⟩
abbrev S1x1024 : Shape := ⟨2, ![1, 1024]⟩
abbrev S512x1024 : Shape := ⟨2, ![512, 1024]⟩
abbrev S1024x1024 : Shape := ⟨2, ![1024, 1024]⟩
abbrev S1 : Shape := ⟨1, ![1]⟩
abbrev S_ : Shape := ⟨0, ![]⟩

abbrev nBuf : Space → Nat
  | .hbm => 18
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S4096x512, .bf16⟩
  | .hbm, ⟨7, _⟩ => ⟨S4096x1, .i32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | .local _ .vmem, ⟨7, _⟩ => ⟨S4096x1, .i32⟩
  | .local _ .vmem, ⟨8, _⟩ => ⟨S1024x512, .f32⟩
  | .local _ .vmem, ⟨9, _⟩ => ⟨S1024x512, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1024x512, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def k1_off1 (i : grid1.Coords) : Fin 2 → Nat :=
  let arg1 : BitVec 32 := BitVec.ofNat 32 (i 1).val
  let c1024_i32 : BitVec 32 := 1024#32
  let v8 : BitVec 32 := Scalar.muli arg1 c1024_i32
  let v9 : Index := Scalar.indexCast v8
  let c0 : Index := 0#32
  ![v9.toNat, 0]
def k1_off2 (i : grid1.Coords) : Fin 2 → Nat :=
  let arg1 : BitVec 32 := BitVec.ofNat 32 (i 1).val
  let c1024_i32_4 : BitVec 32 := 1024#32
  let v12 : BitVec 32 := Scalar.muli arg1 c1024_i32_4
  let v13 : Index := Scalar.indexCast v12
  let c0_5 : Index := 0#32
  ![v13.toNat, 0]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_cond3 (i : grid1.Coords) : BitVec 1 :=
  let arg1 : BitVec 32 := BitVec.ofNat 32 (i 1).val
  let c3_i32 : BitVec 32 := 3#32
  let v63 : BitVec 1 := Scalar.cmpi .eq arg1 c3_i32
  let v64 : BitVec 32 := Scalar.extui v63
  let c0_i32_30 : BitVec 32 := 0#32
  let v65 : BitVec 1 := Scalar.cmpi .ne v64 c0_i32_30
  v65

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S4096x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  shapeCasts_S4096_S4096x1 : S4096.ShapeCasts S4096x1
  inb_S1x1_S1x1_0_0 : ∀ a, (![0, 0] : Fin 2 → Nat) a + S1x1.size a ≤ S1x1.size a
  h_S1x1 : 0 < S1x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x512_S1024x512 : S1024x512.ShapeCasts S1024x512
  h_S1024x1 : 0 < S1024x1.numel
  shapeCasts_S1024x1_S1024x1 : S1024x1.ShapeCasts S1024x1
  transposes_S1024x512_p1_0_S512x1024 : S1024x512.Transposes [1, 0] S512x1024
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [0] S1024
  shapeCasts_S1024_S1x1024 : S1024.ShapeCasts S1x1024
  natLt_1_32 : 1 < 32
  shapeCasts_S1x1_S1x1 : S1x1.ShapeCasts S1x1
  reduces_S1x1024_S1 : S1x1024.Reduces [1] S1
  shapeCasts_S1_S1x1 : S1.ShapeCasts S1x1
  shapeCasts_S1x1_S_ : S1x1.ShapeCasts S_
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .bf16 = 32 ∨ (Rect.block (s := S4096x512) S1024x512.size (cc0_transform_3 i) (hinb0_3 i)).WholeWords (EltTy.packing .bf16)
  hrank1 : 0 < grid1.rank
  k1_off1_inb : ∀ i : grid1.Coords, ∀ a, (k1_off1 i) a + S1024x512.size a ≤ S4096x512.size a
  k1_off2_inb : ∀ i : grid1.Coords, ∀ a, (k1_off2 i) a + S1024x1.size a ≤ S4096x1.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x512.size a
  hwx1_0 : ∀ i : grid1.Coords, EltTy.bits .bf16 = 32 ∨ (Rect.block (s := S4096x512) S4096x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S4096x1.size a
  hwx1_1 : ∀ i : grid1.Coords, EltTy.bits .i32 = 32 ∨ (Rect.block (s := S4096x1) S4096x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S16384x512.size a
  hwx1_2 : ∀ i : grid1.Coords, EltTy.bits .f32 = 32 ∨ (Rect.block (s := S16384x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S4096x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_2) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun i => !(k1_cond1 i == 1#1) && !(k1_cond3 i == 1#1) | 4 => fun i => !(k1_cond1 i == 1#1) && !(k1_cond3 i == 1#1) | 5 => fun i => !(k1_cond1 i == 1#1) && !(k1_cond3 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S16384x512 : Shape := ⟨2, ![16384, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S4096x1 : Shape := ⟨2, ![4096, 1]⟩
abbrev S16384 : Shape := ⟨1, ![16384]⟩
abbrev S16384x1 : Shape := ⟨2, ![16384, 1]⟩
abbrev S512x16384 : Shape := ⟨2, ![512, 16384]⟩
abbrev S4096x16384 : Shape := ⟨2, ![4096, 16384]⟩
abbrev S1x16384 : Shape := ⟨2, ![1, 16384]⟩

abbrev nBuf : Space → Nat
  | .hbm => 94
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S4096x512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x512, .f32⟩
  | .hbm, ⟨32, _⟩ => ⟨S4096x512, .f32⟩
  | .hbm, ⟨33, _⟩ => ⟨S16384x512, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x512, .f32⟩
  | .hbm, ⟨42, _⟩ => ⟨S16384x512, .f32⟩
  | .hbm, ⟨43, _⟩ => ⟨S512x16384, .f32⟩
  | .hbm, ⟨44, _⟩ => ⟨S4096x16384, .f32⟩
  | .hbm, ⟨45, _⟩ => ⟨S4096x1, .i32⟩
  | .hbm, ⟨46, _⟩ => ⟨S16384, .i32⟩
  | .hbm, ⟨47, _⟩ => ⟨S1x16384, .i32⟩
  | .hbm, ⟨48, _⟩ => ⟨S4096x16384, .i32⟩
  | .hbm, ⟨49, _⟩ => ⟨S4096x16384, .i32⟩
  | .hbm, ⟨50, _⟩ => ⟨S4096x16384, .i1⟩
  | .hbm, ⟨51, _⟩ => ⟨S4096x16384, .f32⟩
  | .hbm, ⟨52, _⟩ => ⟨S_, .f32⟩
  | .hbm, ⟨53, _⟩ => ⟨S4096x16384, .f32⟩
  | .hbm, ⟨54, _⟩ => ⟨S4096x16384, .f32⟩
  | .hbm, ⟨55, _⟩ => ⟨S_, .f32⟩
  | .hbm, ⟨56, _⟩ => ⟨S4096x16384, .f32⟩
  | .hbm, ⟨57, _⟩ => ⟨S4096x16384, .f32⟩
  | .hbm, ⟨58, _⟩ => ⟨S_, .f32⟩
  | .hbm, ⟨59, _⟩ => ⟨S4096x16384, .f32⟩
  | .hbm, ⟨60, _⟩ => ⟨S4096x16384, .f32⟩
  | .hbm, ⟨61, _⟩ => ⟨S4096x16384, .f32⟩
  | .hbm, ⟨62, _⟩ => ⟨S_, .f32⟩
  | .hbm, ⟨63, _⟩ => ⟨S4096x16384, .f32⟩
  | .hbm, ⟨64, _⟩ => ⟨S4096x16384, .f32⟩
  | .hbm, ⟨65, _⟩ => ⟨S_, .f32⟩
  | .hbm, ⟨66, _⟩ => ⟨S4096x16384, .f32⟩
  | .hbm, ⟨67, _⟩ => ⟨S4096x16384, .f32⟩
  | .hbm, ⟨68, _⟩ => ⟨S4096x16384, .f32⟩
  | .hbm, ⟨69, _⟩ => ⟨S_, .f32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .i1⟩
  | .hbm, ⟨74, _⟩ => ⟨S16384, .i32⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S4096x16384, .f32⟩
  | .hbm, ⟨79, _⟩ => ⟨S_, .f32⟩
  | .hbm, ⟨80, _⟩ => ⟨S16384, .f32⟩
  | .hbm, ⟨81, _⟩ => ⟨S4096x16384, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S16384, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  reducesTo_S16384x512_S16384_d1 : S16384x512.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  transposes_S16384x512_S512x16384_1_0 : S16384x512.Transposes [1, 0] S512x16384
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  reducesTo_S4096x16384_S16384_d0 : S4096x16384.ReducesTo [0] S16384
  bcast_S_S16384 : S_.BroadcastsInDim S16384 (![] : Fin 0 → Fin S16384.rank)
  natLt_1_32 : 1 < 32
  reducesTo_S16384_S_d0 : S16384.ReducesTo [0] S_
  dot_S4096x512_S512x512_S4096x512_1_0_0_1_n_n_wf : DotDims.WF S4096x512 S512x512 S4096x512 [1] [0] [0] [1] [] []
  dot_S4096x512_S512x16384_S4096x16384_1_0_0_1_n_n_wf : DotDims.WF S4096x512 S512x16384 S4096x16384 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x16384_S4096x16384_1_0_0_1_n_n : DotDims S4096x512 S512x16384 S4096x16384 where
  lhsContracting := [1]
  rhsContracting := [0]
  lhsNonContracting := [0]
  rhsNonContracting := [1]
  lhsBatch := []
  rhsBatch := []
  wf := dot_S4096x512_S512x16384_S4096x16384_1_0_0_1_n_n_wf

class Facts : Prop extends Facts₀ where

variable [Facts]
-- ==== Proof.K.Region0.lean ====
/- Region 0 of @main (the first pallas_call: Linear, row-normalise, ReLU, row-normalise, narrow to bf16) as a
   pipeline body: what each window's staging buffer holds when the body is entered at a grid point, what the body
   leaves in the output window's buffer (one covering store of a pure function of the three loaded blocks), the
   body's separation-logic triple, and the pipeline's proof data with its body obligation — all at a parameter
   V, the TensorCore's buffer contents when the region is entered. -/
import proofs.«105117_j51427938402969_1_alg».proof.Proof.Gen.Kernel.Launch
import proofs.«105117_j51427938402969_1_alg».proof.Proof.Gen.Kernel.Skeleton
import proofs.«105117_j51427938402969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a block of 1024 rows of the batch, fetched at every point): its current staging buffer holds
    its block, for any proof data whose array is V's and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only): its staging buffer holds its block
    at every point, fetched there or not — unfetched, the block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias as one row, fetched at the first point only): likewise. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0

/-! ## What the body leaves in the output window's buffer -/

/-- Window 3's staging buffer after the body, from the three input blocks: its one store, the whole buffer, of the
    body's arithmetic as one pure term of the three loaded vectors. -/
def out0_3 (x0 : Vec F S1024x512 .f32) (x1 : Vec F S512x512 .f32) (x2 : Vec F S1x512 .f32) : Vec F S1024x512 .bf16 :=
  View.canon [⟨r0_0, k0_pay1 (View.ld x0 r0_0) (View.ld x1 r0_1) (View.ld x2 r0_2)⟩]

/-- The one store is of the whole buffer, so it covers it. -/
theorem cover0_3 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 1000000 in
/-- The kernel body on whole staging memrefs, the inputs' at contents xW and the output's at anything, runs to the
    continuation holding the inputs' as they were and the output's at out0_3 of the inputs': the body is three whole
    loads, a load of the output buffer whose value is not used, and one covering store of the pure term. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .bf16) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc_kernel i arg1 harg1 arg2 harg2 arg3 harg3 arg4 harg4) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of pipeline 0 on core c: the arrays as the region finds them (V); after the body at point t
    each input's buffer at its block and the output's at out0_3 of the three input blocks; the invariant the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K.State1.lean ====
/-
  What the second kernel keeps from one grid point to the next, as a pure recursion.

  The second kernel runs over a 16 × 4 grid: the outer coordinate picks a tile of 1024 proxies, the inner one a tile of
  1024 batch rows. Between points it carries seven buffers: the normalised proxy tile (written at the first inner point
  of each outer point), three row accumulators of 1024 columns (zeroed there, added to at every point), and the three
  single-cell results (zeroed at the very first point, added to at the last inner point of each outer point). One
  point's effect on these seven buffers is `step`, written over the body's named arithmetic; the contents after point
  `n` are `st n`, the fold of `step` along the grid. Nothing here mentions memory: the run shows that the buffers hold
  `st`, and the value lemmas read `st` at the last point.
-/
import proofs.«105117_j51427938402969_1_alg».proof.Proof.Gen.Kernel.Skeleton
import proofs.«105117_j51427938402969_1_alg».proof.Proof.Gen.Kernel.Launch
import Idealize.ShloMosaic.Lib.Pipeline.FrameBody

noncomputable section

namespace Cert.Kernel.R1

open Idealize.ShloMosaic Cert.Kernel Cert.Kernel.Gen

variable {F : FTy → Type} [FloatOps F]

/-- The second conditional's condition — the inner grid coordinate is 0 — as the kernel computes it. -/
abbrev cond2 (i : grid1.Coords) : Prop :=
  Scalar.cmpi .ne (Scalar.extui (Scalar.cmpi .eq (BitVec.ofNat 32 (i 1).val) 0#32)) 0#32 = 1#1

/-- The seven buffers the kernel carries between grid points: the three single-cell results, the normalised proxy
    tile, and the three row accumulators. -/
structure St (F : FTy → Type) where
  o3 : Vec F S1x1 .f32
  o4 : Vec F S1x1 .f32
  o5 : Vec F S1x1 .f32
  s0 : Vec F S1024x512 .bf16
  s1 : Vec F S1x1024 .f32
  s2 : Vec F S1x1024 .f32
  s3 : Vec F S1x1024 .f32

/-- The tile of embedded batch rows the point reads: rows `1024 · (inner coordinate)` on. -/
abbrev rowsAt (i : grid1.Coords) (x0 : Vec F S4096x512 .bf16) : Vec F S1024x512 .bf16 :=
  View.ld x0 (Rect.unit (s := S4096x512) (k1_off1 i) S1024x512.size (k1_off1_inb i))
/-- The labels of those rows. -/
abbrev labelsAt (i : grid1.Coords) (x1 : Vec F S4096x1 .i32) : Vec F S1024x1 .i32 :=
  View.ld x1 (Rect.unit (s := S4096x1) (k1_off2 i) S1024x1.size (k1_off2_inb i))

/-- One grid point: from the embedded batch `x0`, the labels `x1`, the point's proxy tile `x2` and what the point
    before left (`p`), what this point leaves. The first two conditionals reset (results at the very first point;
    proxy tile and accumulators at inner coordinate 0), the middle adds this tile's column sums into the accumulators,
    the last conditional (inner coordinate 3) adds the accumulators' `log1p` sums and the count of non-empty columns
    into the results. -/
def step (i : grid1.Coords) (x0 : Vec F S4096x512 .bf16) (x1 : Vec F S4096x1 .i32) (x2 : Vec F S1024x512 .f32)
    (p : St F) : St F :=
  let o3a : Vec F S1x1 .f32 := if k1_cond1 i = 1#1 then k1_pay7 (F := F) else p.o3
  let o4a : Vec F S1x1 .f32 := if k1_cond1 i = 1#1 then k1_pay8 (F := F) else p.o4
  let o5a : Vec F S1x1 .f32 := if k1_cond1 i = 1#1 then k1_pay9 (F := F) else p.o5
  let s0a : Vec F S1024x512 .bf16 := if cond2 i then k1_pay13 (F := F) x2 else p.s0
  let s1a : Vec F S1x1024 .f32 := if cond2 i then k1_pay10 (F := F) else p.s1
  let s2a : Vec F S1x1024 .f32 := if cond2 i then k1_pay11 (F := F) else p.s2
  let s3a : Vec F S1x1024 .f32 := if cond2 i then k1_pay12 (F := F) else p.s3
  let v25 : IVec S1024x1024 1 := k1_pay15 (F := F) i (labelsAt i x1)
  let s1b : Vec F S1x1024 .f32 := k1_pay1 (F := F) v25 (k1_pay16 (F := F) (rowsAt i x0) s0a) s1a
  let s2b : Vec F S1x1024 .f32 := k1_pay2 (F := F) v25 (k1_pay17 (F := F) (rowsAt i x0) s0a) s2a
  let s3b : Vec F S1x1024 .f32 := k1_pay3 (F := F) v25 s3a
  { o3 := if k1_cond3 i = 1#1 then k1_pay4 (F := F) o3a s1b else o3a
    o4 := if k1_cond3 i = 1#1 then k1_pay5 (F := F) o4a s2b else o4a
    o5 := if k1_cond3 i = 1#1 then k1_pay6 (F := F) o5a s3b else o5a
    s0 := s0a
    s1 := s1b
    s2 := s2b
    s3 := s3b }

/-- The contents after grid position `n`: `step` folded along the grid from `init` (what the buffers held before the
    first point; the first point overwrites all seven, so nothing read at the end depends on it). `x0 t`, `x1 t`, `x2 t` are the
    embedded batch, the labels and the proxy tile as the pipeline hands them to point `t` (the first two are the same
    whole arrays at every point). -/
def st (x0 : Fin cfg1.N → Vec F S4096x512 .bf16) (x1 : Fin cfg1.N → Vec F S4096x1 .i32) (x2 : Fin cfg1.N → Vec F S1024x512 .f32) (init : St F) :
    (n : ℕ) → n < cfg1.N → St F
  | 0, h => step (grid1.coords ⟨0, h⟩) (x0 ⟨0, h⟩) (x1 ⟨0, h⟩) (x2 ⟨0, h⟩) init
  | n + 1, h => step (grid1.coords ⟨n + 1, h⟩) (x0 ⟨n + 1, h⟩) (x1 ⟨n + 1, h⟩) (x2 ⟨n + 1, h⟩) (st x0 x1 x2 init n (Nat.lt_of_succ_lt h))

theorem st_zero (x0 : Fin cfg1.N → Vec F S4096x512 .bf16) (x1 : Fin cfg1.N → Vec F S4096x1 .i32) (x2 : Fin cfg1.N → Vec F S1024x512 .f32) (init : St F)
    (h : 0 < cfg1.N) : st x0 x1 x2 init 0 h = step (grid1.coords ⟨0, h⟩) (x0 ⟨0, h⟩) (x1 ⟨0, h⟩) (x2 ⟨0, h⟩) init := rfl

theorem st_succ (x0 : Fin cfg1.N → Vec F S4096x512 .bf16) (x1 : Fin cfg1.N → Vec F S4096x1 .i32) (x2 : Fin cfg1.N → Vec F S1024x512 .f32) (init : St F)
    (n : ℕ) (h : n + 1 < cfg1.N) :
    st x0 x1 x2 init (n + 1) h = step (grid1.coords ⟨n + 1, h⟩) (x0 ⟨n + 1, h⟩) (x1 ⟨n + 1, h⟩) (x2 ⟨n + 1, h⟩) (st x0 x1 x2 init n (Nat.lt_of_succ_lt h)) := rfl

end Cert.Kernel.R1

end
-- ==== Proof.K.Defs1.lean ====
import proofs.«105117_j51427938402969_1_alg».proof.Proof.Gen.Kernel.Launch
import proofs.«105117_j51427938402969_1_alg».proof.Proof.Gen.Kernel.Skeleton
import proofs.«105117_j51427938402969_1_alg».proof.Proof.Gen.Kernel.Points
import proofs.«105117_j51427938402969_1_alg».proof.Proof.K.State1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! # The second region's proof data

  Region 1's kernel keeps seven buffers from point to point (State1: `St`, `step`, `st`). Here the fold is taken at
  the blocks the pipeline hands the body (`S`), the four scratch buffers' contents are put in the region invariant
  (`PhiS`: after point `n` they hold `S n`), and the three single-cell output windows' staging buffers are stated to hold
  `S t`'s results after EVERY point `t` — also the points where the body does not touch them, where they keep what the
  point before left. -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operands: whole scoped buffers of the kernel's own, passed beside the windows. -/
abbrev scM0 : Memref sig .tc .vmem S1024x512 .bf16 := Memref.whole cc1_scratch0
abbrev scM1 : Memref sig .tc .vmem S1x1024 .f32 := Memref.whole cc1_scratch1
abbrev scM2 : Memref sig .tc .vmem S1x1024 .f32 := Memref.whole cc1_scratch2
abbrev scM3 : Memref sig .tc .vmem S1x1024 .f32 := Memref.whole cc1_scratch3

/-- Contents nobody reads: what the seven buffers hold before the first point (the first point overwrites them all). -/
def junkSt : St F :=
  ⟨k1_pay7 (F := F), k1_pay8 (F := F), k1_pay9 (F := F), k1_pay13 (F := F) (fun _ => Scalar.ofBits .f32 0x00000000#32),
   k1_pay10 (F := F), k1_pay11 (F := F), k1_pay12 (F := F)⟩

/-- The seven carried buffers after grid position `n`: the fold of `step` over the blocks the pipeline hands the body. -/
def S (c : Dev nD) (n : ℕ) (hn : n < cfg1.N) : St F :=
  st (fun t => iblk1 V c 0 t) (fun t => iblk1 V c 1 t) (fun t => iblk1 V c 2 t) junkSt n hn

theorem S_zero (c : Dev nD) (h : 0 < cfg1.N) :
    S V c 0 h = step (grid1.coords ⟨0, h⟩) (iblk1 V c 0 ⟨0, h⟩) (iblk1 V c 1 ⟨0, h⟩) (iblk1 V c 2 ⟨0, h⟩) junkSt := rfl

theorem S_succ (c : Dev nD) (n : ℕ) (h : n + 1 < cfg1.N) :
    S V c (n + 1) h = step (grid1.coords ⟨n + 1, h⟩) (iblk1 V c 0 ⟨n + 1, h⟩) (iblk1 V c 1 ⟨n + 1, h⟩) (iblk1 V c 2 ⟨n + 1, h⟩)
      (S V c n (Nat.lt_of_succ_lt h)) := rfl

/-- After any point but the first, `S` is one `step` from the point before. -/
theorem S_pos (c : Dev nD) (t : Fin cfg1.N) (ht : t.val ≠ 0) :
    S V c t.val t.isLt = step (grid1.coords t) (iblk1 V c 0 t) (iblk1 V c 1 t) (iblk1 V c 2 t)
      (S V c (t.val - 1) (Nat.lt_of_le_of_lt (Nat.sub_le _ _) t.isLt)) := by
  obtain ⟨n, hn⟩ := t
  cases n with
  | zero => exact absurd rfl ht
  | succ n => rfl

/-- The scoped buffers of the OTHER region (its staging buffers), which this region never touches: at anything. -/
abbrev others (c : Dev nD) : sProp 𝕄 := iprop((∃ f, ((c : Thread nD τ).loc cc0_stg0_0) ↦{fullShare} f) ∗ (∃ f, ((c : Thread nD τ).loc cc0_stg0_1) ↦{fullShare} f) ∗ (∃ f, ((c : Thread nD τ).loc cc0_stg1_0) ↦{fullShare} f) ∗ (∃ f, ((c : Thread nD τ).loc cc0_stg2_0) ↦{fullShare} f) ∗ (∃ f, ((c : Thread nD τ).loc cc0_stg3_0) ↦{fullShare} f) ∗ (∃ f, ((c : Thread nD τ).loc cc0_stg3_1) ↦{fullShare} f))

/-- The region invariant before position `n`: before the first point the class's (every scratch at anything); afterwards
    the four scratch buffers at what the point before left in them and the generator register at some state. -/
def PhiS (c : Dev nD) : (n : ℕ) → n ≤ cfg1.N → sProp 𝕄
  | 0, _ => Pipeline.ΦA spec1 c
  | n + 1, hn => iprop(others c ∗ owns (c : Thread nD τ) scM0 fullShare (S V c n hn).s0 ∗ owns (c : Thread nD τ) scM1 fullShare (S V c n hn).s1
      ∗ owns (c : Thread nD τ) scM2 fullShare (S V c n hn).s2 ∗ owns (c : Thread nD τ) scM3 fullShare (S V c n hn).s3 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others c ∗ owns (c : Thread nD τ) scM0 fullShare (S V c n hn).s0 ∗ owns (c : Thread nD τ) scM1 fullShare (S V c n hn).s1
      ∗ owns (c : Thread nD τ) scM2 fullShare (S V c n hn).s2 ∗ owns (c : Thread nD τ) scM3 fullShare (S V c n hn).s3 ∗ (∃ r, prngReg c r)) := rfl

theorem PhiS_pos (c : Dev nD) (n : ℕ) (h : n ≤ cfg1.N) (hz : n ≠ 0) :
    PhiS V c n h = iprop(others c ∗ owns (c : Thread nD τ) scM0 fullShare (S V c (n - 1) (by omega)).s0 ∗ owns (c : Thread nD τ) scM1 fullShare (S V c (n - 1) (by omega)).s1
      ∗ owns (c : Thread nD τ) scM2 fullShare (S V c (n - 1) (by omega)).s2 ∗ owns (c : Thread nD τ) scM3 fullShare (S V c (n - 1) (by omega)).s3 ∗ (∃ r, prngReg c r)) := by
  cases n with
  | zero => exact absurd rfl hz
  | succ n => rfl

/-- The proof data of pipeline 1 on core `c`: the arrays as the region finds them (`V`); after the body at point `t` each
    input's buffer at its block and the three outputs' at `S t`'s results; the invariant `PhiS`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (S V c t.val t.isLt).o3
    | ⟨4, _⟩ => (S V c t.val t.isLt).o4
    | ⟨5, _⟩ => (S V c t.val t.isLt).o5
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (S V c t.val t.isLt).o3 := by dsimp only [dat1]
theorem after1_4 (c : Dev nD) (t : Fin cfg1.N) : (dat1 V c).after 4 t = (S V c t.val t.isLt).o4 := by dsimp only [dat1]
theorem after1_5 (c : Dev nD) (t : Fin cfg1.N) : (dat1 V c).after 5 t = (S V c t.val t.isLt).o5 := by dsimp only [dat1]

/-- The class invariant with the scratch operands as memrefs owned at some contents. -/
theorem PhiA1_eq (c : Dev nD) :
    (Pipeline.ΦA spec1 c : sProp 𝕄)
      = iprop(iprop((∃ f, ((c : Thread nD τ).loc cc0_stg0_0) ↦{fullShare} f) ∗ (∃ f, ((c : Thread nD τ).loc cc0_stg0_1) ↦{fullShare} f) ∗ (∃ f, ((c : Thread nD τ).loc cc0_stg1_0) ↦{fullShare} f) ∗ (∃ f, ((c : Thread nD τ).loc cc0_stg2_0) ↦{fullShare} f) ∗ (∃ f, ((c : Thread nD τ).loc cc0_stg3_0) ↦{fullShare} f) ∗ (∃ f, ((c : Thread nD τ).loc cc0_stg3_1) ↦{fullShare} f) ∗ (∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest1_eq]; simp only [scM0, scM1, scM2, scM3, owns_whole]; try rfl

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents' names are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨O1, O2, O3, O4, O5, O6⟩, HS0, HS1, HS2, HS3, Hg⟩
  isplitl [O1 O2 O3 O4 O5 O6 HS0 HS1 HS2 HS3]
  · isplitl [O1]; · iexact O1
    isplitl [O2]; · iexact O2
    isplitl [O3]; · iexact O3
    isplitl [O4]; · iexact O4
    isplitl [O5]; · iexact O5
    isplitl [O6]; · iexact O6
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

/-! ## The body's branch conditions, in closed form over the grid -/

theorem hcond1 : ∀ t : Fin cfg1.N, k1_cond1 (grid1.coords t) = 1#1 ↔ t.val = 0 := by decide +kernel
theorem hcond2 : ∀ t : Fin cfg1.N, cond2 (grid1.coords t) ↔ t.val % 4 = 0 := by decide +kernel
theorem hcond3 : ∀ t : Fin cfg1.N, k1_cond3 (grid1.coords t) = 1#1 ↔ t.val % 4 = 3 := by decide +kernel

/-! ## Where the output windows are idle, fetched, written back -/

theorem idle1_out : ∀ t : Fin cfg1.N, ∀ w : Fin cfg1.W, 3 ≤ w.val →
    cfg1.idle w (grid1.coords t) = (decide (t.val ≠ 0) && decide (t.val % 4 ≠ 3)) := by decide +kernel
theorem fetch1_out : ∀ t : Fin cfg1.N, ∀ w : Fin cfg1.W, 3 ≤ w.val → (cfg1.win w).fetch t = false := by decide +kernel
theorem flush1_out : ∀ t : Fin cfg1.N, ∀ w : Fin cfg1.W, 3 ≤ w.val → (cfg1.win w).flush t = decide (t.val = 63) := by decide +kernel

end Cert.Kernel.R1

end
-- ==== Proof.K.RunW.lean ====
/-
  The buffer contents at each boundary of the program's five segments, as a fold from the launch memory:
  a stretch of host operations is folded by its operations' functions, a kernel region leaves its arrays at what the
  pipeline's write-backs leave (the inputs as entered, each output's blocks folded) and every other buffer as entered.
  Each of the five argument arrays is read back through the fold to its launch contents: no host operation writes
  one, and a region either bypasses it or reads it through an input window.
-/
import proofs.«105117_j51427938402969_1_alg».proof.Proof.Gen.Kernel.Regions
import proofs.«105117_j51427938402969_1_alg».proof.Proof.K.Region0
import proofs.«105117_j51427938402969_1_alg».proof.Proof.K.Defs1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (region 0's entry). -/
def W1 (c : Dev nD) : Valuation τ sig (Elt F) := StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (R0.dat0 (V1 m ρ) c).arrAt w cfg0.N
abbrev V2 : (c : Dev nD) → (b : Ref sig .tc) → Buf (Elt F) ((c : Thread nD τ).loc b) := fun c b => W2 m ρ c b
/-- After the second host stretch (region 1's entry). -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (R1.dat1 (V3 m ρ) c).arrAt w cfg1.N
abbrev V4 : (c : Dev nD) → (b : Ref sig .tc) → Buf (Elt F) ((c : Thread nD τ).loc b) := fun c b => W4 m ρ c b
/-- After the last host stretch: what the program returns with. -/
def W5 (c : Dev nD) : Valuation τ sig (Elt F) := StableHlo.after hostOps2 (W4 m ρ c)

/-! ## What each segment leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- At region 0's exit each of its arrays holds what the pipeline leaves and every other buffer what it held at entry. -/
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- At region 1's exit each of its arrays holds what the pipeline leaves and every other buffer what it held at entry. -/
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- The batch: read by region 0 through its first input window, bypassed by region 1, written by no host operation. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((R0.dat0 (V1 m ρ) c).arrAt_in 0 rfl _).trans (R0.A_eq0 (V1 m ρ) c 0))
    _ = W0 m ρ c (Proc.devRef .tc main_arg0) := W1_of m ρ c main_arg0 (by decide)
    _ = m ((c : Thread nD τ).loc main_arg0) := rfl
/-- The labels: bypassed by both regions (region 1 reads their reshaped copy), written by no host operation. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
/-- The proxies: bypassed by region 0, read by region 1 through its third input window, written by no host operation. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := (W4_arr m ρ c 2).trans (((R1.dat1 (V3 m ρ) c).arrAt_in 2 rfl _).trans (R1.A_eq1 (V3 m ρ) c 2))
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
/-- The weights: read by region 0 through its second input window, bypassed by region 1. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 1).trans (((R0.dat0 (V1 m ρ) c).arrAt_in 1 rfl _).trans (R0.A_eq0 (V1 m ρ) c 1))
    _ = W0 m ρ c (Proc.devRef .tc main_arg3) := W1_of m ρ c main_arg3 (by decide)
    _ = m ((c : Thread nD τ).loc main_arg3) := rfl
/-- The bias: bypassed by both regions (region 0 reads its reshaped copy), written by no host operation. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

end Cert.Kernel.Run

end
-- ==== Proof.K.Runs1.lean ====
import proofs.«105117_j51427938402969_1_alg».proof.Proof.Gen.Kernel.Launch
import proofs.«105117_j51427938402969_1_alg».proof.Proof.Gen.Kernel.Skeleton
import proofs.«105117_j51427938402969_1_alg».proof.Proof.Gen.Kernel.Points
import proofs.«105117_j51427938402969_1_alg».proof.Proof.K.State1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! # The second kernel's body, run once per control case

  The body branches three times on the grid coordinates (reset the results; reset the proxy tile and the row accumulators;
  fold the accumulators into the results). Four assignments of the three conditions occur on the grid: A, the very first
  point (everything reset); B, inner coordinate 0 of a later proxy tile (tile and accumulators reset); C, inner
  coordinate 1 or 2 (nothing reset, nothing folded); D, inner coordinate 3 (accumulators folded into the results). In each, from the
  ten buffers at given contents (three input blocks, three result cells, four scratch buffers) the body runs to the same
  buffers at exactly the contents `step` (State1) computes: every store goes through the whole-buffer rectangle, so a
  buffer reads back as its last store's payload. -/

local notation "𝕄" => MT nD τ sig Unit (Elt F) ℕ (Pipeline.UD sig nD τ) ℕ

theorem hz2 : (![0, 0] : Fin 2 → ℕ) = fun _ => 0 := by funext a; fin_cases a <;> rfl

/-- A buffer whose LAST store went through the whole-shape rectangle reads back as that store's payload, whatever was
    stored before. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

set_option maxHeartbeats 4000000 in
/-- The body at a point of case A: from the ten buffers at their contents to the ten buffers at what `step` says. -/
theorem run1_A (c : Dev nD) (i : grid1.Coords) (arg2 : Memref sig .tc .vmem S4096x512 .bf16) (harg2 : arg2.IsWhole) (arg3 : Memref sig .tc .vmem S4096x1 .i32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1024x512 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc1 : k1_cond1 i = 1#1) (hc2 : cond2 i) (hc3 : ¬ k1_cond3 i = 1#1)
    (x0 : Vec F S4096x512 .bf16) (x1 : Vec F S4096x1 .i32) (x2 : Vec F S1024x512 .f32) (xo3 xo4 xo5 : Vec F S1x1 .f32) (xs0 : Vec F S1024x512 .bf16) (xs1 xs2 xs3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare (k1_pay7 (F := F)) ∗ owns (c : Thread nD τ) arg6 fullShare (k1_pay8 (F := F)) ∗ owns (c : Thread nD τ) arg7 fullShare (k1_pay9 (F := F)) ∗ owns (c : Thread nD τ) arg8 fullShare (k1_pay13 (F := F) x2) ∗ owns (c : Thread nD τ) arg9 fullShare (k1_pay1 (F := F) (k1_pay15 (F := F) i (labelsAt i x1)) (k1_pay16 (F := F) (rowsAt i x0) (k1_pay13 (F := F) x2)) (k1_pay10 (F := F))) ∗ owns (c : Thread nD τ) arg10 fullShare (k1_pay2 (F := F) (k1_pay15 (F := F) i (labelsAt i x1)) (k1_pay17 (F := F) (rowsAt i x0) (k1_pay13 (F := F) x2)) (k1_pay11 (F := F))) ∗ owns (c : Thread nD τ) arg11 fullShare (k1_pay3 (F := F) (k1_pay15 (F := F) i (labelsAt i x1)) (k1_pay12 (F := F)))) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    haveI : Fact (k1_cond1 i = 1#1) := ⟨hc1⟩
    haveI : Fact (¬ k1_cond3 i = 1#1) := ⟨hc3⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H4]
    · iexists _; isplitr; swap; · iexact H4
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H5]
    · iexists _; isplitr; swap; · iexact H5
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H6]
    · iexists _; isplitr; swap; · iexact H6
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H7]
    · iexists _; isplitr; swap; · iexact H7
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H8]
    · iexists _; isplitr; swap; · iexact H8
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    iexists _; isplitr; swap; · iexact H9
    ipureintro
    refine (read_store_whole _ _ hz2 _ _ _).trans ?_
    sl_unfold_run_names
    simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
    try rfl

set_option maxHeartbeats 4000000 in
/-- The body at a point of case B: from the ten buffers at their contents to the ten buffers at what `step` says. -/
theorem run1_B (c : Dev nD) (i : grid1.Coords) (arg2 : Memref sig .tc .vmem S4096x512 .bf16) (harg2 : arg2.IsWhole) (arg3 : Memref sig .tc .vmem S4096x1 .i32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1024x512 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc1 : ¬ k1_cond1 i = 1#1) (hc2 : cond2 i) (hc3 : ¬ k1_cond3 i = 1#1)
    (x0 : Vec F S4096x512 .bf16) (x1 : Vec F S4096x1 .i32) (x2 : Vec F S1024x512 .f32) (xo3 xo4 xo5 : Vec F S1x1 .f32) (xs0 : Vec F S1024x512 .bf16) (xs1 xs2 xs3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare (k1_pay13 (F := F) x2) ∗ owns (c : Thread nD τ) arg9 fullShare (k1_pay1 (F := F) (k1_pay15 (F := F) i (labelsAt i x1)) (k1_pay16 (F := F) (rowsAt i x0) (k1_pay13 (F := F) x2)) (k1_pay10 (F := F))) ∗ owns (c : Thread nD τ) arg10 fullShare (k1_pay2 (F := F) (k1_pay15 (F := F) i (labelsAt i x1)) (k1_pay17 (F := F) (rowsAt i x0) (k1_pay13 (F := F) x2)) (k1_pay11 (F := F))) ∗ owns (c : Thread nD τ) arg11 fullShare (k1_pay3 (F := F) (k1_pay15 (F := F) i (labelsAt i x1)) (k1_pay12 (F := F)))) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    haveI : Fact (¬ k1_cond1 i = 1#1) := ⟨hc1⟩
    haveI : Fact (¬ k1_cond3 i = 1#1) := ⟨hc3⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H7]
    · iexists _; isplitr; swap; · iexact H7
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H8]
    · iexists _; isplitr; swap; · iexact H8
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    iexists _; isplitr; swap; · iexact H9
    ipureintro
    refine (read_store_whole _ _ hz2 _ _ _).trans ?_
    sl_unfold_run_names
    simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
    try rfl

set_option maxHeartbeats 4000000 in
/-- The body at a point of case C: from the ten buffers at their contents to the ten buffers at what `step` says. -/
theorem run1_C (c : Dev nD) (i : grid1.Coords) (arg2 : Memref sig .tc .vmem S4096x512 .bf16) (harg2 : arg2.IsWhole) (arg3 : Memref sig .tc .vmem S4096x1 .i32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1024x512 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc1 : ¬ k1_cond1 i = 1#1) (hc2 : ¬ cond2 i) (hc3 : ¬ k1_cond3 i = 1#1)
    (x0 : Vec F S4096x512 .bf16) (x1 : Vec F S4096x1 .i32) (x2 : Vec F S1024x512 .f32) (xo3 xo4 xo5 : Vec F S1x1 .f32) (xs0 : Vec F S1024x512 .bf16) (xs1 xs2 xs3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare (k1_pay1 (F := F) (k1_pay15 (F := F) i (labelsAt i x1)) (k1_pay16 (F := F) (rowsAt i x0) xs0) xs1) ∗ owns (c : Thread nD τ) arg10 fullShare (k1_pay2 (F := F) (k1_pay15 (F := F) i (labelsAt i x1)) (k1_pay17 (F := F) (rowsAt i x0) xs0) xs2) ∗ owns (c : Thread nD τ) arg11 fullShare (k1_pay3 (F := F) (k1_pay15 (F := F) i (labelsAt i x1)) xs3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    haveI : Fact (¬ k1_cond1 i = 1#1) := ⟨hc1⟩
    haveI : Fact (¬ k1_cond3 i = 1#1) := ⟨hc3⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H8]
    · iexists _; isplitr; swap; · iexact H8
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    iexists _; isplitr; swap; · iexact H9
    ipureintro
    refine (read_store_whole _ _ hz2 _ _ _).trans ?_
    sl_unfold_run_names
    simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
    try rfl

set_option maxHeartbeats 4000000 in
/-- The body at a point of case D: from the ten buffers at their contents to the ten buffers at what `step` says. -/
theorem run1_D (c : Dev nD) (i : grid1.Coords) (arg2 : Memref sig .tc .vmem S4096x512 .bf16) (harg2 : arg2.IsWhole) (arg3 : Memref sig .tc .vmem S4096x1 .i32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1024x512 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc1 : ¬ k1_cond1 i = 1#1) (hc2 : ¬ cond2 i) (hc3 : k1_cond3 i = 1#1)
    (x0 : Vec F S4096x512 .bf16) (x1 : Vec F S4096x1 .i32) (x2 : Vec F S1024x512 .f32) (xo3 xo4 xo5 : Vec F S1x1 .f32) (xs0 : Vec F S1024x512 .bf16) (xs1 xs2 xs3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare (k1_pay4 (F := F) xo3 (k1_pay1 (F := F) (k1_pay15 (F := F) i (labelsAt i x1)) (k1_pay16 (F := F) (rowsAt i x0) xs0) xs1)) ∗ owns (c : Thread nD τ) arg6 fullShare (k1_pay5 (F := F) xo4 (k1_pay2 (F := F) (k1_pay15 (F := F) i (labelsAt i x1)) (k1_pay17 (F := F) (rowsAt i x0) xs0) xs2)) ∗ owns (c : Thread nD τ) arg7 fullShare (k1_pay6 (F := F) xo5 (k1_pay3 (F := F) (k1_pay15 (F := F) i (labelsAt i x1)) xs3)) ∗ owns (c : Thread nD τ) arg8 fullShare xs0 ∗ owns (c : Thread nD τ) arg9 fullShare (k1_pay1 (F := F) (k1_pay15 (F := F) i (labelsAt i x1)) (k1_pay16 (F := F) (rowsAt i x0) xs0) xs1) ∗ owns (c : Thread nD τ) arg10 fullShare (k1_pay2 (F := F) (k1_pay15 (F := F) i (labelsAt i x1)) (k1_pay17 (F := F) (rowsAt i x0) xs0) xs2) ∗ owns (c : Thread nD τ) arg11 fullShare (k1_pay3 (F := F) (k1_pay15 (F := F) i (labelsAt i x1)) xs3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    haveI : Fact (¬ k1_cond1 i = 1#1) := ⟨hc1⟩
    haveI : Fact (k1_cond3 i = 1#1) := ⟨hc3⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H4]
    · iexists _; isplitr; swap; · iexact H4
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H5]
    · iexists _; isplitr; swap; · iexact H5
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H6]
    · iexists _; isplitr; · ipureintro; exact harg8.read_unread _
      iexact H6
    isplitl [H7]
    · iexists _; isplitr; swap; · iexact H7
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H8]
    · iexists _; isplitr; swap; · iexact H8
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    iexists _; isplitr; swap; · iexact H9
    ipureintro
    refine (read_store_whole _ _ hz2 _ _ _).trans ?_
    sl_unfold_run_names
    simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
    try rfl

/-! ## `step` in each control case -/

variable (i : grid1.Coords) (x0 : Vec F S4096x512 .bf16) (x1 : Vec F S4096x1 .i32) (x2 : Vec F S1024x512 .f32) (p : St F)

theorem step_A (hc1 : k1_cond1 i = 1#1) (hc2 : cond2 i) (hc3 : ¬ k1_cond3 i = 1#1) :
    step i x0 x1 x2 p = { o3 := k1_pay7 (F := F), o4 := k1_pay8 (F := F), o5 := k1_pay9 (F := F), s0 := (k1_pay13 (F := F) x2), s1 := (k1_pay1 (F := F) (k1_pay15 (F := F) i (labelsAt i x1)) (k1_pay16 (F := F) (rowsAt i x0) (k1_pay13 (F := F) x2)) (k1_pay10 (F := F))), s2 := (k1_pay2 (F := F) (k1_pay15 (F := F) i (labelsAt i x1)) (k1_pay17 (F := F) (rowsAt i x0) (k1_pay13 (F := F) x2)) (k1_pay11 (F := F))), s3 := (k1_pay3 (F := F) (k1_pay15 (F := F) i (labelsAt i x1)) (k1_pay12 (F := F))) } := by
  unfold step; simp only [if_pos hc1, if_pos hc2, if_neg hc3]

theorem step_B (hc1 : ¬ k1_cond1 i = 1#1) (hc2 : cond2 i) (hc3 : ¬ k1_cond3 i = 1#1) :
    step i x0 x1 x2 p = { o3 := p.o3, o4 := p.o4, o5 := p.o5, s0 := (k1_pay13 (F := F) x2), s1 := (k1_pay1 (F := F) (k1_pay15 (F := F) i (labelsAt i x1)) (k1_pay16 (F := F) (rowsAt i x0) (k1_pay13 (F := F) x2)) (k1_pay10 (F := F))), s2 := (k1_pay2 (F := F) (k1_pay15 (F := F) i (labelsAt i x1)) (k1_pay17 (F := F) (rowsAt i x0) (k1_pay13 (F := F) x2)) (k1_pay11 (F := F))), s3 := (k1_pay3 (F := F) (k1_pay15 (F := F) i (labelsAt i x1)) (k1_pay12 (F := F))) } := by
  unfold step; simp only [if_neg hc1, if_pos hc2, if_neg hc3]

theorem step_C (hc1 : ¬ k1_cond1 i = 1#1) (hc2 : ¬ cond2 i) (hc3 : ¬ k1_cond3 i = 1#1) :
    step i x0 x1 x2 p = { o3 := p.o3, o4 := p.o4, o5 := p.o5, s0 := p.s0, s1 := (k1_pay1 (F := F) (k1_pay15 (F := F) i (labelsAt i x1)) (k1_pay16 (F := F) (rowsAt i x0) p.s0) p.s1), s2 := (k1_pay2 (F := F) (k1_pay15 (F := F) i (labelsAt i x1)) (k1_pay17 (F := F) (rowsAt i x0) p.s0) p.s2), s3 := (k1_pay3 (F := F) (k1_pay15 (F := F) i (labelsAt i x1)) p.s3) } := by
  unfold step; simp only [if_neg hc1, if_neg hc2, if_neg hc3]

theorem step_D (hc1 : ¬ k1_cond1 i = 1#1) (hc2 : ¬ cond2 i) (hc3 : k1_cond3 i = 1#1) :
    step i x0 x1 x2 p = { o3 := k1_pay4 (F := F) p.o3 (k1_pay1 (F := F) (k1_pay15 (F := F) i (labelsAt i x1)) (k1_pay16 (F := F) (rowsAt i x0) p.s0) p.s1), o4 := k1_pay5 (F := F) p.o4 (k1_pay2 (F := F) (k1_pay15 (F := F) i (labelsAt i x1)) (k1_pay17 (F := F) (rowsAt i x0) p.s0) p.s2), o5 := k1_pay6 (F := F) p.o5 (k1_pay3 (F := F) (k1_pay15 (F := F) i (labelsAt i x1)) p.s3), s0 := p.s0, s1 := (k1_pay1 (F := F) (k1_pay15 (F := F) i (labelsAt i x1)) (k1_pay16 (F := F) (rowsAt i x0) p.s0) p.s1), s2 := (k1_pay2 (F := F) (k1_pay15 (F := F) i (labelsAt i x1)) (k1_pay17 (F := F) (rowsAt i x0) p.s0) p.s2), s3 := (k1_pay3 (F := F) (k1_pay15 (F := F) i (labelsAt i x1)) p.s3) } := by
  unfold step; simp only [if_neg hc1, if_neg hc2, if_pos hc3]

end Cert.Kernel.R1

end
-- ==== Proof.K.Before1.lean ====
import proofs.«105117_j51427938402969_1_alg».proof.Proof.K.Defs1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! # What the second region's windows hold when the body starts

  The three input windows hold their blocks at every grid point. The three single-cell output windows are never
  fetched and are written back only at the last point; the body stores into them at the first point and at the points
  whose inner coordinate is 3, and is idle for them elsewhere. So at every point after the first each holds what the
  point before left: at a live point the body's result there, at an idle point what that point itself found, which by
  induction is the result carried from the last live point — exactly what the fold `S` carries, since one `step` at
  an idle point leaves the three results unchanged. -/

variable (V : (c : Dev nD) → (b : Ref sig .tc) → Buf (Elt F) ((c : Thread nD τ).loc b))

/-- Input window 0's current staging buffer holds its block at every point, fetched there or not: unfetched, the
    block index has not moved. The window is uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not: unfetched, the
    block index has not moved. The window is uncut and never idle. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not: unfetched, the
    block index has not moved. The window is uncut and never idle. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- On an idle point after the first, the point's `step` leaves the first result as the point before left it. -/
theorem S_o3_idle (c : Dev nD) (m : ℕ) (h : m + 1 < cfg1.N) (h3 : (m + 1) % 4 ≠ 3) :
    (S V c (m + 1) h).o3 = (S V c m (Nat.lt_of_succ_lt h)).o3 := by
  rw [S_succ]
  have c1 : ¬ k1_cond1 (grid1.coords ⟨m + 1, h⟩) = 1#1 := fun e => Nat.succ_ne_zero m ((hcond1 ⟨m + 1, h⟩).mp e)
  have c3 : ¬ k1_cond3 (grid1.coords ⟨m + 1, h⟩) = 1#1 := fun e => h3 ((hcond3 ⟨m + 1, h⟩).mp e)
  unfold step
  simp only [if_neg c1, if_neg c3]

/-- Output window 3's staging buffer, at every point after the first, holds what the point before left of the
    first result: through a run of idle points what the last live point left, which is also what `S` carries. -/
theorem before1_3_succ (c : Dev nD) : ∀ (n : ℕ) (h : n + 1 < cfg1.N) (d),
    (dat1 V c).before 3 ⟨n + 1, h⟩ d = (S V c n (Nat.lt_of_succ_lt h)).o3 := by
  intro n
  induction n using Nat.strong_induction_on with
  | _ n ih =>
    intro h d
    have hN : cfg1.N = 64 := N_1
    rw [(dat1 V c).before_of_pos 3 ⟨n + 1, h⟩ (Nat.succ_ne_zero n) (fetch1_out _ 3 (by decide))]
    show (if (cfg1.win 3).flush ⟨n, Nat.lt_of_succ_lt h⟩ then d else (dat1 V c).left 3 ⟨n, Nat.lt_of_succ_lt h⟩ d) = _
    have hfl : (cfg1.win 3).flush ⟨n, Nat.lt_of_succ_lt h⟩ = false :=
      (flush1_out ⟨n, Nat.lt_of_succ_lt h⟩ 3 (by decide)).trans (decide_eq_false (by show n ≠ 63; omega))
    rw [hfl, if_neg Bool.false_ne_true]
    unfold Dat.left
    split
    · next hidle =>
      have hi := (idle1_out ⟨n, Nat.lt_of_succ_lt h⟩ 3 (by decide)).symm.trans hidle
      simp only [Bool.and_eq_true, decide_eq_true_eq] at hi
      obtain ⟨h0, h3⟩ := hi
      cases n with
      | zero => exact absurd rfl h0
      | succ m =>
        refine (ih m (Nat.lt_succ_self m) (Nat.lt_of_succ_lt h) d).trans ?_
        exact (S_o3_idle V c m (Nat.lt_of_succ_lt h) h3).symm
    · next hlive =>
      unfold Dat.kept
      rw [Pipeline.fill_of_clip_none (cfg := cfg1) 3 _ (fun _ => rfl) d ((dat1 V c).after 3 ⟨n, Nat.lt_of_succ_lt h⟩),
        Window.fill_cut, after1_3]

theorem before1_3 (c : Dev nD) (t : Fin cfg1.N) (ht : t.val ≠ 0) (d) :
    (dat1 V c).before 3 t d = (S V c (t.val - 1) (Nat.lt_of_le_of_lt (Nat.sub_le _ _) t.isLt)).o3 := by
  obtain ⟨n, hn⟩ := t
  cases n with
  | zero => exact absurd rfl ht
  | succ m => exact before1_3_succ V c m hn d

/-- On an idle point after the first, the point's `step` leaves the second result as the point before left it. -/
theorem S_o4_idle (c : Dev nD) (m : ℕ) (h : m + 1 < cfg1.N) (h3 : (m + 1) % 4 ≠ 3) :
    (S V c (m + 1) h).o4 = (S V c m (Nat.lt_of_succ_lt h)).o4 := by
  rw [S_succ]
  have c1 : ¬ k1_cond1 (grid1.coords ⟨m + 1, h⟩) = 1#1 := fun e => Nat.succ_ne_zero m ((hcond1 ⟨m + 1, h⟩).mp e)
  have c3 : ¬ k1_cond3 (grid1.coords ⟨m + 1, h⟩) = 1#1 := fun e => h3 ((hcond3 ⟨m + 1, h⟩).mp e)
  unfold step
  simp only [if_neg c1, if_neg c3]

/-- Output window 4's staging buffer, at every point after the first, holds what the point before left of the
    second result: through a run of idle points what the last live point left, which is also what `S` carries. -/
theorem before1_4_succ (c : Dev nD) : ∀ (n : ℕ) (h : n + 1 < cfg1.N) (d),
    (dat1 V c).before 4 ⟨n + 1, h⟩ d = (S V c n (Nat.lt_of_succ_lt h)).o4 := by
  intro n
  induction n using Nat.strong_induction_on with
  | _ n ih =>
    intro h d
    have hN : cfg1.N = 64 := N_1
    rw [(dat1 V c).before_of_pos 4 ⟨n + 1, h⟩ (Nat.succ_ne_zero n) (fetch1_out _ 4 (by decide))]
    show (if (cfg1.win 4).flush ⟨n, Nat.lt_of_succ_lt h⟩ then d else (dat1 V c).left 4 ⟨n, Nat.lt_of_succ_lt h⟩ d) = _
    have hfl : (cfg1.win 4).flush ⟨n, Nat.lt_of_succ_lt h⟩ = false :=
      (flush1_out ⟨n, Nat.lt_of_succ_lt h⟩ 4 (by decide)).trans (decide_eq_false (by show n ≠ 63; omega))
    rw [hfl, if_neg Bool.false_ne_true]
    unfold Dat.left
    split
    · next hidle =>
      have hi := (idle1_out ⟨n, Nat.lt_of_succ_lt h⟩ 4 (by decide)).symm.trans hidle
      simp only [Bool.and_eq_true, decide_eq_true_eq] at hi
      obtain ⟨h0, h3⟩ := hi
      cases n with
      | zero => exact absurd rfl h0
      | succ m =>
        refine (ih m (Nat.lt_succ_self m) (Nat.lt_of_succ_lt h) d).trans ?_
        exact (S_o4_idle V c m (Nat.lt_of_succ_lt h) h3).symm
    · next hlive =>
      unfold Dat.kept
      rw [Pipeline.fill_of_clip_none (cfg := cfg1) 4 _ (fun _ => rfl) d ((dat1 V c).after 4 ⟨n, Nat.lt_of_succ_lt h⟩),
        Window.fill_cut, after1_4]

theorem before1_4 (c : Dev nD) (t : Fin cfg1.N) (ht : t.val ≠ 0) (d) :
    (dat1 V c).before 4 t d = (S V c (t.val - 1) (Nat.lt_of_le_of_lt (Nat.sub_le _ _) t.isLt)).o4 := by
  obtain ⟨n, hn⟩ := t
  cases n with
  | zero => exact absurd rfl ht
  | succ m => exact before1_4_succ V c m hn d

/-- On an idle point after the first, the point's `step` leaves the third result as the point before left it. -/
theorem S_o5_idle (c : Dev nD) (m : ℕ) (h : m + 1 < cfg1.N) (h3 : (m + 1) % 4 ≠ 3) :
    (S V c (m + 1) h).o5 = (S V c m (Nat.lt_of_succ_lt h)).o5 := by
  rw [S_succ]
  have c1 : ¬ k1_cond1 (grid1.coords ⟨m + 1, h⟩) = 1#1 := fun e => Nat.succ_ne_zero m ((hcond1 ⟨m + 1, h⟩).mp e)
  have c3 : ¬ k1_cond3 (grid1.coords ⟨m + 1, h⟩) = 1#1 := fun e => h3 ((hcond3 ⟨m + 1, h⟩).mp e)
  unfold step
  simp only [if_neg c1, if_neg c3]

/-- Output window 5's staging buffer, at every point after the first, holds what the point before left of the
    third result: through a run of idle points what the last live point left, which is also what `S` carries. -/
theorem before1_5_succ (c : Dev nD) : ∀ (n : ℕ) (h : n + 1 < cfg1.N) (d),
    (dat1 V c).before 5 ⟨n + 1, h⟩ d = (S V c n (Nat.lt_of_succ_lt h)).o5 := by
  intro n
  induction n using Nat.strong_induction_on with
  | _ n ih =>
    intro h d
    have hN : cfg1.N = 64 := N_1
    rw [(dat1 V c).before_of_pos 5 ⟨n + 1, h⟩ (Nat.succ_ne_zero n) (fetch1_out _ 5 (by decide))]
    show (if (cfg1.win 5).flush ⟨n, Nat.lt_of_succ_lt h⟩ then d else (dat1 V c).left 5 ⟨n, Nat.lt_of_succ_lt h⟩ d) = _
    have hfl : (cfg1.win 5).flush ⟨n, Nat.lt_of_succ_lt h⟩ = false :=
      (flush1_out ⟨n, Nat.lt_of_succ_lt h⟩ 5 (by decide)).trans (decide_eq_false (by show n ≠ 63; omega))
    rw [hfl, if_neg Bool.false_ne_true]
    unfold Dat.left
    split
    · next hidle =>
      have hi := (idle1_out ⟨n, Nat.lt_of_succ_lt h⟩ 5 (by decide)).symm.trans hidle
      simp only [Bool.and_eq_true, decide_eq_true_eq] at hi
      obtain ⟨h0, h3⟩ := hi
      cases n with
      | zero => exact absurd rfl h0
      | succ m =>
        refine (ih m (Nat.lt_succ_self m) (Nat.lt_of_succ_lt h) d).trans ?_
        exact (S_o5_idle V c m (Nat.lt_of_succ_lt h) h3).symm
    · next hlive =>
      unfold Dat.kept
      rw [Pipeline.fill_of_clip_none (cfg := cfg1) 5 _ (fun _ => rfl) d ((dat1 V c).after 5 ⟨n, Nat.lt_of_succ_lt h⟩),
        Window.fill_cut, after1_5]

theorem before1_5 (c : Dev nD) (t : Fin cfg1.N) (ht : t.val ≠ 0) (d) :
    (dat1 V c).before 5 t d = (S V c (t.val - 1) (Nat.lt_of_le_of_lt (Nat.sub_le _ _) t.isLt)).o5 := by
  obtain ⟨n, hn⟩ := t
  cases n with
  | zero => exact absurd rfl ht
  | succ m => exact before1_5_succ V c m hn d

end Cert.Kernel.R1

end
-- ==== Proof.K.Region1.lean ====
import proofs.«105117_j51427938402969_1_alg».proof.Proof.Gen.Kernel.Launch
import proofs.«105117_j51427938402969_1_alg».proof.Proof.Gen.Kernel.Skeleton
import proofs.«105117_j51427938402969_1_alg».proof.Proof.Gen.Kernel.Points
import proofs.«105117_j51427938402969_1_alg».proof.Proof.K.Runs1
import proofs.«105117_j51427938402969_1_alg».proof.Proof.K.Defs1
import proofs.«105117_j51427938402969_1_alg».proof.Proof.K.Before1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! # The second region's body obligation

  At every grid point the pipeline hands the body the six windows' current staging buffers and the region invariant;
  the input buffers hold their blocks, the three result cells what the point before left (anything, at the first
  point), the scratch buffers what the invariant says. The point's control case is read off its position (first point;
  inner coordinate 0; inner coordinate 3; otherwise), that case's run applies, and what it leaves is `S` at this point
  by `step`'s equation for the case. Where the body does not touch the result cells they are handed back as found. -/

variable (V : (c : Dev nD) → (b : Ref sig .tc) → Buf (Elt F) ((c : Thread nD τ).loc b))

/-- Each window's current staging memref at point `t`, spelled as the pipeline passes it. -/
abbrev ms1_0 (t : Fin cfg1.N) : Memref sig .tc .vmem S4096x512 .bf16 := win1_0.stage (cfg1.slots t 0)
abbrev ms1_1 (t : Fin cfg1.N) : Memref sig .tc .vmem S4096x1 .i32 := win1_1.stage (cfg1.slots t 1)
abbrev ms1_2 (t : Fin cfg1.N) : Memref sig .tc .vmem S1024x512 .f32 := win1_2.stage (cfg1.slots t 2)
abbrev ms1_3 (t : Fin cfg1.N) : Memref sig .tc .vmem S1x1 .f32 := win1_3.stage (cfg1.slots t 3)
abbrev ms1_4 (t : Fin cfg1.N) : Memref sig .tc .vmem S1x1 .f32 := win1_4.stage (cfg1.slots t 4)
abbrev ms1_5 (t : Fin cfg1.N) : Memref sig .tc .vmem S1x1 .f32 := win1_5.stage (cfg1.slots t 5)

theorem S_at_zero (c : Dev nD) (t : Fin cfg1.N) (hz : t.val = 0) :
    S V c t.val t.isLt = step (grid1.coords t) (iblk1 V c 0 t) (iblk1 V c 1 t) (iblk1 V c 2 t) junkSt := by
  obtain ⟨n, hn⟩ := t
  cases n with
  | zero => rfl
  | succ n => exact absurd hz (Nat.succ_ne_zero n)

theorem idle_live (t : Fin cfg1.N) (w : Fin cfg1.W) (hw : 3 ≤ w.val) (h : t.val = 0 ∨ t.val % 4 = 3) :
    cfg1.idle w (grid1.coords t) = false := by
  rw [idle1_out t w hw]; rcases h with h | h <;> simp [h]

theorem idle_idle (t : Fin cfg1.N) (w : Fin cfg1.W) (hw : 3 ≤ w.val) (h0 : t.val ≠ 0) (h3 : ¬ t.val % 4 = 3) :
    cfg1.idle w (grid1.coords t) = true := by
  rw [idle1_out t w hw]; simp [h0, h3]

theorem noflush (t : Fin cfg1.N) (w : Fin cfg1.W) (hw : 3 ≤ w.val) (h3 : ¬ t.val % 4 = 3) :
    (cfg1.win w).flush t = false := by
  rw [flush1_out t w hw]; simp only [decide_eq_false_iff_not]; omega

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  rw [show (dat1 V c).leavesExact 2 t = owns (c : Thread nD τ) (ms1_2 t) fullShare ((dat1 V c).after 2 t) from by
    unfold Dat.leavesExact; rfl, after1_2]
  simp only [before1_0, before1_1, before1_2]
  by_cases hz : t.val = 0
  · -- the first point: everything is reset
    have hc1 : k1_cond1 (grid1.coords t) = 1#1 := (hcond1 t).mpr hz
    have hc2 : cond2 (grid1.coords t) := (hcond2 t).mpr (by omega)
    have hc3 : ¬ k1_cond3 (grid1.coords t) = 1#1 := fun h => by have := (hcond3 t).mp h; omega
    rw [show (dat1 V c).leavesExact 3 t = owns (c : Thread nD τ) (ms1_3 t) fullShare ((dat1 V c).after 3 t) from by
      unfold Dat.leavesExact; rw [idle_live t 3 (by decide) (Or.inl hz)], after1_3]
    rw [show (dat1 V c).leavesExact 4 t = owns (c : Thread nD τ) (ms1_4 t) fullShare ((dat1 V c).after 4 t) from by
      unfold Dat.leavesExact; rw [idle_live t 4 (by decide) (Or.inl hz)], after1_4]
    rw [show (dat1 V c).leavesExact 5 t = owns (c : Thread nD τ) (ms1_5 t) fullShare ((dat1 V c).after 5 t) from by
      unfold Dat.leavesExact; rw [idle_live t 5 (by decide) (Or.inl hz)], after1_5]
    rw [S_at_zero V c t hz, step_A _ _ _ _ _ hc1 hc2 hc3]
    dsimp only
    rw [PhiS_castSucc V c t, PhiS_zero V c _ _ hz, PhiA1_eq]
    iintro ⟨⟨⟨O1, O2, O3, O4, O5, O6, ⟨%ds0, HS0⟩, ⟨%ds1, HS1⟩, ⟨%ds2, HS2⟩, ⟨%ds3, HS3⟩⟩, Hg⟩, Ho, ⟨%d0, H0⟩, ⟨%d1, H1⟩, ⟨%d2, H2⟩, ⟨%d3, H3⟩, ⟨%d4, H4⟩, ⟨%d5, H5⟩⟩
    iapply (run1_A c (grid1.coords t) _ _ _ _ _ _ _ _ _ _ _ _ _ _ _ _ _ _ _ _ hc1 hc2 hc3 (iblk1 V c 0 t) (iblk1 V c 1 t) (iblk1 V c 2 t) _ _ _ ds0 ds1 ds2 ds3 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [O1 O2 O3 O4 O5 O6 HS0 HS1 HS2 HS3 Hg]
    · isplitl [O1 O2 O3 O4 O5 O6]
      · isplitl [O1]; · iexact O1
        isplitl [O2]; · iexact O2
        isplitl [O3]; · iexact O3
        isplitl [O4]; · iexact O4
        isplitl [O5]; · iexact O5
        iexact O6
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬ k1_cond1 (grid1.coords t) = 1#1 := fun h => hz ((hcond1 t).mp h)
    simp only [before1_3 V c t hz, before1_4 V c t hz, before1_5 V c t hz]
    rw [PhiS_castSucc V c t, PhiS_pos V c _ _ hz]
    by_cases h0 : t.val % 4 = 0
    · -- inner coordinate 0 of a later tile: the proxy tile and the accumulators are reset
      have hc2 : cond2 (grid1.coords t) := (hcond2 t).mpr h0
      have h3 : ¬ t.val % 4 = 3 := by omega
      have hc3 : ¬ k1_cond3 (grid1.coords t) = 1#1 := fun h => h3 ((hcond3 t).mp h)
      rw [Dat.leavesExact_idle (dat1 V c) 3 t (idle_idle t 3 (by decide) hz h3) (noflush t 3 (by decide) h3)]
      rw [Dat.leavesExact_idle (dat1 V c) 4 t (idle_idle t 4 (by decide) hz h3) (noflush t 4 (by decide) h3)]
      rw [Dat.leavesExact_idle (dat1 V c) 5 t (idle_idle t 5 (by decide) hz h3) (noflush t 5 (by decide) h3)]
      simp only [before1_3 V c t hz, before1_4 V c t hz, before1_5 V c t hz]
      rw [S_pos V c t hz, step_B _ _ _ _ _ hc1 hc2 hc3]
      dsimp only
      iintro ⟨⟨⟨O1, O2, O3, O4, O5, O6⟩, HS0, HS1, HS2, HS3, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ _ _ _ _ _ _ hc1 hc2 hc3 (iblk1 V c 0 t) (iblk1 V c 1 t) (iblk1 V c 2 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [O1 O2 O3 O4 O5 O6 HS0 HS1 HS2 HS3 Hg]
      · isplitl [O1 O2 O3 O4 O5 O6]
        · isplitl [O1]; · iexact O1
          isplitl [O2]; · iexact O2
          isplitl [O3]; · iexact O3
          isplitl [O4]; · iexact O4
          isplitl [O5]; · iexact O5
          iexact O6
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      isplitl [H2]; · iexact H2
      isplitl [H3]; · iexists d3; iexact H3
      isplitl [H4]; · iexists d4; iexact H4
      iexists d5; iexact H5
    · have hc2 : ¬ cond2 (grid1.coords t) := fun h => h0 ((hcond2 t).mp h)
      by_cases h3 : t.val % 4 = 3
      · -- inner coordinate 3: the accumulators are folded into the results
        have hc3 : k1_cond3 (grid1.coords t) = 1#1 := (hcond3 t).mpr h3
        rw [show (dat1 V c).leavesExact 3 t = owns (c : Thread nD τ) (ms1_3 t) fullShare ((dat1 V c).after 3 t) from by
          unfold Dat.leavesExact; rw [idle_live t 3 (by decide) (Or.inr h3)], after1_3]
        rw [show (dat1 V c).leavesExact 4 t = owns (c : Thread nD τ) (ms1_4 t) fullShare ((dat1 V c).after 4 t) from by
          unfold Dat.leavesExact; rw [idle_live t 4 (by decide) (Or.inr h3)], after1_4]
        rw [show (dat1 V c).leavesExact 5 t = owns (c : Thread nD τ) (ms1_5 t) fullShare ((dat1 V c).after 5 t) from by
          unfold Dat.leavesExact; rw [idle_live t 5 (by decide) (Or.inr h3)], after1_5]
        rw [S_pos V c t hz, step_D _ _ _ _ _ hc1 hc2 hc3]
        dsimp only
        iintro ⟨⟨⟨O1, O2, O3, O4, O5, O6⟩, HS0, HS1, HS2, HS3, Hg⟩, Ho, ⟨%d0, H0⟩, ⟨%d1, H1⟩, ⟨%d2, H2⟩, ⟨%d3, H3⟩, ⟨%d4, H4⟩, ⟨%d5, H5⟩⟩
        iapply (run1_D c (grid1.coords t) _ _ _ _ _ _ _ _ _ _ _ _ _ _ _ _ _ _ _ _ hc1 hc2 hc3 (iblk1 V c 0 t) (iblk1 V c 1 t) (iblk1 V c 2 t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [O1 O2 O3 O4 O5 O6 HS0 HS1 HS2 HS3 Hg]
        · isplitl [O1 O2 O3 O4 O5 O6]
          · isplitl [O1]; · iexact O1
            isplitl [O2]; · iexact O2
            isplitl [O3]; · iexact O3
            isplitl [O4]; · iexact O4
            isplitl [O5]; · iexact O5
            iexact O6
          isplitl [HS0]; · iexact HS0
          isplitl [HS1]; · iexact HS1
          isplitl [HS2]; · iexact HS2
          isplitl [HS3]; · iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
      · -- an inner point: only the accumulators move
        have hc3 : ¬ k1_cond3 (grid1.coords t) = 1#1 := fun h => h3 ((hcond3 t).mp h)
        rw [Dat.leavesExact_idle (dat1 V c) 3 t (idle_idle t 3 (by decide) hz h3) (noflush t 3 (by decide) h3)]
        rw [Dat.leavesExact_idle (dat1 V c) 4 t (idle_idle t 4 (by decide) hz h3) (noflush t 4 (by decide) h3)]
        rw [Dat.leavesExact_idle (dat1 V c) 5 t (idle_idle t 5 (by decide) hz h3) (noflush t 5 (by decide) h3)]
        simp only [before1_3 V c t hz, before1_4 V c t hz, before1_5 V c t hz]
        rw [S_pos V c t hz, step_C _ _ _ _ _ hc1 hc2 hc3]
        dsimp only
        iintro ⟨⟨⟨O1, O2, O3, O4, O5, O6⟩, HS0, HS1, HS2, HS3, Hg⟩, Ho, ⟨%d0, H0⟩, ⟨%d1, H1⟩, ⟨%d2, H2⟩, ⟨%d3, H3⟩, ⟨%d4, H4⟩, ⟨%d5, H5⟩⟩
        iapply (run1_C c (grid1.coords t) _ _ _ _ _ _ _ _ _ _ _ _ _ _ _ _ _ _ _ _ hc1 hc2 hc3 (iblk1 V c 0 t) (iblk1 V c 1 t) (iblk1 V c 2 t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [O1 O2 O3 O4 O5 O6 HS0 HS1 HS2 HS3 Hg]
        · isplitl [O1 O2 O3 O4 O5 O6]
          · isplitl [O1]; · iexact O1
            isplitl [O2]; · iexact O2
            isplitl [O3]; · iexact O3
            isplitl [O4]; · iexact O4
            isplitl [O5]; · iexact O5
            iexact O6
          isplitl [HS0]; · iexact HS0
          isplitl [HS1]; · iexact HS1
          isplitl [HS2]; · iexact HS2
          isplitl [HS3]; · iexact HS3
          iexact Hg
        isplitl [Ho]; · iexact Ho
        isplitl [H0]; · iexact H0
        isplitl [H1]; · iexact H1
        isplitl [H2]; · iexact H2
        isplitl [H3]; · iexists d3; iexact H3
        isplitl [H4]; · iexists d4; iexact H4
        iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.K.RunSegs.lean ====
/-
  The program's two kernel regions and three host stretches as segments over one thread state: between two
  segments a core holds every unscoped buffer whole at the boundary's contents, its generator register at some
  state, and owes nothing. A region splits its arrays out of the unscoped buffers at entry and puts them back at the
  exit contents; the generator register goes into the region's invariant and comes back; neither kernel has a
  semaphore of its own.
-/
import proofs.«105117_j51427938402969_1_alg».proof.Proof.K.RunW
import proofs.«105117_j51427938402969_1_alg».proof.Proof.K.Region1
import Idealize.ShloMosaic.Lib.Pipeline.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- A host stretch as a segment: over the unscoped references from the contents W, R riding along; it ends with those
    references at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its invariant is the class's
    at both ends (the scratch contents it names in between are forgotten at the exit). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (R1.dat1 (V3 m ρ) c).Φ 0 from rfl]
    refine BIBase.Entails.trans ?_ (R1.hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (R1.dat1 (V3 m ρ) c).Φ (Fin.last cfg1.N) from rfl]
    refine BIBase.Entails.trans (R1.hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Run.lean ====
/-
  The whole run of the program from the launch to the return, as five segments in order — a host stretch, region 0,
  a host stretch, region 1, a host stretch — each entered from the thread state the one before it left. From any
  memory with zero counters every weakly fair execution terminates, and in every final state each unscoped buffer of
  each core holds the last boundary's contents; in particular the five argument arrays hold what they were launched with.
-/
import proofs.«105117_j51427938402969_1_alg».proof.Proof.K.RunSegs

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program as segments -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The program is the run of its segments. -/
theorem main_run (c : Dev nD) : main (F := F) c = Pipeline.Seg.run (segs m ρ) :=
  main_segs adm (pdats m ρ) () 𝒱₀ L lv _ _ _ (reg0 m ρ) (reg1 m ρ) rfl rfl rfl c

/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The run, with any conclusion that follows from every core's unscoped buffers being at the last boundary's contents. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE RUN: from any memory with zero counters every weakly fair execution of the program terminates, nothing
    faulting, and every final state has each unscoped buffer of each core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  run_post m ρ fun _ h => h

/-- THE FRAME: every final state has the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩

end Cert.Kernel.Run

end
-- ==== Proof.KI.Region0.lean ====
/- Region 0 of @main (the first pallas_call: Linear, row-normalise, ReLU, row-normalise, narrow to bf16) as a
   pipeline body: what each window's staging buffer holds when the body is entered at a grid point, what the body
   leaves in the output window's buffer (one covering store of a pure function of the three loaded blocks), the
   body's separation-logic triple, and the pipeline's proof data with its body obligation — all at a parameter
   V, the TensorCore's buffer contents when the region is entered. -/
import proofs.«105117_j51427938402969_1_alg».proof.Proof.Gen.KernelIdeal.Launch
import proofs.«105117_j51427938402969_1_alg».proof.Proof.Gen.KernelIdeal.Skeleton
import proofs.«105117_j51427938402969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a block of 1024 rows of the batch, fetched at every point): its current staging buffer holds
    its block, for any proof data whose array is V's and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only): its staging buffer holds its block
    at every point, fetched there or not — unfetched, the block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias as one row, fetched at the first point only): likewise. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0

/-! ## What the body leaves in the output window's buffer -/

/-- Window 3's staging buffer after the body, from the three input blocks: its one store, the whole buffer, of the
    body's arithmetic as one pure term of the three loaded vectors. -/
def out0_3 (x0 : Vec F S1024x512 .f32) (x1 : Vec F S512x512 .f32) (x2 : Vec F S1x512 .f32) : Vec F S1024x512 .bf16 :=
  View.canon [⟨r0_0, k0_pay1 (View.ld x0 r0_0) (View.ld x1 r0_1) (View.ld x2 r0_2)⟩]

/-- The one store is of the whole buffer, so it covers it. -/
theorem cover0_3 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 1000000 in
/-- The kernel body on whole staging memrefs, the inputs' at contents xW and the output's at anything, runs to the
    continuation holding the inputs' as they were and the output's at out0_3 of the inputs': the body is three whole
    loads, a load of the output buffer whose value is not used, and one covering store of the pure term. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .bf16) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc_kernel i arg1 harg1 arg2 harg2 arg3 harg3 arg4 harg4) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of pipeline 0 on core c: the arrays as the region finds them (V); after the body at point t
    each input's buffer at its block and the output's at out0_3 of the three input blocks; the invariant the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.State1.lean ====
/-
  What the second kernel keeps from one grid point to the next, as a pure recursion.

  The second kernel runs over a 16 × 4 grid: the outer coordinate picks a tile of 1024 proxies, the inner one a tile of
  1024 batch rows. Between points it carries seven buffers: the normalised proxy tile (written at the first inner point
  of each outer point), three row accumulators of 1024 columns (zeroed there, added to at every point), and the three
  single-cell results (zeroed at the very first point, added to at the last inner point of each outer point). One
  point's effect on these seven buffers is `step`, written over the body's named arithmetic; the contents after point
  `n` are `st n`, the fold of `step` along the grid. Nothing here mentions memory: the run shows that the buffers hold
  `st`, and the value lemmas read `st` at the last point.
-/
import proofs.«105117_j51427938402969_1_alg».proof.Proof.Gen.KernelIdeal.Skeleton
import proofs.«105117_j51427938402969_1_alg».proof.Proof.Gen.KernelIdeal.Launch
import Idealize.ShloMosaic.Lib.Pipeline.FrameBody

noncomputable section

namespace Cert.KernelIdeal.R1

open Idealize.ShloMosaic Cert.KernelIdeal Cert.KernelIdeal.Gen

variable {F : FTy → Type} [FloatOps F]

/-- The second conditional's condition — the inner grid coordinate is 0 — as the kernel computes it. -/
abbrev cond2 (i : grid1.Coords) : Prop :=
  Scalar.cmpi .ne (Scalar.extui (Scalar.cmpi .eq (BitVec.ofNat 32 (i 1).val) 0#32)) 0#32 = 1#1

/-- The seven buffers the kernel carries between grid points: the three single-cell results, the normalised proxy
    tile, and the three row accumulators. -/
structure St (F : FTy → Type) where
  o3 : Vec F S1x1 .f32
  o4 : Vec F S1x1 .f32
  o5 : Vec F S1x1 .f32
  s0 : Vec F S1024x512 .bf16
  s1 : Vec F S1x1024 .f32
  s2 : Vec F S1x1024 .f32
  s3 : Vec F S1x1024 .f32

/-- The tile of embedded batch rows the point reads: rows `1024 · (inner coordinate)` on. -/
abbrev rowsAt (i : grid1.Coords) (x0 : Vec F S4096x512 .bf16) : Vec F S1024x512 .bf16 :=
  View.ld x0 (Rect.unit (s := S4096x512) (k1_off1 i) S1024x512.size (k1_off1_inb i))
/-- The labels of those rows. -/
abbrev labelsAt (i : grid1.Coords) (x1 : Vec F S4096x1 .i32) : Vec F S1024x1 .i32 :=
  View.ld x1 (Rect.unit (s := S4096x1) (k1_off2 i) S1024x1.size (k1_off2_inb i))

/-- One grid point: from the embedded batch `x0`, the labels `x1`, the point's proxy tile `x2` and what the point
    before left (`p`), what this point leaves. The first two conditionals reset (results at the very first point;
    proxy tile and accumulators at inner coordinate 0), the middle adds this tile's column sums into the accumulators,
    the last conditional (inner coordinate 3) adds the accumulators' `log1p` sums and the count of non-empty columns
    into the results. -/
def step (i : grid1.Coords) (x0 : Vec F S4096x512 .bf16) (x1 : Vec F S4096x1 .i32) (x2 : Vec F S1024x512 .f32)
    (p : St F) : St F :=
  let o3a : Vec F S1x1 .f32 := if k1_cond1 i = 1#1 then k1_pay7 (F := F) else p.o3
  let o4a : Vec F S1x1 .f32 := if k1_cond1 i = 1#1 then k1_pay8 (F := F) else p.o4
  let o5a : Vec F S1x1 .f32 := if k1_cond1 i = 1#1 then k1_pay9 (F := F) else p.o5
  let s0a : Vec F S1024x512 .bf16 := if cond2 i then k1_pay13 (F := F) x2 else p.s0
  let s1a : Vec F S1x1024 .f32 := if cond2 i then k1_pay10 (F := F) else p.s1
  let s2a : Vec F S1x1024 .f32 := if cond2 i then k1_pay11 (F := F) else p.s2
  let s3a : Vec F S1x1024 .f32 := if cond2 i then k1_pay12 (F := F) else p.s3
  let v25 : IVec S1024x1024 1 := k1_pay15 (F := F) i (labelsAt i x1)
  let s1b : Vec F S1x1024 .f32 := k1_pay1 (F := F) v25 (k1_pay16 (F := F) (rowsAt i x0) s0a) s1a
  let s2b : Vec F S1x1024 .f32 := k1_pay2 (F := F) v25 (k1_pay17 (F := F) (rowsAt i x0) s0a) s2a
  let s3b : Vec F S1x1024 .f32 := k1_pay3 (F := F) v25 s3a
  { o3 := if k1_cond3 i = 1#1 then k1_pay4 (F := F) o3a s1b else o3a
    o4 := if k1_cond3 i = 1#1 then k1_pay5 (F := F) o4a s2b else o4a
    o5 := if k1_cond3 i = 1#1 then k1_pay6 (F := F) o5a s3b else o5a
    s0 := s0a
    s1 := s1b
    s2 := s2b
    s3 := s3b }

/-- The contents after grid position `n`: `step` folded along the grid from `init` (what the buffers held before the
    first point; the first point overwrites all seven, so nothing read at the end depends on it). `x0 t`, `x1 t`, `x2 t` are the
    embedded batch, the labels and the proxy tile as the pipeline hands them to point `t` (the first two are the same
    whole arrays at every point). -/
def st (x0 : Fin cfg1.N → Vec F S4096x512 .bf16) (x1 : Fin cfg1.N → Vec F S4096x1 .i32) (x2 : Fin cfg1.N → Vec F S1024x512 .f32) (init : St F) :
    (n : ℕ) → n < cfg1.N → St F
  | 0, h => step (grid1.coords ⟨0, h⟩) (x0 ⟨0, h⟩) (x1 ⟨0, h⟩) (x2 ⟨0, h⟩) init
  | n + 1, h => step (grid1.coords ⟨n + 1, h⟩) (x0 ⟨n + 1, h⟩) (x1 ⟨n + 1, h⟩) (x2 ⟨n + 1, h⟩) (st x0 x1 x2 init n (Nat.lt_of_succ_lt h))

theorem st_zero (x0 : Fin cfg1.N → Vec F S4096x512 .bf16) (x1 : Fin cfg1.N → Vec F S4096x1 .i32) (x2 : Fin cfg1.N → Vec F S1024x512 .f32) (init : St F)
    (h : 0 < cfg1.N) : st x0 x1 x2 init 0 h = step (grid1.coords ⟨0, h⟩) (x0 ⟨0, h⟩) (x1 ⟨0, h⟩) (x2 ⟨0, h⟩) init := rfl

theorem st_succ (x0 : Fin cfg1.N → Vec F S4096x512 .bf16) (x1 : Fin cfg1.N → Vec F S4096x1 .i32) (x2 : Fin cfg1.N → Vec F S1024x512 .f32) (init : St F)
    (n : ℕ) (h : n + 1 < cfg1.N) :
    st x0 x1 x2 init (n + 1) h = step (grid1.coords ⟨n + 1, h⟩) (x0 ⟨n + 1, h⟩) (x1 ⟨n + 1, h⟩) (x2 ⟨n + 1, h⟩) (st x0 x1 x2 init n (Nat.lt_of_succ_lt h)) := rfl

end Cert.KernelIdeal.R1

end
-- ==== Proof.KI.Defs1.lean ====
import proofs.«105117_j51427938402969_1_alg».proof.Proof.Gen.KernelIdeal.Launch
import proofs.«105117_j51427938402969_1_alg».proof.Proof.Gen.KernelIdeal.Skeleton
import proofs.«105117_j51427938402969_1_alg».proof.Proof.Gen.KernelIdeal.Points
import proofs.«105117_j51427938402969_1_alg».proof.Proof.KI.State1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! # The second region's proof data

  Region 1's kernel keeps seven buffers from point to point (State1: `St`, `step`, `st`). Here the fold is taken at
  the blocks the pipeline hands the body (`S`), the four scratch buffers' contents are put in the region invariant
  (`PhiS`: after point `n` they hold `S n`), and the three single-cell output windows' staging buffers are stated to hold
  `S t`'s results after EVERY point `t` — also the points where the body does not touch them, where they keep what the
  point before left. -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operands: whole scoped buffers of the kernel's own, passed beside the windows. -/
abbrev scM0 : Memref sig .tc .vmem S1024x512 .bf16 := Memref.whole cc1_scratch0
abbrev scM1 : Memref sig .tc .vmem S1x1024 .f32 := Memref.whole cc1_scratch1
abbrev scM2 : Memref sig .tc .vmem S1x1024 .f32 := Memref.whole cc1_scratch2
abbrev scM3 : Memref sig .tc .vmem S1x1024 .f32 := Memref.whole cc1_scratch3

/-- Contents nobody reads: what the seven buffers hold before the first point (the first point overwrites them all). -/
def junkSt : St F :=
  ⟨k1_pay7 (F := F), k1_pay8 (F := F), k1_pay9 (F := F), k1_pay13 (F := F) (fun _ => Scalar.ofBits .f32 0x00000000#32),
   k1_pay10 (F := F), k1_pay11 (F := F), k1_pay12 (F := F)⟩

/-- The seven carried buffers after grid position `n`: the fold of `step` over the blocks the pipeline hands the body. -/
def S (c : Dev nD) (n : ℕ) (hn : n < cfg1.N) : St F :=
  st (fun t => iblk1 V c 0 t) (fun t => iblk1 V c 1 t) (fun t => iblk1 V c 2 t) junkSt n hn

theorem S_zero (c : Dev nD) (h : 0 < cfg1.N) :
    S V c 0 h = step (grid1.coords ⟨0, h⟩) (iblk1 V c 0 ⟨0, h⟩) (iblk1 V c 1 ⟨0, h⟩) (iblk1 V c 2 ⟨0, h⟩) junkSt := rfl

theorem S_succ (c : Dev nD) (n : ℕ) (h : n + 1 < cfg1.N) :
    S V c (n + 1) h = step (grid1.coords ⟨n + 1, h⟩) (iblk1 V c 0 ⟨n + 1, h⟩) (iblk1 V c 1 ⟨n + 1, h⟩) (iblk1 V c 2 ⟨n + 1, h⟩)
      (S V c n (Nat.lt_of_succ_lt h)) := rfl

/-- After any point but the first, `S` is one `step` from the point before. -/
theorem S_pos (c : Dev nD) (t : Fin cfg1.N) (ht : t.val ≠ 0) :
    S V c t.val t.isLt = step (grid1.coords t) (iblk1 V c 0 t) (iblk1 V c 1 t) (iblk1 V c 2 t)
      (S V c (t.val - 1) (Nat.lt_of_le_of_lt (Nat.sub_le _ _) t.isLt)) := by
  obtain ⟨n, hn⟩ := t
  cases n with
  | zero => exact absurd rfl ht
  | succ n => rfl

/-- The scoped buffers of the OTHER region (its staging buffers), which this region never touches: at anything. -/
abbrev others (c : Dev nD) : sProp 𝕄 := iprop((∃ f, ((c : Thread nD τ).loc cc0_stg0_0) ↦{fullShare} f) ∗ (∃ f, ((c : Thread nD τ).loc cc0_stg0_1) ↦{fullShare} f) ∗ (∃ f, ((c : Thread nD τ).loc cc0_stg1_0) ↦{fullShare} f) ∗ (∃ f, ((c : Thread nD τ).loc cc0_stg2_0) ↦{fullShare} f) ∗ (∃ f, ((c : Thread nD τ).loc cc0_stg3_0) ↦{fullShare} f) ∗ (∃ f, ((c : Thread nD τ).loc cc0_stg3_1) ↦{fullShare} f))

/-- The region invariant before position `n`: before the first point the class's (every scratch at anything); afterwards
    the four scratch buffers at what the point before left in them and the generator register at some state. -/
def PhiS (c : Dev nD) : (n : ℕ) → n ≤ cfg1.N → sProp 𝕄
  | 0, _ => Pipeline.ΦA spec1 c
  | n + 1, hn => iprop(others c ∗ owns (c : Thread nD τ) scM0 fullShare (S V c n hn).s0 ∗ owns (c : Thread nD τ) scM1 fullShare (S V c n hn).s1
      ∗ owns (c : Thread nD τ) scM2 fullShare (S V c n hn).s2 ∗ owns (c : Thread nD τ) scM3 fullShare (S V c n hn).s3 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others c ∗ owns (c : Thread nD τ) scM0 fullShare (S V c n hn).s0 ∗ owns (c : Thread nD τ) scM1 fullShare (S V c n hn).s1
      ∗ owns (c : Thread nD τ) scM2 fullShare (S V c n hn).s2 ∗ owns (c : Thread nD τ) scM3 fullShare (S V c n hn).s3 ∗ (∃ r, prngReg c r)) := rfl

theorem PhiS_pos (c : Dev nD) (n : ℕ) (h : n ≤ cfg1.N) (hz : n ≠ 0) :
    PhiS V c n h = iprop(others c ∗ owns (c : Thread nD τ) scM0 fullShare (S V c (n - 1) (by omega)).s0 ∗ owns (c : Thread nD τ) scM1 fullShare (S V c (n - 1) (by omega)).s1
      ∗ owns (c : Thread nD τ) scM2 fullShare (S V c (n - 1) (by omega)).s2 ∗ owns (c : Thread nD τ) scM3 fullShare (S V c (n - 1) (by omega)).s3 ∗ (∃ r, prngReg c r)) := by
  cases n with
  | zero => exact absurd rfl hz
  | succ n => rfl

/-- The proof data of pipeline 1 on core `c`: the arrays as the region finds them (`V`); after the body at point `t` each
    input's buffer at its block and the three outputs' at `S t`'s results; the invariant `PhiS`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (S V c t.val t.isLt).o3
    | ⟨4, _⟩ => (S V c t.val t.isLt).o4
    | ⟨5, _⟩ => (S V c t.val t.isLt).o5
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (S V c t.val t.isLt).o3 := by dsimp only [dat1]
theorem after1_4 (c : Dev nD) (t : Fin cfg1.N) : (dat1 V c).after 4 t = (S V c t.val t.isLt).o4 := by dsimp only [dat1]
theorem after1_5 (c : Dev nD) (t : Fin cfg1.N) : (dat1 V c).after 5 t = (S V c t.val t.isLt).o5 := by dsimp only [dat1]

/-- The class invariant with the scratch operands as memrefs owned at some contents. -/
theorem PhiA1_eq (c : Dev nD) :
    (Pipeline.ΦA spec1 c : sProp 𝕄)
      = iprop(iprop((∃ f, ((c : Thread nD τ).loc cc0_stg0_0) ↦{fullShare} f) ∗ (∃ f, ((c : Thread nD τ).loc cc0_stg0_1) ↦{fullShare} f) ∗ (∃ f, ((c : Thread nD τ).loc cc0_stg1_0) ↦{fullShare} f) ∗ (∃ f, ((c : Thread nD τ).loc cc0_stg2_0) ↦{fullShare} f) ∗ (∃ f, ((c : Thread nD τ).loc cc0_stg3_0) ↦{fullShare} f) ∗ (∃ f, ((c : Thread nD τ).loc cc0_stg3_1) ↦{fullShare} f) ∗ (∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest1_eq]; simp only [scM0, scM1, scM2, scM3, owns_whole]; try rfl

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents' names are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨O1, O2, O3, O4, O5, O6⟩, HS0, HS1, HS2, HS3, Hg⟩
  isplitl [O1 O2 O3 O4 O5 O6 HS0 HS1 HS2 HS3]
  · isplitl [O1]; · iexact O1
    isplitl [O2]; · iexact O2
    isplitl [O3]; · iexact O3
    isplitl [O4]; · iexact O4
    isplitl [O5]; · iexact O5
    isplitl [O6]; · iexact O6
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

/-! ## The body's branch conditions, in closed form over the grid -/

theorem hcond1 : ∀ t : Fin cfg1.N, k1_cond1 (grid1.coords t) = 1#1 ↔ t.val = 0 := by decide +kernel
theorem hcond2 : ∀ t : Fin cfg1.N, cond2 (grid1.coords t) ↔ t.val % 4 = 0 := by decide +kernel
theorem hcond3 : ∀ t : Fin cfg1.N, k1_cond3 (grid1.coords t) = 1#1 ↔ t.val % 4 = 3 := by decide +kernel

/-! ## Where the output windows are idle, fetched, written back -/

theorem idle1_out : ∀ t : Fin cfg1.N, ∀ w : Fin cfg1.W, 3 ≤ w.val →
    cfg1.idle w (grid1.coords t) = (decide (t.val ≠ 0) && decide (t.val % 4 ≠ 3)) := by decide +kernel
theorem fetch1_out : ∀ t : Fin cfg1.N, ∀ w : Fin cfg1.W, 3 ≤ w.val → (cfg1.win w).fetch t = false := by decide +kernel
theorem flush1_out : ∀ t : Fin cfg1.N, ∀ w : Fin cfg1.W, 3 ≤ w.val → (cfg1.win w).flush t = decide (t.val = 63) := by decide +kernel

end Cert.KernelIdeal.R1

end
-- ==== Proof.KI.RunW.lean ====
/-
  The buffer contents at each boundary of the program's five segments, as a fold from the launch memory:
  a stretch of host operations is folded by its operations' functions, a kernel region leaves its arrays at what the
  pipeline's write-backs leave (the inputs as entered, each output's blocks folded) and every other buffer as entered.
  Each of the five argument arrays is read back through the fold to its launch contents: no host operation writes
  one, and a region either bypasses it or reads it through an input window.
-/
import proofs.«105117_j51427938402969_1_alg».proof.Proof.Gen.KernelIdeal.Regions
import proofs.«105117_j51427938402969_1_alg».proof.Proof.KI.Region0
import proofs.«105117_j51427938402969_1_alg».proof.Proof.KI.Defs1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (region 0's entry). -/
def W1 (c : Dev nD) : Valuation τ sig (Elt F) := StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (R0.dat0 (V1 m ρ) c).arrAt w cfg0.N
abbrev V2 : (c : Dev nD) → (b : Ref sig .tc) → Buf (Elt F) ((c : Thread nD τ).loc b) := fun c b => W2 m ρ c b
/-- After the second host stretch (region 1's entry). -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (R1.dat1 (V3 m ρ) c).arrAt w cfg1.N
abbrev V4 : (c : Dev nD) → (b : Ref sig .tc) → Buf (Elt F) ((c : Thread nD τ).loc b) := fun c b => W4 m ρ c b
/-- After the last host stretch: what the program returns with. -/
def W5 (c : Dev nD) : Valuation τ sig (Elt F) := StableHlo.after hostOps2 (W4 m ρ c)

/-! ## What each segment leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- At region 0's exit each of its arrays holds what the pipeline leaves and every other buffer what it held at entry. -/
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- At region 1's exit each of its arrays holds what the pipeline leaves and every other buffer what it held at entry. -/
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- The batch: read by region 0 through its first input window, bypassed by region 1, written by no host operation. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((R0.dat0 (V1 m ρ) c).arrAt_in 0 rfl _).trans (R0.A_eq0 (V1 m ρ) c 0))
    _ = W0 m ρ c (Proc.devRef .tc main_arg0) := W1_of m ρ c main_arg0 (by decide)
    _ = m ((c : Thread nD τ).loc main_arg0) := rfl
/-- The labels: bypassed by both regions (region 1 reads their reshaped copy), written by no host operation. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
/-- The proxies: bypassed by region 0, read by region 1 through its third input window, written by no host operation. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := (W4_arr m ρ c 2).trans (((R1.dat1 (V3 m ρ) c).arrAt_in 2 rfl _).trans (R1.A_eq1 (V3 m ρ) c 2))
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
/-- The weights: read by region 0 through its second input window, bypassed by region 1. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 1).trans (((R0.dat0 (V1 m ρ) c).arrAt_in 1 rfl _).trans (R0.A_eq0 (V1 m ρ) c 1))
    _ = W0 m ρ c (Proc.devRef .tc main_arg3) := W1_of m ρ c main_arg3 (by decide)
    _ = m ((c : Thread nD τ).loc main_arg3) := rfl
/-- The bias: bypassed by both regions (region 0 reads its reshaped copy), written by no host operation. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

end Cert.KernelIdeal.Run

end
-- ==== Proof.KI.Runs1.lean ====
import proofs.«105117_j51427938402969_1_alg».proof.Proof.Gen.KernelIdeal.Launch
import proofs.«105117_j51427938402969_1_alg».proof.Proof.Gen.KernelIdeal.Skeleton
import proofs.«105117_j51427938402969_1_alg».proof.Proof.Gen.KernelIdeal.Points
import proofs.«105117_j51427938402969_1_alg».proof.Proof.KI.State1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # The second kernel's body, run once per control case

  The body branches three times on the grid coordinates (reset the results; reset the proxy tile and the row accumulators;
  fold the accumulators into the results). Four assignments of the three conditions occur on the grid: A, the very first
  point (everything reset); B, inner coordinate 0 of a later proxy tile (tile and accumulators reset); C, inner
  coordinate 1 or 2 (nothing reset, nothing folded); D, inner coordinate 3 (accumulators folded into the results). In each, from the
  ten buffers at given contents (three input blocks, three result cells, four scratch buffers) the body runs to the same
  buffers at exactly the contents `step` (State1) computes: every store goes through the whole-buffer rectangle, so a
  buffer reads back as its last store's payload. -/

local notation "𝕄" => MT nD τ sig Unit (Elt F) ℕ (Pipeline.UD sig nD τ) ℕ

theorem hz2 : (![0, 0] : Fin 2 → ℕ) = fun _ => 0 := by funext a; fin_cases a <;> rfl

/-- A buffer whose LAST store went through the whole-shape rectangle reads back as that store's payload, whatever was
    stored before. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

set_option maxHeartbeats 4000000 in
/-- The body at a point of case A: from the ten buffers at their contents to the ten buffers at what `step` says. -/
theorem run1_A (c : Dev nD) (i : grid1.Coords) (arg2 : Memref sig .tc .vmem S4096x512 .bf16) (harg2 : arg2.IsWhole) (arg3 : Memref sig .tc .vmem S4096x1 .i32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1024x512 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc1 : k1_cond1 i = 1#1) (hc2 : cond2 i) (hc3 : ¬ k1_cond3 i = 1#1)
    (x0 : Vec F S4096x512 .bf16) (x1 : Vec F S4096x1 .i32) (x2 : Vec F S1024x512 .f32) (xo3 xo4 xo5 : Vec F S1x1 .f32) (xs0 : Vec F S1024x512 .bf16) (xs1 xs2 xs3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare (k1_pay7 (F := F)) ∗ owns (c : Thread nD τ) arg6 fullShare (k1_pay8 (F := F)) ∗ owns (c : Thread nD τ) arg7 fullShare (k1_pay9 (F := F)) ∗ owns (c : Thread nD τ) arg8 fullShare (k1_pay13 (F := F) x2) ∗ owns (c : Thread nD τ) arg9 fullShare (k1_pay1 (F := F) (k1_pay15 (F := F) i (labelsAt i x1)) (k1_pay16 (F := F) (rowsAt i x0) (k1_pay13 (F := F) x2)) (k1_pay10 (F := F))) ∗ owns (c : Thread nD τ) arg10 fullShare (k1_pay2 (F := F) (k1_pay15 (F := F) i (labelsAt i x1)) (k1_pay17 (F := F) (rowsAt i x0) (k1_pay13 (F := F) x2)) (k1_pay11 (F := F))) ∗ owns (c : Thread nD τ) arg11 fullShare (k1_pay3 (F := F) (k1_pay15 (F := F) i (labelsAt i x1)) (k1_pay12 (F := F)))) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    haveI : Fact (k1_cond1 i = 1#1) := ⟨hc1⟩
    haveI : Fact (¬ k1_cond3 i = 1#1) := ⟨hc3⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H4]
    · iexists _; isplitr; swap; · iexact H4
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H5]
    · iexists _; isplitr; swap; · iexact H5
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H6]
    · iexists _; isplitr; swap; · iexact H6
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H7]
    · iexists _; isplitr; swap; · iexact H7
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H8]
    · iexists _; isplitr; swap; · iexact H8
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    iexists _; isplitr; swap; · iexact H9
    ipureintro
    refine (read_store_whole _ _ hz2 _ _ _).trans ?_
    sl_unfold_run_names
    simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
    try rfl

set_option maxHeartbeats 4000000 in
/-- The body at a point of case B: from the ten buffers at their contents to the ten buffers at what `step` says. -/
theorem run1_B (c : Dev nD) (i : grid1.Coords) (arg2 : Memref sig .tc .vmem S4096x512 .bf16) (harg2 : arg2.IsWhole) (arg3 : Memref sig .tc .vmem S4096x1 .i32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1024x512 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc1 : ¬ k1_cond1 i = 1#1) (hc2 : cond2 i) (hc3 : ¬ k1_cond3 i = 1#1)
    (x0 : Vec F S4096x512 .bf16) (x1 : Vec F S4096x1 .i32) (x2 : Vec F S1024x512 .f32) (xo3 xo4 xo5 : Vec F S1x1 .f32) (xs0 : Vec F S1024x512 .bf16) (xs1 xs2 xs3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare (k1_pay13 (F := F) x2) ∗ owns (c : Thread nD τ) arg9 fullShare (k1_pay1 (F := F) (k1_pay15 (F := F) i (labelsAt i x1)) (k1_pay16 (F := F) (rowsAt i x0) (k1_pay13 (F := F) x2)) (k1_pay10 (F := F))) ∗ owns (c : Thread nD τ) arg10 fullShare (k1_pay2 (F := F) (k1_pay15 (F := F) i (labelsAt i x1)) (k1_pay17 (F := F) (rowsAt i x0) (k1_pay13 (F := F) x2)) (k1_pay11 (F := F))) ∗ owns (c : Thread nD τ) arg11 fullShare (k1_pay3 (F := F) (k1_pay15 (F := F) i (labelsAt i x1)) (k1_pay12 (F := F)))) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    haveI : Fact (¬ k1_cond1 i = 1#1) := ⟨hc1⟩
    haveI : Fact (¬ k1_cond3 i = 1#1) := ⟨hc3⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H7]
    · iexists _; isplitr; swap; · iexact H7
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H8]
    · iexists _; isplitr; swap; · iexact H8
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    iexists _; isplitr; swap; · iexact H9
    ipureintro
    refine (read_store_whole _ _ hz2 _ _ _).trans ?_
    sl_unfold_run_names
    simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
    try rfl

set_option maxHeartbeats 4000000 in
/-- The body at a point of case C: from the ten buffers at their contents to the ten buffers at what `step` says. -/
theorem run1_C (c : Dev nD) (i : grid1.Coords) (arg2 : Memref sig .tc .vmem S4096x512 .bf16) (harg2 : arg2.IsWhole) (arg3 : Memref sig .tc .vmem S4096x1 .i32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1024x512 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc1 : ¬ k1_cond1 i = 1#1) (hc2 : ¬ cond2 i) (hc3 : ¬ k1_cond3 i = 1#1)
    (x0 : Vec F S4096x512 .bf16) (x1 : Vec F S4096x1 .i32) (x2 : Vec F S1024x512 .f32) (xo3 xo4 xo5 : Vec F S1x1 .f32) (xs0 : Vec F S1024x512 .bf16) (xs1 xs2 xs3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare (k1_pay1 (F := F) (k1_pay15 (F := F) i (labelsAt i x1)) (k1_pay16 (F := F) (rowsAt i x0) xs0) xs1) ∗ owns (c : Thread nD τ) arg10 fullShare (k1_pay2 (F := F) (k1_pay15 (F := F) i (labelsAt i x1)) (k1_pay17 (F := F) (rowsAt i x0) xs0) xs2) ∗ owns (c : Thread nD τ) arg11 fullShare (k1_pay3 (F := F) (k1_pay15 (F := F) i (labelsAt i x1)) xs3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    haveI : Fact (¬ k1_cond1 i = 1#1) := ⟨hc1⟩
    haveI : Fact (¬ k1_cond3 i = 1#1) := ⟨hc3⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H8]
    · iexists _; isplitr; swap; · iexact H8
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    iexists _; isplitr; swap; · iexact H9
    ipureintro
    refine (read_store_whole _ _ hz2 _ _ _).trans ?_
    sl_unfold_run_names
    simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
    try rfl

set_option maxHeartbeats 4000000 in
/-- The body at a point of case D: from the ten buffers at their contents to the ten buffers at what `step` says. -/
theorem run1_D (c : Dev nD) (i : grid1.Coords) (arg2 : Memref sig .tc .vmem S4096x512 .bf16) (harg2 : arg2.IsWhole) (arg3 : Memref sig .tc .vmem S4096x1 .i32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1024x512 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc1 : ¬ k1_cond1 i = 1#1) (hc2 : ¬ cond2 i) (hc3 : k1_cond3 i = 1#1)
    (x0 : Vec F S4096x512 .bf16) (x1 : Vec F S4096x1 .i32) (x2 : Vec F S1024x512 .f32) (xo3 xo4 xo5 : Vec F S1x1 .f32) (xs0 : Vec F S1024x512 .bf16) (xs1 xs2 xs3 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare (k1_pay4 (F := F) xo3 (k1_pay1 (F := F) (k1_pay15 (F := F) i (labelsAt i x1)) (k1_pay16 (F := F) (rowsAt i x0) xs0) xs1)) ∗ owns (c : Thread nD τ) arg6 fullShare (k1_pay5 (F := F) xo4 (k1_pay2 (F := F) (k1_pay15 (F := F) i (labelsAt i x1)) (k1_pay17 (F := F) (rowsAt i x0) xs0) xs2)) ∗ owns (c : Thread nD τ) arg7 fullShare (k1_pay6 (F := F) xo5 (k1_pay3 (F := F) (k1_pay15 (F := F) i (labelsAt i x1)) xs3)) ∗ owns (c : Thread nD τ) arg8 fullShare xs0 ∗ owns (c : Thread nD τ) arg9 fullShare (k1_pay1 (F := F) (k1_pay15 (F := F) i (labelsAt i x1)) (k1_pay16 (F := F) (rowsAt i x0) xs0) xs1) ∗ owns (c : Thread nD τ) arg10 fullShare (k1_pay2 (F := F) (k1_pay15 (F := F) i (labelsAt i x1)) (k1_pay17 (F := F) (rowsAt i x0) xs0) xs2) ∗ owns (c : Thread nD τ) arg11 fullShare (k1_pay3 (F := F) (k1_pay15 (F := F) i (labelsAt i x1)) xs3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    haveI : Fact (¬ k1_cond1 i = 1#1) := ⟨hc1⟩
    haveI : Fact (k1_cond3 i = 1#1) := ⟨hc3⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8; obtain rfl := harg11.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H4]
    · iexists _; isplitr; swap; · iexact H4
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H5]
    · iexists _; isplitr; swap; · iexact H5
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H6]
    · iexists _; isplitr; · ipureintro; exact harg8.read_unread _
      iexact H6
    isplitl [H7]
    · iexists _; isplitr; swap; · iexact H7
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    isplitl [H8]
    · iexists _; isplitr; swap; · iexact H8
      ipureintro
      refine (read_store_whole _ _ hz2 _ _ _).trans ?_
      sl_unfold_run_names
      simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
      try rfl
    iexists _; isplitr; swap; · iexact H9
    ipureintro
    refine (read_store_whole _ _ hz2 _ _ _).trans ?_
    sl_unfold_run_names
    simp only [View.readAt_eq_ld, Memref.IsWhole.read_unread, View.ld_unit_zero (S := S1x1) hz2, View.ld_unit_zero (S := S1x1024) hz2, View.ld_unit_zero (S := S1024x512) hz2, View.readCov_unit_zero (S := S1x1) _ hz2, View.readCov_unit_zero (S := S1x1024) _ hz2, View.readCov_unit_zero (S := S1024x512) _ hz2]
    try rfl

/-! ## `step` in each control case -/

variable (i : grid1.Coords) (x0 : Vec F S4096x512 .bf16) (x1 : Vec F S4096x1 .i32) (x2 : Vec F S1024x512 .f32) (p : St F)

theorem step_A (hc1 : k1_cond1 i = 1#1) (hc2 : cond2 i) (hc3 : ¬ k1_cond3 i = 1#1) :
    step i x0 x1 x2 p = { o3 := k1_pay7 (F := F), o4 := k1_pay8 (F := F), o5 := k1_pay9 (F := F), s0 := (k1_pay13 (F := F) x2), s1 := (k1_pay1 (F := F) (k1_pay15 (F := F) i (labelsAt i x1)) (k1_pay16 (F := F) (rowsAt i x0) (k1_pay13 (F := F) x2)) (k1_pay10 (F := F))), s2 := (k1_pay2 (F := F) (k1_pay15 (F := F) i (labelsAt i x1)) (k1_pay17 (F := F) (rowsAt i x0) (k1_pay13 (F := F) x2)) (k1_pay11 (F := F))), s3 := (k1_pay3 (F := F) (k1_pay15 (F := F) i (labelsAt i x1)) (k1_pay12 (F := F))) } := by
  unfold step; simp only [if_pos hc1, if_pos hc2, if_neg hc3]

theorem step_B (hc1 : ¬ k1_cond1 i = 1#1) (hc2 : cond2 i) (hc3 : ¬ k1_cond3 i = 1#1) :
    step i x0 x1 x2 p = { o3 := p.o3, o4 := p.o4, o5 := p.o5, s0 := (k1_pay13 (F := F) x2), s1 := (k1_pay1 (F := F) (k1_pay15 (F := F) i (labelsAt i x1)) (k1_pay16 (F := F) (rowsAt i x0) (k1_pay13 (F := F) x2)) (k1_pay10 (F := F))), s2 := (k1_pay2 (F := F) (k1_pay15 (F := F) i (labelsAt i x1)) (k1_pay17 (F := F) (rowsAt i x0) (k1_pay13 (F := F) x2)) (k1_pay11 (F := F))), s3 := (k1_pay3 (F := F) (k1_pay15 (F := F) i (labelsAt i x1)) (k1_pay12 (F := F))) } := by
  unfold step; simp only [if_neg hc1, if_pos hc2, if_neg hc3]

theorem step_C (hc1 : ¬ k1_cond1 i = 1#1) (hc2 : ¬ cond2 i) (hc3 : ¬ k1_cond3 i = 1#1) :
    step i x0 x1 x2 p = { o3 := p.o3, o4 := p.o4, o5 := p.o5, s0 := p.s0, s1 := (k1_pay1 (F := F) (k1_pay15 (F := F) i (labelsAt i x1)) (k1_pay16 (F := F) (rowsAt i x0) p.s0) p.s1), s2 := (k1_pay2 (F := F) (k1_pay15 (F := F) i (labelsAt i x1)) (k1_pay17 (F := F) (rowsAt i x0) p.s0) p.s2), s3 := (k1_pay3 (F := F) (k1_pay15 (F := F) i (labelsAt i x1)) p.s3) } := by
  unfold step; simp only [if_neg hc1, if_neg hc2, if_neg hc3]

theorem step_D (hc1 : ¬ k1_cond1 i = 1#1) (hc2 : ¬ cond2 i) (hc3 : k1_cond3 i = 1#1) :
    step i x0 x1 x2 p = { o3 := k1_pay4 (F := F) p.o3 (k1_pay1 (F := F) (k1_pay15 (F := F) i (labelsAt i x1)) (k1_pay16 (F := F) (rowsAt i x0) p.s0) p.s1), o4 := k1_pay5 (F := F) p.o4 (k1_pay2 (F := F) (k1_pay15 (F := F) i (labelsAt i x1)) (k1_pay17 (F := F) (rowsAt i x0) p.s0) p.s2), o5 := k1_pay6 (F := F) p.o5 (k1_pay3 (F := F) (k1_pay15 (F := F) i (labelsAt i x1)) p.s3), s0 := p.s0, s1 := (k1_pay1 (F := F) (k1_pay15 (F := F) i (labelsAt i x1)) (k1_pay16 (F := F) (rowsAt i x0) p.s0) p.s1), s2 := (k1_pay2 (F := F) (k1_pay15 (F := F) i (labelsAt i x1)) (k1_pay17 (F := F) (rowsAt i x0) p.s0) p.s2), s3 := (k1_pay3 (F := F) (k1_pay15 (F := F) i (labelsAt i x1)) p.s3) } := by
  unfold step; simp only [if_neg hc1, if_neg hc2, if_pos hc3]

end Cert.KernelIdeal.R1

end
-- ==== Proof.KI.Before1.lean ====
import proofs.«105117_j51427938402969_1_alg».proof.Proof.KI.Defs1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # What the second region's windows hold when the body starts

  The three input windows hold their blocks at every grid point. The three single-cell output windows are never
  fetched and are written back only at the last point; the body stores into them at the first point and at the points
  whose inner coordinate is 3, and is idle for them elsewhere. So at every point after the first each holds what the
  point before left: at a live point the body's result there, at an idle point what that point itself found, which by
  induction is the result carried from the last live point — exactly what the fold `S` carries, since one `step` at
  an idle point leaves the three results unchanged. -/

variable (V : (c : Dev nD) → (b : Ref sig .tc) → Buf (Elt F) ((c : Thread nD τ).loc b))

/-- Input window 0's current staging buffer holds its block at every point, fetched there or not: unfetched, the
    block index has not moved. The window is uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not: unfetched, the
    block index has not moved. The window is uncut and never idle. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not: unfetched, the
    block index has not moved. The window is uncut and never idle. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- On an idle point after the first, the point's `step` leaves the first result as the point before left it. -/
theorem S_o3_idle (c : Dev nD) (m : ℕ) (h : m + 1 < cfg1.N) (h3 : (m + 1) % 4 ≠ 3) :
    (S V c (m + 1) h).o3 = (S V c m (Nat.lt_of_succ_lt h)).o3 := by
  rw [S_succ]
  have c1 : ¬ k1_cond1 (grid1.coords ⟨m + 1, h⟩) = 1#1 := fun e => Nat.succ_ne_zero m ((hcond1 ⟨m + 1, h⟩).mp e)
  have c3 : ¬ k1_cond3 (grid1.coords ⟨m + 1, h⟩) = 1#1 := fun e => h3 ((hcond3 ⟨m + 1, h⟩).mp e)
  unfold step
  simp only [if_neg c1, if_neg c3]

/-- Output window 3's staging buffer, at every point after the first, holds what the point before left of the
    first result: through a run of idle points what the last live point left, which is also what `S` carries. -/
theorem before1_3_succ (c : Dev nD) : ∀ (n : ℕ) (h : n + 1 < cfg1.N) (d),
    (dat1 V c).before 3 ⟨n + 1, h⟩ d = (S V c n (Nat.lt_of_succ_lt h)).o3 := by
  intro n
  induction n using Nat.strong_induction_on with
  | _ n ih =>
    intro h d
    have hN : cfg1.N = 64 := N_1
    rw [(dat1 V c).before_of_pos 3 ⟨n + 1, h⟩ (Nat.succ_ne_zero n) (fetch1_out _ 3 (by decide))]
    show (if (cfg1.win 3).flush ⟨n, Nat.lt_of_succ_lt h⟩ then d else (dat1 V c).left 3 ⟨n, Nat.lt_of_succ_lt h⟩ d) = _
    have hfl : (cfg1.win 3).flush ⟨n, Nat.lt_of_succ_lt h⟩ = false :=
      (flush1_out ⟨n, Nat.lt_of_succ_lt h⟩ 3 (by decide)).trans (decide_eq_false (by show n ≠ 63; omega))
    rw [hfl, if_neg Bool.false_ne_true]
    unfold Dat.left
    split
    · next hidle =>
      have hi := (idle1_out ⟨n, Nat.lt_of_succ_lt h⟩ 3 (by decide)).symm.trans hidle
      simp only [Bool.and_eq_true, decide_eq_true_eq] at hi
      obtain ⟨h0, h3⟩ := hi
      cases n with
      | zero => exact absurd rfl h0
      | succ m =>
        refine (ih m (Nat.lt_succ_self m) (Nat.lt_of_succ_lt h) d).trans ?_
        exact (S_o3_idle V c m (Nat.lt_of_succ_lt h) h3).symm
    · next hlive =>
      unfold Dat.kept
      rw [Pipeline.fill_of_clip_none (cfg := cfg1) 3 _ (fun _ => rfl) d ((dat1 V c).after 3 ⟨n, Nat.lt_of_succ_lt h⟩),
        Window.fill_cut, after1_3]

theorem before1_3 (c : Dev nD) (t : Fin cfg1.N) (ht : t.val ≠ 0) (d) :
    (dat1 V c).before 3 t d = (S V c (t.val - 1) (Nat.lt_of_le_of_lt (Nat.sub_le _ _) t.isLt)).o3 := by
  obtain ⟨n, hn⟩ := t
  cases n with
  | zero => exact absurd rfl ht
  | succ m => exact before1_3_succ V c m hn d

/-- On an idle point after the first, the point's `step` leaves the second result as the point before left it. -/
theorem S_o4_idle (c : Dev nD) (m : ℕ) (h : m + 1 < cfg1.N) (h3 : (m + 1) % 4 ≠ 3) :
    (S V c (m + 1) h).o4 = (S V c m (Nat.lt_of_succ_lt h)).o4 := by
  rw [S_succ]
  have c1 : ¬ k1_cond1 (grid1.coords ⟨m + 1, h⟩) = 1#1 := fun e => Nat.succ_ne_zero m ((hcond1 ⟨m + 1, h⟩).mp e)
  have c3 : ¬ k1_cond3 (grid1.coords ⟨m + 1, h⟩) = 1#1 := fun e => h3 ((hcond3 ⟨m + 1, h⟩).mp e)
  unfold step
  simp only [if_neg c1, if_neg c3]

/-- Output window 4's staging buffer, at every point after the first, holds what the point before left of the
    second result: through a run of idle points what the last live point left, which is also what `S` carries. -/
theorem before1_4_succ (c : Dev nD) : ∀ (n : ℕ) (h : n + 1 < cfg1.N) (d),
    (dat1 V c).before 4 ⟨n + 1, h⟩ d = (S V c n (Nat.lt_of_succ_lt h)).o4 := by
  intro n
  induction n using Nat.strong_induction_on with
  | _ n ih =>
    intro h d
    have hN : cfg1.N = 64 := N_1
    rw [(dat1 V c).before_of_pos 4 ⟨n + 1, h⟩ (Nat.succ_ne_zero n) (fetch1_out _ 4 (by decide))]
    show (if (cfg1.win 4).flush ⟨n, Nat.lt_of_succ_lt h⟩ then d else (dat1 V c).left 4 ⟨n, Nat.lt_of_succ_lt h⟩ d) = _
    have hfl : (cfg1.win 4).flush ⟨n, Nat.lt_of_succ_lt h⟩ = false :=
      (flush1_out ⟨n, Nat.lt_of_succ_lt h⟩ 4 (by decide)).trans (decide_eq_false (by show n ≠ 63; omega))
    rw [hfl, if_neg Bool.false_ne_true]
    unfold Dat.left
    split
    · next hidle =>
      have hi := (idle1_out ⟨n, Nat.lt_of_succ_lt h⟩ 4 (by decide)).symm.trans hidle
      simp only [Bool.and_eq_true, decide_eq_true_eq] at hi
      obtain ⟨h0, h3⟩ := hi
      cases n with
      | zero => exact absurd rfl h0
      | succ m =>
        refine (ih m (Nat.lt_succ_self m) (Nat.lt_of_succ_lt h) d).trans ?_
        exact (S_o4_idle V c m (Nat.lt_of_succ_lt h) h3).symm
    · next hlive =>
      unfold Dat.kept
      rw [Pipeline.fill_of_clip_none (cfg := cfg1) 4 _ (fun _ => rfl) d ((dat1 V c).after 4 ⟨n, Nat.lt_of_succ_lt h⟩),
        Window.fill_cut, after1_4]

theorem before1_4 (c : Dev nD) (t : Fin cfg1.N) (ht : t.val ≠ 0) (d) :
    (dat1 V c).before 4 t d = (S V c (t.val - 1) (Nat.lt_of_le_of_lt (Nat.sub_le _ _) t.isLt)).o4 := by
  obtain ⟨n, hn⟩ := t
  cases n with
  | zero => exact absurd rfl ht
  | succ m => exact before1_4_succ V c m hn d

/-- On an idle point after the first, the point's `step` leaves the third result as the point before left it. -/
theorem S_o5_idle (c : Dev nD) (m : ℕ) (h : m + 1 < cfg1.N) (h3 : (m + 1) % 4 ≠ 3) :
    (S V c (m + 1) h).o5 = (S V c m (Nat.lt_of_succ_lt h)).o5 := by
  rw [S_succ]
  have c1 : ¬ k1_cond1 (grid1.coords ⟨m + 1, h⟩) = 1#1 := fun e => Nat.succ_ne_zero m ((hcond1 ⟨m + 1, h⟩).mp e)
  have c3 : ¬ k1_cond3 (grid1.coords ⟨m + 1, h⟩) = 1#1 := fun e => h3 ((hcond3 ⟨m + 1, h⟩).mp e)
  unfold step
  simp only [if_neg c1, if_neg c3]

/-- Output window 5's staging buffer, at every point after the first, holds what the point before left of the
    third result: through a run of idle points what the last live point left, which is also what `S` carries. -/
theorem before1_5_succ (c : Dev nD) : ∀ (n : ℕ) (h : n + 1 < cfg1.N) (d),
    (dat1 V c).before 5 ⟨n + 1, h⟩ d = (S V c n (Nat.lt_of_succ_lt h)).o5 := by
  intro n
  induction n using Nat.strong_induction_on with
  | _ n ih =>
    intro h d
    have hN : cfg1.N = 64 := N_1
    rw [(dat1 V c).before_of_pos 5 ⟨n + 1, h⟩ (Nat.succ_ne_zero n) (fetch1_out _ 5 (by decide))]
    show (if (cfg1.win 5).flush ⟨n, Nat.lt_of_succ_lt h⟩ then d else (dat1 V c).left 5 ⟨n, Nat.lt_of_succ_lt h⟩ d) = _
    have hfl : (cfg1.win 5).flush ⟨n, Nat.lt_of_succ_lt h⟩ = false :=
      (flush1_out ⟨n, Nat.lt_of_succ_lt h⟩ 5 (by decide)).trans (decide_eq_false (by show n ≠ 63; omega))
    rw [hfl, if_neg Bool.false_ne_true]
    unfold Dat.left
    split
    · next hidle =>
      have hi := (idle1_out ⟨n, Nat.lt_of_succ_lt h⟩ 5 (by decide)).symm.trans hidle
      simp only [Bool.and_eq_true, decide_eq_true_eq] at hi
      obtain ⟨h0, h3⟩ := hi
      cases n with
      | zero => exact absurd rfl h0
      | succ m =>
        refine (ih m (Nat.lt_succ_self m) (Nat.lt_of_succ_lt h) d).trans ?_
        exact (S_o5_idle V c m (Nat.lt_of_succ_lt h) h3).symm
    · next hlive =>
      unfold Dat.kept
      rw [Pipeline.fill_of_clip_none (cfg := cfg1) 5 _ (fun _ => rfl) d ((dat1 V c).after 5 ⟨n, Nat.lt_of_succ_lt h⟩),
        Window.fill_cut, after1_5]

theorem before1_5 (c : Dev nD) (t : Fin cfg1.N) (ht : t.val ≠ 0) (d) :
    (dat1 V c).before 5 t d = (S V c (t.val - 1) (Nat.lt_of_le_of_lt (Nat.sub_le _ _) t.isLt)).o5 := by
  obtain ⟨n, hn⟩ := t
  cases n with
  | zero => exact absurd rfl ht
  | succ m => exact before1_5_succ V c m hn d

end Cert.KernelIdeal.R1

end
-- ==== Proof.KI.Region1.lean ====
import proofs.«105117_j51427938402969_1_alg».proof.Proof.Gen.KernelIdeal.Launch
import proofs.«105117_j51427938402969_1_alg».proof.Proof.Gen.KernelIdeal.Skeleton
import proofs.«105117_j51427938402969_1_alg».proof.Proof.Gen.KernelIdeal.Points
import proofs.«105117_j51427938402969_1_alg».proof.Proof.KI.Runs1
import proofs.«105117_j51427938402969_1_alg».proof.Proof.KI.Defs1
import proofs.«105117_j51427938402969_1_alg».proof.Proof.KI.Before1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! # The second region's body obligation

  At every grid point the pipeline hands the body the six windows' current staging buffers and the region invariant;
  the input buffers hold their blocks, the three result cells what the point before left (anything, at the first
  point), the scratch buffers what the invariant says. The point's control case is read off its position (first point;
  inner coordinate 0; inner coordinate 3; otherwise), that case's run applies, and what it leaves is `S` at this point
  by `step`'s equation for the case. Where the body does not touch the result cells they are handed back as found. -/

variable (V : (c : Dev nD) → (b : Ref sig .tc) → Buf (Elt F) ((c : Thread nD τ).loc b))

/-- Each window's current staging memref at point `t`, spelled as the pipeline passes it. -/
abbrev ms1_0 (t : Fin cfg1.N) : Memref sig .tc .vmem S4096x512 .bf16 := win1_0.stage (cfg1.slots t 0)
abbrev ms1_1 (t : Fin cfg1.N) : Memref sig .tc .vmem S4096x1 .i32 := win1_1.stage (cfg1.slots t 1)
abbrev ms1_2 (t : Fin cfg1.N) : Memref sig .tc .vmem S1024x512 .f32 := win1_2.stage (cfg1.slots t 2)
abbrev ms1_3 (t : Fin cfg1.N) : Memref sig .tc .vmem S1x1 .f32 := win1_3.stage (cfg1.slots t 3)
abbrev ms1_4 (t : Fin cfg1.N) : Memref sig .tc .vmem S1x1 .f32 := win1_4.stage (cfg1.slots t 4)
abbrev ms1_5 (t : Fin cfg1.N) : Memref sig .tc .vmem S1x1 .f32 := win1_5.stage (cfg1.slots t 5)

theorem S_at_zero (c : Dev nD) (t : Fin cfg1.N) (hz : t.val = 0) :
    S V c t.val t.isLt = step (grid1.coords t) (iblk1 V c 0 t) (iblk1 V c 1 t) (iblk1 V c 2 t) junkSt := by
  obtain ⟨n, hn⟩ := t
  cases n with
  | zero => rfl
  | succ n => exact absurd hz (Nat.succ_ne_zero n)

theorem idle_live (t : Fin cfg1.N) (w : Fin cfg1.W) (hw : 3 ≤ w.val) (h : t.val = 0 ∨ t.val % 4 = 3) :
    cfg1.idle w (grid1.coords t) = false := by
  rw [idle1_out t w hw]; rcases h with h | h <;> simp [h]

theorem idle_idle (t : Fin cfg1.N) (w : Fin cfg1.W) (hw : 3 ≤ w.val) (h0 : t.val ≠ 0) (h3 : ¬ t.val % 4 = 3) :
    cfg1.idle w (grid1.coords t) = true := by
  rw [idle1_out t w hw]; simp [h0, h3]

theorem noflush (t : Fin cfg1.N) (w : Fin cfg1.W) (hw : 3 ≤ w.val) (h3 : ¬ t.val % 4 = 3) :
    (cfg1.win w).flush t = false := by
  rw [flush1_out t w hw]; simp only [decide_eq_false_iff_not]; omega

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  rw [show (dat1 V c).leavesExact 2 t = owns (c : Thread nD τ) (ms1_2 t) fullShare ((dat1 V c).after 2 t) from by
    unfold Dat.leavesExact; rfl, after1_2]
  simp only [before1_0, before1_1, before1_2]
  by_cases hz : t.val = 0
  · -- the first point: everything is reset
    have hc1 : k1_cond1 (grid1.coords t) = 1#1 := (hcond1 t).mpr hz
    have hc2 : cond2 (grid1.coords t) := (hcond2 t).mpr (by omega)
    have hc3 : ¬ k1_cond3 (grid1.coords t) = 1#1 := fun h => by have := (hcond3 t).mp h; omega
    rw [show (dat1 V c).leavesExact 3 t = owns (c : Thread nD τ) (ms1_3 t) fullShare ((dat1 V c).after 3 t) from by
      unfold Dat.leavesExact; rw [idle_live t 3 (by decide) (Or.inl hz)], after1_3]
    rw [show (dat1 V c).leavesExact 4 t = owns (c : Thread nD τ) (ms1_4 t) fullShare ((dat1 V c).after 4 t) from by
      unfold Dat.leavesExact; rw [idle_live t 4 (by decide) (Or.inl hz)], after1_4]
    rw [show (dat1 V c).leavesExact 5 t = owns (c : Thread nD τ) (ms1_5 t) fullShare ((dat1 V c).after 5 t) from by
      unfold Dat.leavesExact; rw [idle_live t 5 (by decide) (Or.inl hz)], after1_5]
    rw [S_at_zero V c t hz, step_A _ _ _ _ _ hc1 hc2 hc3]
    dsimp only
    rw [PhiS_castSucc V c t, PhiS_zero V c _ _ hz, PhiA1_eq]
    iintro ⟨⟨⟨O1, O2, O3, O4, O5, O6, ⟨%ds0, HS0⟩, ⟨%ds1, HS1⟩, ⟨%ds2, HS2⟩, ⟨%ds3, HS3⟩⟩, Hg⟩, Ho, ⟨%d0, H0⟩, ⟨%d1, H1⟩, ⟨%d2, H2⟩, ⟨%d3, H3⟩, ⟨%d4, H4⟩, ⟨%d5, H5⟩⟩
    iapply (run1_A c (grid1.coords t) _ _ _ _ _ _ _ _ _ _ _ _ _ _ _ _ _ _ _ _ hc1 hc2 hc3 (iblk1 V c 0 t) (iblk1 V c 1 t) (iblk1 V c 2 t) _ _ _ ds0 ds1 ds2 ds3 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [O1 O2 O3 O4 O5 O6 HS0 HS1 HS2 HS3 Hg]
    · isplitl [O1 O2 O3 O4 O5 O6]
      · isplitl [O1]; · iexact O1
        isplitl [O2]; · iexact O2
        isplitl [O3]; · iexact O3
        isplitl [O4]; · iexact O4
        isplitl [O5]; · iexact O5
        iexact O6
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬ k1_cond1 (grid1.coords t) = 1#1 := fun h => hz ((hcond1 t).mp h)
    simp only [before1_3 V c t hz, before1_4 V c t hz, before1_5 V c t hz]
    rw [PhiS_castSucc V c t, PhiS_pos V c _ _ hz]
    by_cases h0 : t.val % 4 = 0
    · -- inner coordinate 0 of a later tile: the proxy tile and the accumulators are reset
      have hc2 : cond2 (grid1.coords t) := (hcond2 t).mpr h0
      have h3 : ¬ t.val % 4 = 3 := by omega
      have hc3 : ¬ k1_cond3 (grid1.coords t) = 1#1 := fun h => h3 ((hcond3 t).mp h)
      rw [Dat.leavesExact_idle (dat1 V c) 3 t (idle_idle t 3 (by decide) hz h3) (noflush t 3 (by decide) h3)]
      rw [Dat.leavesExact_idle (dat1 V c) 4 t (idle_idle t 4 (by decide) hz h3) (noflush t 4 (by decide) h3)]
      rw [Dat.leavesExact_idle (dat1 V c) 5 t (idle_idle t 5 (by decide) hz h3) (noflush t 5 (by decide) h3)]
      simp only [before1_3 V c t hz, before1_4 V c t hz, before1_5 V c t hz]
      rw [S_pos V c t hz, step_B _ _ _ _ _ hc1 hc2 hc3]
      dsimp only
      iintro ⟨⟨⟨O1, O2, O3, O4, O5, O6⟩, HS0, HS1, HS2, HS3, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ _ _ _ _ _ _ hc1 hc2 hc3 (iblk1 V c 0 t) (iblk1 V c 1 t) (iblk1 V c 2 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [O1 O2 O3 O4 O5 O6 HS0 HS1 HS2 HS3 Hg]
      · isplitl [O1 O2 O3 O4 O5 O6]
        · isplitl [O1]; · iexact O1
          isplitl [O2]; · iexact O2
          isplitl [O3]; · iexact O3
          isplitl [O4]; · iexact O4
          isplitl [O5]; · iexact O5
          iexact O6
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      isplitl [H2]; · iexact H2
      isplitl [H3]; · iexists d3; iexact H3
      isplitl [H4]; · iexists d4; iexact H4
      iexists d5; iexact H5
    · have hc2 : ¬ cond2 (grid1.coords t) := fun h => h0 ((hcond2 t).mp h)
      by_cases h3 : t.val % 4 = 3
      · -- inner coordinate 3: the accumulators are folded into the results
        have hc3 : k1_cond3 (grid1.coords t) = 1#1 := (hcond3 t).mpr h3
        rw [show (dat1 V c).leavesExact 3 t = owns (c : Thread nD τ) (ms1_3 t) fullShare ((dat1 V c).after 3 t) from by
          unfold Dat.leavesExact; rw [idle_live t 3 (by decide) (Or.inr h3)], after1_3]
        rw [show (dat1 V c).leavesExact 4 t = owns (c : Thread nD τ) (ms1_4 t) fullShare ((dat1 V c).after 4 t) from by
          unfold Dat.leavesExact; rw [idle_live t 4 (by decide) (Or.inr h3)], after1_4]
        rw [show (dat1 V c).leavesExact 5 t = owns (c : Thread nD τ) (ms1_5 t) fullShare ((dat1 V c).after 5 t) from by
          unfold Dat.leavesExact; rw [idle_live t 5 (by decide) (Or.inr h3)], after1_5]
        rw [S_pos V c t hz, step_D _ _ _ _ _ hc1 hc2 hc3]
        dsimp only
        iintro ⟨⟨⟨O1, O2, O3, O4, O5, O6⟩, HS0, HS1, HS2, HS3, Hg⟩, Ho, ⟨%d0, H0⟩, ⟨%d1, H1⟩, ⟨%d2, H2⟩, ⟨%d3, H3⟩, ⟨%d4, H4⟩, ⟨%d5, H5⟩⟩
        iapply (run1_D c (grid1.coords t) _ _ _ _ _ _ _ _ _ _ _ _ _ _ _ _ _ _ _ _ hc1 hc2 hc3 (iblk1 V c 0 t) (iblk1 V c 1 t) (iblk1 V c 2 t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [O1 O2 O3 O4 O5 O6 HS0 HS1 HS2 HS3 Hg]
        · isplitl [O1 O2 O3 O4 O5 O6]
          · isplitl [O1]; · iexact O1
            isplitl [O2]; · iexact O2
            isplitl [O3]; · iexact O3
            isplitl [O4]; · iexact O4
            isplitl [O5]; · iexact O5
            iexact O6
          isplitl [HS0]; · iexact HS0
          isplitl [HS1]; · iexact HS1
          isplitl [HS2]; · iexact HS2
          isplitl [HS3]; · iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
      · -- an inner point: only the accumulators move
        have hc3 : ¬ k1_cond3 (grid1.coords t) = 1#1 := fun h => h3 ((hcond3 t).mp h)
        rw [Dat.leavesExact_idle (dat1 V c) 3 t (idle_idle t 3 (by decide) hz h3) (noflush t 3 (by decide) h3)]
        rw [Dat.leavesExact_idle (dat1 V c) 4 t (idle_idle t 4 (by decide) hz h3) (noflush t 4 (by decide) h3)]
        rw [Dat.leavesExact_idle (dat1 V c) 5 t (idle_idle t 5 (by decide) hz h3) (noflush t 5 (by decide) h3)]
        simp only [before1_3 V c t hz, before1_4 V c t hz, before1_5 V c t hz]
        rw [S_pos V c t hz, step_C _ _ _ _ _ hc1 hc2 hc3]
        dsimp only
        iintro ⟨⟨⟨O1, O2, O3, O4, O5, O6⟩, HS0, HS1, HS2, HS3, Hg⟩, Ho, ⟨%d0, H0⟩, ⟨%d1, H1⟩, ⟨%d2, H2⟩, ⟨%d3, H3⟩, ⟨%d4, H4⟩, ⟨%d5, H5⟩⟩
        iapply (run1_C c (grid1.coords t) _ _ _ _ _ _ _ _ _ _ _ _ _ _ _ _ _ _ _ _ hc1 hc2 hc3 (iblk1 V c 0 t) (iblk1 V c 1 t) (iblk1 V c 2 t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [O1 O2 O3 O4 O5 O6 HS0 HS1 HS2 HS3 Hg]
        · isplitl [O1 O2 O3 O4 O5 O6]
          · isplitl [O1]; · iexact O1
            isplitl [O2]; · iexact O2
            isplitl [O3]; · iexact O3
            isplitl [O4]; · iexact O4
            isplitl [O5]; · iexact O5
            iexact O6
          isplitl [HS0]; · iexact HS0
          isplitl [HS1]; · iexact HS1
          isplitl [HS2]; · iexact HS2
          isplitl [HS3]; · iexact HS3
          iexact Hg
        isplitl [Ho]; · iexact Ho
        isplitl [H0]; · iexact H0
        isplitl [H1]; · iexact H1
        isplitl [H2]; · iexact H2
        isplitl [H3]; · iexists d3; iexact H3
        isplitl [H4]; · iexists d4; iexact H4
        iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.KI.RunSegs.lean ====
/-
  The program's two kernel regions and three host stretches as segments over one thread state: between two
  segments a core holds every unscoped buffer whole at the boundary's contents, its generator register at some
  state, and owes nothing. A region splits its arrays out of the unscoped buffers at entry and puts them back at the
  exit contents; the generator register goes into the region's invariant and comes back; neither kernel has a
  semaphore of its own.
-/
import proofs.«105117_j51427938402969_1_alg».proof.Proof.KI.RunW
import proofs.«105117_j51427938402969_1_alg».proof.Proof.KI.Region1
import Idealize.ShloMosaic.Lib.Pipeline.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- A host stretch as a segment: over the unscoped references from the contents W, R riding along; it ends with those
    references at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its invariant is the class's
    at both ends (the scratch contents it names in between are forgotten at the exit). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (R1.dat1 (V3 m ρ) c).Φ 0 from rfl]
    refine BIBase.Entails.trans ?_ (R1.hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (R1.dat1 (V3 m ρ) c).Φ (Fin.last cfg1.N) from rfl]
    refine BIBase.Entails.trans (R1.hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Run.lean ====
/-
  The whole run of the program from the launch to the return, as five segments in order — a host stretch, region 0,
  a host stretch, region 1, a host stretch — each entered from the thread state the one before it left. From any
  memory with zero counters every weakly fair execution terminates, and in every final state each unscoped buffer of
  each core holds the last boundary's contents; in particular the five argument arrays hold what they were launched with.
-/
import proofs.«105117_j51427938402969_1_alg».proof.Proof.KI.RunSegs

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program as segments -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The program is the run of its segments. -/
theorem main_run (c : Dev nD) : main (F := F) c = Pipeline.Seg.run (segs m ρ) :=
  main_segs adm (pdats m ρ) () 𝒱₀ L lv _ _ _ (reg0 m ρ) (reg1 m ρ) rfl rfl rfl c

/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The run, with any conclusion that follows from every core's unscoped buffers being at the last boundary's contents. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE RUN: from any memory with zero counters every weakly fair execution of the program terminates, nothing
    faulting, and every final state has each unscoped buffer of each core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  run_post m ρ fun _ h => h

/-- THE FRAME: every final state has the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩

end Cert.KernelIdeal.Run

end
-- ==== Proof.Spec.lean ====
/-
  The loss both programs compute, as one function of the argument arrays over the extended reals.

  With X the batch (4096 × 512), W and bv the linear layer, Pr the proxies (16384 × 512) and T the labels:
    fc b j   = (∑ k, X b k · W j k) + bv j
    fn b j   = fc b j / max (√(∑ j, fc b j²)) ε                 (row-normalised, the norm clamped below by ε)
    relu b j = max (fn b j) 0
    xn b j   = relu b j / √((∑ j, relu b j²) + ε)
    pn c k   = Pr c k / √((∑ k, Pr c k²) + ε)
    cos b c  = ∑ k, xn b k · pn c k
  and, with hit b c ↔ T b = c,
    Psum c = ∑ b, [hit b c] · exp (−α (cos b c − δ)),   Nsum c = ∑ b, [¬ hit b c] · exp (α (cos b c + δ)),
    cnt c  = ∑ b, [hit b c],   valid = #{c | cnt c ≠ 0},
    loss   = (∑ c, log1p (Psum c)) / valid + (∑ c, log1p (Nsum c)) / 16384.
  Every float literal stays the word the programs print (ε, δ, ±α, 16384.0): the same word on both sides is never
  evaluated. Sums are finite sums in the commutative monoid of extended reals, so their grouping is free.
-/
import Idealize.ShloMosaic.PureOps.Ideal
import Idealize.ShloMosaic.PureOps.Ideal.Laws
import Idealize.ShloMosaic.Lib.ValueIdx

noncomputable section

namespace Cert.Spec

open Idealize.ShloMosaic

/-- ε = f32 9.99999996e-13, as printed. -/
abbrev eps : EReal := Ideal.ofBits .f32 0x2B8CBCCC#32
/-- δ = f32 0.1 (the margin), as printed. -/
abbrev mrg : EReal := Ideal.ofBits .f32 0x3DCCCCCD#32
/-- −α = f32 −32. -/
abbrev negAlpha : EReal := Ideal.ofBits .f32 0xC2000000#32
/-- α = f32 32. -/
abbrev alpha : EReal := Ideal.ofBits .f32 0x42000000#32
/-- The number of classes as a float, f32 16384. -/
abbrev nCls : EReal := Ideal.ofBits .f32 0x46800000#32

variable (X : Fin 4096 → Fin 512 → EReal) (T : Fin 4096 → BitVec 32) (Pr : Fin 16384 → Fin 512 → EReal)
  (W : Fin 512 → Fin 512 → EReal) (bv : Fin 512 → EReal)

/-- The linear layer: row `b` of `X` against row `j` of `W`, plus the bias. -/
def fc (b : Fin 4096) (j : Fin 512) : EReal := (∑ k : Fin 512, X b k * W j k) + bv j
/-- The Euclidean norm of a row of `fc`. -/
def norm1 (b : Fin 4096) : EReal := Ideal.sqrt (∑ j : Fin 512, fc X W bv b j * fc X W bv b j)
/-- The row divided by its norm clamped below by ε. -/
def fn (b : Fin 4096) (j : Fin 512) : EReal := Ideal.div (fc X W bv b j) (max (norm1 X W bv b) eps)
/-- Its positive part. -/
def relu (b : Fin 4096) (j : Fin 512) : EReal := max (fn X W bv b j) 0
/-- √(∑ relu² + ε). -/
def norm2 (b : Fin 4096) : EReal := Ideal.sqrt ((∑ j : Fin 512, relu X W bv b j * relu X W bv b j) + eps)
/-- The embedded, normalised batch row. -/
def xn (b : Fin 4096) (j : Fin 512) : EReal := Ideal.div (relu X W bv b j) (norm2 X W bv b)
/-- √(∑ Pr² + ε) of a proxy row. -/
def pnorm (c : Fin 16384) : EReal := Ideal.sqrt ((∑ k : Fin 512, Pr c k * Pr c k) + eps)
/-- The normalised proxy row. -/
def pn (c : Fin 16384) (k : Fin 512) : EReal := Ideal.div (Pr c k) (pnorm Pr c)
/-! The second half is stated over ANY embedded batch `E` (rows of 512 extended reals), so that it can be read with the
    embedded batch a variable; the loss takes `E := xn`. -/

/-- The cosine of embedded row `b` against proxy `c`. -/
def cosOf (E : Fin 4096 → Fin 512 → EReal) (b : Fin 4096) (c : Fin 16384) : EReal := ∑ k : Fin 512, E b k * pn Pr c k
/-- Row `b` is labelled with class `c`. -/
def hit (b : Fin 4096) (c : Fin 16384) : Prop := T b = BitVec.ofNat 32 c.val
instance (b : Fin 4096) (c : Fin 16384) : Decidable (hit T b c) := by unfold hit; infer_instance
/-- exp (−α (cos − δ)). -/
def posEOf (E : Fin 4096 → Fin 512 → EReal) (b : Fin 4096) (c : Fin 16384) : EReal := Ideal.exp (negAlpha * (cosOf Pr E b c - mrg))
/-- exp (α (cos + δ)). -/
def negEOf (E : Fin 4096 → Fin 512 → EReal) (b : Fin 4096) (c : Fin 16384) : EReal := Ideal.exp (alpha * (cosOf Pr E b c + mrg))
/-- The positive-similarity sum of class `c`. -/
def PsumOf (E : Fin 4096 → Fin 512 → EReal) (c : Fin 16384) : EReal := ∑ b : Fin 4096, if hit T b c then posEOf Pr E b c else 0
/-- The negative-similarity sum of class `c`. -/
def NsumOf (E : Fin 4096 → Fin 512 → EReal) (c : Fin 16384) : EReal := ∑ b : Fin 4096, if hit T b c then 0 else negEOf Pr E b c
/-- How many rows are labelled `c`, as an extended real. -/
def cnt (c : Fin 16384) : EReal := ∑ b : Fin 4096, if hit T b c then (1 : EReal) else 0
/-- How many classes have a labelled row. -/
def valid : EReal := ∑ c : Fin 16384, if cnt T c ≠ 0 then (1 : EReal) else 0
/-- ∑ c, log1p (Psum c). -/
def posLogOf (E : Fin 4096 → Fin 512 → EReal) : EReal := ∑ c : Fin 16384, Ideal.log1p (PsumOf T Pr E c)
/-- ∑ c, log1p (Nsum c). -/
def negLogOf (E : Fin 4096 → Fin 512 → EReal) : EReal := ∑ c : Fin 16384, Ideal.log1p (NsumOf T Pr E c)
/-- The loss over an embedded batch. -/
def lossOf (E : Fin 4096 → Fin 512 → EReal) : EReal := Ideal.div (posLogOf T Pr E) (valid T) + Ideal.div (negLogOf T Pr E) nCls

/-- The cosine of batch row `b` against proxy `c`. -/
def cos (b : Fin 4096) (c : Fin 16384) : EReal := cosOf Pr (xn X W bv) b c
/-- exp (−α (cos − δ)). -/
def posE (b : Fin 4096) (c : Fin 16384) : EReal := posEOf Pr (xn X W bv) b c
/-- exp (α (cos + δ)). -/
def negE (b : Fin 4096) (c : Fin 16384) : EReal := negEOf Pr (xn X W bv) b c
/-- The positive-similarity sum of class `c`. -/
def Psum (c : Fin 16384) : EReal := PsumOf T Pr (xn X W bv) c
/-- The negative-similarity sum of class `c`. -/
def Nsum (c : Fin 16384) : EReal := NsumOf T Pr (xn X W bv) c
/-- ∑ c, log1p (Psum c). -/
def posLog : EReal := posLogOf T Pr (xn X W bv)
/-- ∑ c, log1p (Nsum c). -/
def negLog : EReal := negLogOf T Pr (xn X W bv)
/-- The loss. -/
def loss : EReal := lossOf T Pr (xn X W bv)

end Cert.Spec

end
-- ==== Proof.KI.Value0.lean ====
/- The value region 0 leaves in its output block, at the ideal instance: entry (r, j) of the block the body stores
   is the specification's embedded row — Linear, row-normalise (norm clamped below by ε), positive part,
   row-normalise (√(∑² + ε)) — of row r of the loaded batch block against the loaded weights and bias. -/
import proofs.«105117_j51427938402969_1_alg».proof.Proof.KI.Region0
import proofs.«105117_j51427938402969_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0V

open Cert.KernelIdeal Cert.KernelIdeal.Gen
open Idealize.ShloMosaic Idealize.ShloMosaic.ValueIdx
open scoped BigOperators

/-! ## The specification's embedded row, for ONE row of the batch -/

/-- The linear layer on one row x: against row j of W, plus the bias. -/
def fcRow (x : Fin 512 → EReal) (W : Fin 512 → Fin 512 → EReal) (bv : Fin 512 → EReal) (j : Fin 512) : EReal :=
  (∑ k : Fin 512, x k * W j k) + bv j
/-- Its Euclidean norm. -/
def norm1Row (x : Fin 512 → EReal) (W : Fin 512 → Fin 512 → EReal) (bv : Fin 512 → EReal) : EReal :=
  Ideal.sqrt (∑ j : Fin 512, fcRow x W bv j * fcRow x W bv j)
/-- The row divided by its norm clamped below by ε. -/
def fnRow (x : Fin 512 → EReal) (W : Fin 512 → Fin 512 → EReal) (bv : Fin 512 → EReal) (j : Fin 512) : EReal :=
  Ideal.div (fcRow x W bv j) (max (norm1Row x W bv) Spec.eps)
/-- Its positive part. -/
def reluRow (x : Fin 512 → EReal) (W : Fin 512 → Fin 512 → EReal) (bv : Fin 512 → EReal) (j : Fin 512) : EReal :=
  max (fnRow x W bv j) 0
/-- √(∑ relu² + ε). -/
def norm2Row (x : Fin 512 → EReal) (W : Fin 512 → Fin 512 → EReal) (bv : Fin 512 → EReal) : EReal :=
  Ideal.sqrt ((∑ j : Fin 512, reluRow x W bv j * reluRow x W bv j) + Spec.eps)
/-- The embedded, normalised row. -/
def xnRow (x : Fin 512 → EReal) (W : Fin 512 → Fin 512 → EReal) (bv : Fin 512 → EReal) (j : Fin 512) : EReal :=
  Ideal.div (reluRow x W bv j) (norm2Row x W bv)

/-- The specification's embedded batch, row by row. -/
theorem xn_eq_xnRow (X : Fin 4096 → Fin 512 → EReal) (W : Fin 512 → Fin 512 → EReal) (bv : Fin 512 → EReal)
    (b : Fin 4096) (j : Fin 512) : Spec.xn X W bv b j = xnRow (X b) W bv j := rfl

/-! ## The body's arithmetic in stages -/

/-- The Linear layer's block: the batch block against the transposed weights into a zero accumulator, plus the bias
    row broadcast down the rows. -/
def fcV (x0 : Vec Ideal S1024x512 .f32) (x1 : Vec Ideal S512x512 .f32) (x2 : Vec Ideal S1x512 .f32) : FVec Ideal S1024x512 .f32 :=
  addf (matmul dot_S1024x512_S512x512_S1024x512_1_0_0_1_n_n none (truncf .bf16 x0 bitsLt_bf16_f32)
      (transpose S512x512 [1, 0] (truncf .bf16 x1 bitsLt_bf16_f32) transposes_S512x512_p1_0_S512x512) (constant S1024x512 .f32 0x00000000#32))
    (broadcastTo S1024x512 (shapeCast S1x512 x2 shapeCasts_S1x512_S1x512) broadcasts_S1x512_S1024x512)
/-- Each row's sum of squares, as a column. -/
def rowSq (v : FVec Ideal S1024x512 .f32) : FVec Ideal S1024x1 .f32 :=
  shapeCast S1024x1 (multiReduction .add [1] S1024 (mulf v v) 0x00000000#32 reduces_S1024x512_S1024 (.inl rfl) rfl) shapeCasts_S1024_S1024x1
/-- A column broadcast along the rows. -/
def colB (c : FVec Ideal S1024x1 .f32) : FVec Ideal S1024x512 .f32 := broadcastTo S1024x512 c broadcasts_S1024x1_S1024x512
/-- Row-normalise with the norm clamped below by ε, then the positive part. -/
def reluV (v : FVec Ideal S1024x512 .f32) : FVec Ideal S1024x512 .f32 :=
  maximumf (divf v (colB (maximumf (sqrt (rowSq v)) (broadcast S1024x1 (Scalar.ofBits .f32 0x2B8CBCCC#32)))))
    (broadcast S1024x512 (Scalar.ofBits .f32 0x00000000#32))
/-- Row-normalise by √(∑² + ε). -/
def xnV (v : FVec Ideal S1024x512 .f32) : FVec Ideal S1024x512 .f32 :=
  divf v (colB (sqrt (addf (rowSq v) (broadcast S1024x1 (Scalar.ofBits .f32 0x2B8CBCCC#32)))))

/-- The body's pure term is those stages composed, then narrowed. -/
theorem pay_eq (x0 : Vec Ideal S1024x512 .f32) (x1 : Vec Ideal S512x512 .f32) (x2 : Vec Ideal S1x512 .f32) :
    k0_pay1 (F := Ideal) x0 x1 x2 = truncf .bf16 (xnV (reluV (fcV x0 x1 x2))) bitsLt_bf16_f32 := rfl

/-! ## Each stage read at an index -/

/-- The two offsets of a whole-buffer access, spelt as the library's lemmas take them. -/
theorem hz : (![0, 0] : Fin 2 → Nat) = fun _ => 0 := funext fun a => by fin_cases a <;> rfl

/-- The contraction's operand indices at output (r, j) and contraction coordinate k: (r, k) on the left … -/
theorem lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- … and (k, j) on the right. -/
theorem rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into the zero accumulator at (r, j): row r of the left operand against COLUMN j of the right one. -/
theorem matmul_ix2 (a : FVec Ideal S1024x512 .bf16) (b : FVec Ideal S512x512 .bf16) (r : Fin 1024) (j : Fin 512) :
    matmul dot_S1024x512_S512x512_S1024x512_1_0_0_1_n_n none a b (constant S1024x512 .f32 0x00000000#32) (ix2 r j)
      = ∑ k : Fin 512, a (ix2 r k) * b (ix2 k j) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r j) ((contrEquiv1 dot_S1024x512_S512x512_S1024x512_1_0_0_1_n_n 512 rfl rfl).symm k) = ix2 r k := funext fun c => Fin.ext (by
    match c with
    | ⟨0, _⟩ => exact lhs_0 _ _
    | ⟨1, _⟩ => exact (lhs_1 _ _).trans hk)
  have er : dot_S1024x512_S512x512_S1024x512_1_0_0_1_n_n.rhsIdx (ix2 r j) ((contrEquiv1 dot_S1024x512_S512x512_S1024x512_1_0_0_1_n_n 512 rfl rfl).symm k) = ix2 k j := funext fun c => Fin.ext (by
    match c with
    | ⟨0, _⟩ => exact (rhs_0 _ _).trans hk
    | ⟨1, _⟩ => exact rhs_1 _ _)
  rw [el, er]

/-- The Linear layer at (r, j): row r of the batch block against ROW j of the weights (the transpose turns the
    weights' rows into the product's columns), plus the bias at j. -/
theorem fcV_apply (x0 : Vec Ideal S1024x512 .f32) (x1 : Vec Ideal S512x512 .f32) (x2 : Vec Ideal S1x512 .f32) (r : Fin 1024) (j : Fin 512) :
    fcV x0 x1 x2 (ix2 r j) = fcRow (fun k => x0 (ix2 r k)) (fun j k => x1 (ix2 j k)) (fun j => x2 (ix2 (0 : Fin 1) j)) j := by
  unfold fcV fcRow
  rw [addf_apply, matmul_ix2, shapeCast_self, broadcastTo_1b_ab_apply]
  refine congrArg (· + _) (Finset.sum_congr rfl fun k _ => ?_)
  rw [transpose_ix2_apply]
  rfl

/-- A row's sum of squares at (r, c) of the column: the sum over the row's 512 lanes. The lane sum starts from the
    zero word, the sum's neutral element, and the column cast [1024] → [1024, 1] keeps the row-major position. -/
theorem rowSq_apply (v : FVec Ideal S1024x512 .f32) (r : Fin 1024) (c : Fin 1) :
    rowSq v (ix2 r c) = ∑ j : Fin 512, v (ix2 r j) * v (ix2 r j) := by
  unfold rowSq
  refine (shapeCast_apply _ shapeCasts_S1024_S1024x1 (ix2 r c) (ix1 r) (by
    rw [Shape.rowMajor_val_one, Shape.rowMajor_val_two]
    show r.val = r.val * 1 + c.val
    have := c.isLt; omega)).trans ?_
  refine (Ideal.multiReduction_add_single (mulf v v) 0x00000000#32 reduces_S1024x512_S1024 (.inl rfl) rfl (ix1 r)).trans ?_
  refine Finset.sum_congr rfl fun k _ => ?_
  have e : reduces_S1024x512_S1024.lift (ix1 r) k = ix2 r k := funext fun a => Fin.ext (by
    match a with
    | ⟨0, _⟩ => rfl
    | ⟨1, _⟩ => rfl)
  rw [e]
  rfl

/-- A column broadcast along the rows reads, at (r, j), the column at row r. -/
theorem colB_apply (c : FVec Ideal S1024x1 .f32) (r : Fin 1024) (j : Fin 512) :
    colB c (ix2 r j) = c (ix2 r (0 : Fin 1)) := by
  unfold colB
  refine broadcastTo_apply c broadcasts_S1024x1_S1024x512 (ix2 r j) (ix2 r (0 : Fin 1)) fun a => ?_
  match a with
  | ⟨0, _⟩ => show r.val = if (1024 : Nat) = 1 then 0 else r.val; rw [if_neg (by decide)]
  | ⟨1, _⟩ => show 0 = if (1 : Nat) = 1 then 0 else j.val; rw [if_pos rfl]

/-- Row-normalise-and-clamp, then the positive part, at (r, j), of a block whose row r is f. -/
theorem reluV_apply (v : FVec Ideal S1024x512 .f32) (r : Fin 1024) (f : Fin 512 → EReal) (hv : ∀ j, v (ix2 r j) = f j) (j : Fin 512) :
    reluV v (ix2 r j) = max (Ideal.div (f j) (max (Ideal.sqrt (∑ j : Fin 512, f j * f j)) Spec.eps)) 0 := by
  unfold reluV
  rw [maximumf_apply, divf_apply, colB_apply, maximumf_apply, broadcast_apply, broadcast_apply]
  show max (Ideal.div (v (ix2 r j)) (max (Ideal.sqrt (rowSq v (ix2 r (0 : Fin 1)))) Spec.eps)) (Ideal.ofBits .f32 0x00000000#32) = _
  rw [rowSq_apply, Ideal.ofBits_zero_f32, hv]
  simp only [hv]

/-- Row-normalise by √(∑² + ε) at (r, j), of a block whose row r is g. -/
theorem xnV_apply (v : FVec Ideal S1024x512 .f32) (r : Fin 1024) (g : Fin 512 → EReal) (hv : ∀ j, v (ix2 r j) = g j) (j : Fin 512) :
    xnV v (ix2 r j) = Ideal.div (g j) (Ideal.sqrt ((∑ j : Fin 512, g j * g j) + Spec.eps)) := by
  unfold xnV
  rw [divf_apply, colB_apply]
  show Ideal.div (v (ix2 r j)) (Ideal.sqrt (rowSq v (ix2 r (0 : Fin 1)) + Spec.eps)) = _
  rw [rowSq_apply, hv]
  simp only [hv]

/-! ## The output block at an index -/

/-- Entry (r, j) of what the body leaves in the output window's buffer is the specification's embedded row, of row r
    of the batch block against the weights and the bias as loaded. The narrowing to bf16 is the identity on extended reals. -/
theorem out0_3_apply (x0 : Vec Ideal S1024x512 .f32) (x1 : Vec Ideal S512x512 .f32) (x2 : Vec Ideal S1x512 .f32) (r : Fin 1024) (j : Fin 512) :
    R0.out0_3 (F := Ideal) x0 x1 x2 (ix2 r j)
      = xnRow (fun k => x0 (ix2 r k)) (fun j k => x1 (ix2 j k)) (fun j => x2 (ix2 (0 : Fin 1) j)) j := by
  unfold R0.out0_3
  rw [View.canon_unit_zero hz]
  simp only [View.ld_unit_zero (S := S1024x512) hz, View.ld_unit_zero (S := S512x512) hz, View.ld_unit_zero (S := S1x512) hz]
  rw [pay_eq]
  show xnV (reluV (fcV x0 x1 x2)) (ix2 r j) = _
  rw [xnV_apply (reluV (fcV x0 x1 x2)) r
    (reluRow (fun k => x0 (ix2 r k)) (fun j k => x1 (ix2 j k)) (fun j => x2 (ix2 (0 : Fin 1) j)))
    (fun j => (reluV_apply (fcV x0 x1 x2) r
      (fcRow (fun k => x0 (ix2 r k)) (fun j k => x1 (ix2 j k)) (fun j => x2 (ix2 (0 : Fin 1) j)))
      (fun j => fcV_apply x0 x1 x2 r j) j).trans rfl) j]
  rfl

end Cert.KernelIdeal.R0V

end
-- ==== Proof.KI.Arrays.lean ====
/- From blocks to arrays, for both regions: what each window's array holds after its region's write-backs, as one
   function of the buffer contents V the region is entered with. Region 0's output array is, entry by entry, the
   specification's embedded row of the batch, the weights and the bias as V has them (the four row blocks of 1024
   tile the 4096 rows); region 1's three single-cell outputs are what the last grid point leaves; every input
   window's array is as entered. Also the blocks region 1 reads, as functions of V. -/
import proofs.«105117_j51427938402969_1_alg».proof.Proof.KI.Region0
import proofs.«105117_j51427938402969_1_alg».proof.Proof.KI.Value0
import proofs.«105117_j51427938402969_1_alg».proof.Proof.KI.Defs1
import Idealize.ShloMosaic.Lib.Pipeline.Value
import Idealize.ShloMosaic.Lib.ValueIdx

set_option maxRecDepth 16384

noncomputable section

namespace Cert.KernelIdeal.Arr

open Cert.KernelIdeal Cert.KernelIdeal.Gen
open Idealize.ShloMosaic Idealize.ShloMosaic.TcCoe Idealize.ShloMosaic.ValueIdx Idealize.SL.Sem
open Idealize.ShloMosaic.Pipeline (Dat)

/-! # Region 0 -/

section Region0

/-! ## Its input windows' arrays: as entered (any float instance) -/

section AnyF
variable {F : FTy → Type} [FloatOps F]
variable (V : (c : Dev nD) → (b : Ref sig .tc) → Buf (Elt F) ((c : Thread nD τ).loc b))

theorem arr0_0 (c : Dev nD) : (R0.dat0 V c).arrAt 0 cfg0.N = V c (Pipeline.arrRef spec0 0) :=
  ((R0.dat0 V c).arrAt_in 0 rfl _).trans (R0.A_eq0 V c 0)
theorem arr0_1 (c : Dev nD) : (R0.dat0 V c).arrAt 1 cfg0.N = V c (Pipeline.arrRef spec0 1) :=
  ((R0.dat0 V c).arrAt_in 1 rfl _).trans (R0.A_eq0 V c 1)
theorem arr0_2 (c : Dev nD) : (R0.dat0 V c).arrAt 2 cfg0.N = V c (Pipeline.arrRef spec0 2) :=
  ((R0.dat0 V c).arrAt_in 2 rfl _).trans (R0.A_eq0 V c 2)

/-- The block indices over the grid of 4 points: the batch and the output move down one block of rows per point; the
    weights and the bias are one block each. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The batch block at point t is rows 1024 t … 1024 t + 1023 of the batch as entered. -/
theorem iblk0_0_apply (c : Dev nD) (t : Fin cfg0.N) (r : Fin 1024) (k : Fin 512) (b : Fin 4096) (hb : b.val = t.val * 1024 + r.val) :
    (R0.iblk0 V c 0 t : Vec F S1024x512 .f32) (ix2 r k) = (V c main_arg0 : S4096x512.Idx → Elt F .f32) (ix2 b k) := by
  obtain ⟨e0, e1, -⟩ := idx_facts0 t
  unfold R0.iblk0
  rw [View.read_apply]
  show V c main_arg0 _ = V c main_arg0 _
  refine congrArg (V c main_arg0) (funext fun a => Fin.ext ?_)
  match a with
  | ⟨0, _⟩ => show win0_0.index t (0 : Fin 2) * 1024 + 1 * r.val = b.val; rw [e0, hb]; omega
  | ⟨1, _⟩ => show win0_0.index t (1 : Fin 2) * 512 + 1 * k.val = k.val; rw [e1]; omega

/-- The weights' block is the whole array, at every point. -/
theorem iblk0_1_eq (c : Dev nD) (t : Fin cfg0.N) :
    (R0.iblk0 V c 1 t : Vec F S512x512 .f32) = (V c main_arg3 : S512x512.Idx → Elt F .f32) := by
  obtain ⟨-, -, e0, e1, -⟩ := idx_facts0 t
  funext y
  unfold R0.iblk0
  rw [View.read_apply]
  show V c main_arg3 _ = V c main_arg3 _
  refine congrArg (V c main_arg3) (funext fun a => Fin.ext ?_)
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-- The bias row's block is the whole array, at every point. -/
theorem iblk0_2_eq (c : Dev nD) (t : Fin cfg0.N) :
    (R0.iblk0 V c 2 t : Vec F S1x512 .f32) = (V c main_v0 : S1x512.Idx → Elt F .f32) := by
  obtain ⟨-, -, -, -, e0, e1, -⟩ := idx_facts0 t
  funext y
  unfold R0.iblk0
  rw [View.read_apply]
  show V c main_v0 _ = V c main_v0 _
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- An index of the output array is in point t's block iff each coordinate is in the block's range on its axis. -/
theorem mem_blk0 (t : Fin cfg0.N) (i : S4096x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every entry of the output array is in the block of the point its row falls in: row b is in block b / 1024. -/
theorem cover0 (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  have hN : cfg0.N = 4 := N_0
  obtain ⟨t, ht⟩ : ∃ t : Fin cfg0.N, t.val = (i 0).val / 1024 := ⟨⟨(i 0).val / 1024, by omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

end AnyF

/-! ## Its output array, at the ideal instance: the specification's embedded batch -/

section AtIdeal
variable (V : (c : Dev nD) → (b : Ref sig .tc) → Buf (Elt Ideal) ((c : Thread nD τ).loc b))

/-- The embedded batch as ONE function of the batch a0, the weights a3 and the bias row b0: entry (b, j) is the
    specification's embedded row of row b of a0, at j. -/
def xnOf (a0 : S4096x512.Idx → EReal) (a3 : S512x512.Idx → EReal) (b0 : S1x512.Idx → EReal) : S4096x512.Idx → EReal :=
  fun i => R0V.xnRow (fun k => a0 (ix2 (n0 := 4096) (i 0) k)) (fun j k => a3 (ix2 j k)) (fun j => b0 (ix2 (0 : Fin 1) j)) (i 1)

theorem xnOf_apply (a0 : S4096x512.Idx → EReal) (a3 : S512x512.Idx → EReal) (b0 : S1x512.Idx → EReal) (b : Fin 4096) (j : Fin 512) :
    xnOf a0 a3 b0 (ix2 b j) = R0V.xnRow (fun k => a0 (ix2 b k)) (fun j k => a3 (ix2 j k)) (fun j => b0 (ix2 (0 : Fin 1) j)) j := rfl

/-- What the body leaves from block q of the batch (rows 1024 q on), the whole weights and the whole bias row is
    block q of the embedded batch: entry y of the block is entry i of the array when i is y moved down 1024 q rows. -/
theorem out_blk (x0 : Vec Ideal S1024x512 .f32) (x1 : Vec Ideal S512x512 .f32) (x2 : Vec Ideal S1x512 .f32)
    (a0 : S4096x512.Idx → EReal) (a3 : S512x512.Idx → EReal) (b0 : S1x512.Idx → EReal) (q : Nat)
    (h0 : ∀ (r : Fin 1024) (k : Fin 512) (b : Fin 4096), b.val = q * 1024 + r.val → x0 (ix2 r k) = a0 (ix2 b k))
    (h1 : x1 = a3) (h2 : x2 = b0) (y : S1024x512.Idx) (i : S4096x512.Idx)
    (hi0 : (i 0).val = q * 1024 + (y 0).val) (hi1 : (i 1).val = (y 1).val) :
    R0.out0_3 (F := Ideal) x0 x1 x2 y = xnOf a0 a3 b0 i := by
  obtain ⟨r, j, rfl⟩ : ∃ (r : Fin 1024) (j : Fin 512), y = ix2 r j := ⟨y 0, y 1, eq_ix2 y⟩
  obtain ⟨b, j', rfl⟩ : ∃ (b : Fin 4096) (j' : Fin 512), i = ix2 b j' := ⟨i 0, i 1, eq_ix2 i⟩
  obtain rfl : j' = j := Fin.ext hi1
  subst h1 h2
  rw [R0V.out0_3_apply, xnOf_apply]
  have e : (fun k => x0 (ix2 r k)) = fun k => a0 (ix2 b k) := funext fun k => h0 r k b hi0
  rw [e]

/-- WHAT POINT t WRITES BACK is block t of the embedded batch of the arrays as the region finds them. -/
theorem flushed0_eq (c : Dev nD) (t : Fin cfg0.N) :
    (R0.dat0 V c).flushed 3 t = ((cfg0.win 3).blk t).view.read (Elt Ideal) (xnOf (V c main_arg0) (V c main_arg3) (V c main_v0)) := by
  show (cfg0.win 3).cut (grid0.coords t) ((R0.dat0 V c).after 3 t) = _
  rw [R0.after0_3]
  obtain ⟨-, -, -, -, -, -, e0, e1⟩ := idx_facts0 t
  funext y
  show R0.out0_3 (R0.iblk0 V c 0 t) (R0.iblk0 V c 1 t) (R0.iblk0 V c 2 t) y
    = xnOf (V c main_arg0) (V c main_arg3) (V c main_v0) (((cfg0.win 3).blk t).view.emb y)
  refine out_blk _ _ _ _ _ _ t.val (fun r k b hb => iblk0_0_apply V c t r k b hb) (iblk0_1_eq V c t) (iblk0_2_eq V c t) y _ ?_ ?_
  · show win0_3.index t (0 : Fin 2) * 1024 + 1 * (y 0).val = t.val * 1024 + (y 0).val; rw [e0]; omega
  · show win0_3.index t (1 : Fin 2) * 512 + 1 * (y 1).val = (y 1).val; rw [e1]; omega

/-- THE OUTPUT ARRAY after region 0: the embedded batch of the batch, the weights and the bias row as entered. -/
theorem arr0_3 (c : Dev nD) :
    (R0.dat0 V c).arrAt 3 cfg0.N = xnOf (V c main_arg0) (V c main_arg3) (V c main_v0) :=
  (R0.dat0 V c).arrAt_eq_of_cover 3 (xnOf (V c main_arg0) (V c main_arg3) (V c main_v0)) (fun t _ => flushed0_eq V c t) cover0

/-- The same, entry by entry. -/
theorem arr0_3_apply (c : Dev nD) (b : Fin 4096) (j : Fin 512) :
    ((R0.dat0 V c).arrAt 3 cfg0.N : S4096x512.Idx → EReal) (ix2 b j)
      = R0V.xnRow (fun k => (V c main_arg0 : S4096x512.Idx → EReal) (ix2 b k)) (fun j k => (V c main_arg3 : S512x512.Idx → EReal) (ix2 j k))
          (fun j => (V c main_v0 : S1x512.Idx → EReal) (ix2 (0 : Fin 1) j)) j := by
  rw [arr0_3]; rfl

end AtIdeal

end Region0

/-! # Region 1 (any float instance) -/

section Region1

variable {F : FTy → Type} [FloatOps F]
variable (V : (c : Dev nD) → (b : Ref sig .tc) → Buf (Elt F) ((c : Thread nD τ).loc b))

/-! ## Its input windows' arrays: as entered -/

theorem arr1_0 (c : Dev nD) : (R1.dat1 V c).arrAt 0 cfg1.N = V c (Pipeline.arrRef spec1 0) :=
  ((R1.dat1 V c).arrAt_in 0 rfl _).trans (R1.A_eq1 V c 0)
theorem arr1_1 (c : Dev nD) : (R1.dat1 V c).arrAt 1 cfg1.N = V c (Pipeline.arrRef spec1 1) :=
  ((R1.dat1 V c).arrAt_in 1 rfl _).trans (R1.A_eq1 V c 1)
theorem arr1_2 (c : Dev nD) : (R1.dat1 V c).arrAt 2 cfg1.N = V c (Pipeline.arrRef spec1 2) :=
  ((R1.dat1 V c).arrAt_in 2 rfl _).trans (R1.A_eq1 V c 2)

/-- The block indices over the grid of 64 points (16 proxy tiles × 4 batch tiles, the batch tile moving fastest): the
    embedded batch, the labels and the three single-cell results are one block each; the proxies move down one block
    of 1024 rows per proxy tile, that is every fourth point. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The last grid point. -/
theorem lt63 : 63 < cfg1.N := by have : cfg1.N = 64 := N_1; omega

/-! ## Its three single-cell outputs: what the last point leaves -/

/-- Output window 3's one block is its whole array: a function on the array read through the block is itself. -/
theorem blk1_3_read (t : Fin cfg1.N) (G : S1x1.Idx → Elt F .f32) :
    ((cfg1.win 3).blk t).view.read (Elt F) G = G := by
  obtain ⟨-, -, -, -, -, -, e0, e1, -⟩ := idx_facts1 t
  funext y
  rw [View.read_apply]
  show G _ = G y
  refine congrArg G (funext fun a => Fin.ext ?_)
  match a with
  | ⟨0, _⟩ => show win1_3.index t (0 : Fin 2) * 1 + 1 * (y 0).val = (y 0).val; rw [e0]; omega
  | ⟨1, _⟩ => show win1_3.index t (1 : Fin 2) * 1 + 1 * (y 1).val = (y 1).val; rw [e1]; omega

/-- Every index of output window 3's array is in its one block, at every point. -/
theorem mem_blk1_3 (t : Fin cfg1.N) (i : S1x1.Idx) : i ∈ ((cfg1.win 3).blk t).view.set := by
  obtain ⟨-, -, -, -, -, -, e0, e1, -⟩ := idx_facts1 t
  show i ∈ ((View.whole main_v3_0).slice (win1_3.rect t)).set
  rw [View.set_slice_whole, Rect.mem_set_unit]
  intro a
  have h0 : (i 0).val < 1 := (i 0).isLt
  have h1 : (i 1).val < 1 := (i 1).isLt
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 1 ≤ (i 1).val ∧ (i 1).val < win1_3.index t (1 : Fin 2) * 1 + 1; omega

/-- The one write-back of output window 3, at the last point, writes what the last point leaves. -/
theorem flushed1_3 (c : Dev nD) (t : Fin cfg1.N) (hf : (cfg1.win 3).flush t = true) :
    (R1.dat1 V c).flushed 3 t = ((cfg1.win 3).blk t).view.read (Elt F) (R1.S V c 63 lt63).o3 := by
  have ht : t.val = 63 := of_decide_eq_true ((R1.flush1_out t 3 (by decide)).symm.trans hf)
  obtain rfl : t = ⟨63, lt63⟩ := Fin.ext ht
  show (cfg1.win 3).cut (grid1.coords ⟨63, lt63⟩) ((R1.dat1 V c).after 3 ⟨63, lt63⟩) = _
  rw [R1.after1_3]
  exact (blk1_3_read ⟨63, lt63⟩ (R1.S V c 63 lt63).o3).symm

/-- So output window 3's array ends holding it. -/
theorem arr1_3 (c : Dev nD) : (R1.dat1 V c).arrAt 3 cfg1.N = (R1.S V c 63 lt63).o3 :=
  (R1.dat1 V c).arrAt_eq_of_cover 3 (R1.S V c 63 lt63).o3 (flushed1_3 V c) fun i =>
    ⟨⟨63, lt63⟩, (R1.flush1_out ⟨63, lt63⟩ 3 (by decide)).trans (decide_eq_true rfl), mem_blk1_3 ⟨63, lt63⟩ i⟩

/-- Output window 4's one block is its whole array: a function on the array read through the block is itself. -/
theorem blk1_4_read (t : Fin cfg1.N) (G : S1x1.Idx → Elt F .f32) :
    ((cfg1.win 4).blk t).view.read (Elt F) G = G := by
  obtain ⟨-, -, -, -, -, -, -, -, e0, e1, -⟩ := idx_facts1 t
  funext y
  rw [View.read_apply]
  show G _ = G y
  refine congrArg G (funext fun a => Fin.ext ?_)
  match a with
  | ⟨0, _⟩ => show win1_4.index t (0 : Fin 2) * 1 + 1 * (y 0).val = (y 0).val; rw [e0]; omega
  | ⟨1, _⟩ => show win1_4.index t (1 : Fin 2) * 1 + 1 * (y 1).val = (y 1).val; rw [e1]; omega

/-- Every index of output window 4's array is in its one block, at every point. -/
theorem mem_blk1_4 (t : Fin cfg1.N) (i : S1x1.Idx) : i ∈ ((cfg1.win 4).blk t).view.set := by
  obtain ⟨-, -, -, -, -, -, -, -, e0, e1, -⟩ := idx_facts1 t
  show i ∈ ((View.whole main_v3_1).slice (win1_4.rect t)).set
  rw [View.set_slice_whole, Rect.mem_set_unit]
  intro a
  have h0 : (i 0).val < 1 := (i 0).isLt
  have h1 : (i 1).val < 1 := (i 1).isLt
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 1 ≤ (i 1).val ∧ (i 1).val < win1_4.index t (1 : Fin 2) * 1 + 1; omega

/-- The one write-back of output window 4, at the last point, writes what the last point leaves. -/
theorem flushed1_4 (c : Dev nD) (t : Fin cfg1.N) (hf : (cfg1.win 4).flush t = true) :
    (R1.dat1 V c).flushed 4 t = ((cfg1.win 4).blk t).view.read (Elt F) (R1.S V c 63 lt63).o4 := by
  have ht : t.val = 63 := of_decide_eq_true ((R1.flush1_out t 4 (by decide)).symm.trans hf)
  obtain rfl : t = ⟨63, lt63⟩ := Fin.ext ht
  show (cfg1.win 4).cut (grid1.coords ⟨63, lt63⟩) ((R1.dat1 V c).after 4 ⟨63, lt63⟩) = _
  rw [R1.after1_4]
  exact (blk1_4_read ⟨63, lt63⟩ (R1.S V c 63 lt63).o4).symm

/-- So output window 4's array ends holding it. -/
theorem arr1_4 (c : Dev nD) : (R1.dat1 V c).arrAt 4 cfg1.N = (R1.S V c 63 lt63).o4 :=
  (R1.dat1 V c).arrAt_eq_of_cover 4 (R1.S V c 63 lt63).o4 (flushed1_4 V c) fun i =>
    ⟨⟨63, lt63⟩, (R1.flush1_out ⟨63, lt63⟩ 4 (by decide)).trans (decide_eq_true rfl), mem_blk1_4 ⟨63, lt63⟩ i⟩

/-- Output window 5's one block is its whole array: a function on the array read through the block is itself. -/
theorem blk1_5_read (t : Fin cfg1.N) (G : S1x1.Idx → Elt F .f32) :
    ((cfg1.win 5).blk t).view.read (Elt F) G = G := by
  obtain ⟨-, -, -, -, -, -, -, -, -, -, e0, e1⟩ := idx_facts1 t
  funext y
  rw [View.read_apply]
  show G _ = G y
  refine congrArg G (funext fun a => Fin.ext ?_)
  match a with
  | ⟨0, _⟩ => show win1_5.index t (0 : Fin 2) * 1 + 1 * (y 0).val = (y 0).val; rw [e0]; omega
  | ⟨1, _⟩ => show win1_5.index t (1 : Fin 2) * 1 + 1 * (y 1).val = (y 1).val; rw [e1]; omega

/-- Every index of output window 5's array is in its one block, at every point. -/
theorem mem_blk1_5 (t : Fin cfg1.N) (i : S1x1.Idx) : i ∈ ((cfg1.win 5).blk t).view.set := by
  obtain ⟨-, -, -, -, -, -, -, -, -, -, e0, e1⟩ := idx_facts1 t
  show i ∈ ((View.whole main_v3_2).slice (win1_5.rect t)).set
  rw [View.set_slice_whole, Rect.mem_set_unit]
  intro a
  have h0 : (i 0).val < 1 := (i 0).isLt
  have h1 : (i 1).val < 1 := (i 1).isLt
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 1 ≤ (i 1).val ∧ (i 1).val < win1_5.index t (1 : Fin 2) * 1 + 1; omega

/-- The one write-back of output window 5, at the last point, writes what the last point leaves. -/
theorem flushed1_5 (c : Dev nD) (t : Fin cfg1.N) (hf : (cfg1.win 5).flush t = true) :
    (R1.dat1 V c).flushed 5 t = ((cfg1.win 5).blk t).view.read (Elt F) (R1.S V c 63 lt63).o5 := by
  have ht : t.val = 63 := of_decide_eq_true ((R1.flush1_out t 5 (by decide)).symm.trans hf)
  obtain rfl : t = ⟨63, lt63⟩ := Fin.ext ht
  show (cfg1.win 5).cut (grid1.coords ⟨63, lt63⟩) ((R1.dat1 V c).after 5 ⟨63, lt63⟩) = _
  rw [R1.after1_5]
  exact (blk1_5_read ⟨63, lt63⟩ (R1.S V c 63 lt63).o5).symm

/-- So output window 5's array ends holding it. -/
theorem arr1_5 (c : Dev nD) : (R1.dat1 V c).arrAt 5 cfg1.N = (R1.S V c 63 lt63).o5 :=
  (R1.dat1 V c).arrAt_eq_of_cover 5 (R1.S V c 63 lt63).o5 (flushed1_5 V c) fun i =>
    ⟨⟨63, lt63⟩, (R1.flush1_out ⟨63, lt63⟩ 5 (by decide)).trans (decide_eq_true rfl), mem_blk1_5 ⟨63, lt63⟩ i⟩

/-! ## The blocks region 1 reads, as functions of the contents it is entered with -/

/-- The embedded batch's block is the whole array, at every point. -/
theorem iblk1_0_eq (c : Dev nD) (t : Fin cfg1.N) :
    (R1.iblk1 V c 0 t : Vec F S4096x512 .bf16) = (V c main_v1 : S4096x512.Idx → Elt F .bf16) := by
  obtain ⟨e0, e1, -⟩ := idx_facts1 t
  funext y
  unfold R1.iblk1
  rw [View.read_apply]
  show V c main_v1 _ = V c main_v1 _
  refine congrArg (V c main_v1) (funext fun a => Fin.ext ?_)
  match a with
  | ⟨0, _⟩ => show win1_0.index t (0 : Fin 2) * 4096 + 1 * (y 0).val = (y 0).val; rw [e0]; omega
  | ⟨1, _⟩ => show win1_0.index t (1 : Fin 2) * 512 + 1 * (y 1).val = (y 1).val; rw [e1]; omega

/-- The labels' block is the whole array, at every point. -/
theorem iblk1_1_eq (c : Dev nD) (t : Fin cfg1.N) :
    (R1.iblk1 V c 1 t : Vec F S4096x1 .i32) = (V c main_v2 : S4096x1.Idx → Elt F .i32) := by
  obtain ⟨-, -, e0, e1, -⟩ := idx_facts1 t
  funext y
  unfold R1.iblk1
  rw [View.read_apply]
  show V c main_v2 _ = V c main_v2 _
  refine congrArg (V c main_v2) (funext fun a => Fin.ext ?_)
  match a with
  | ⟨0, _⟩ => show win1_1.index t (0 : Fin 2) * 4096 + 1 * (y 0).val = (y 0).val; rw [e0]; omega
  | ⟨1, _⟩ => show win1_1.index t (1 : Fin 2) * 1 + 1 * (y 1).val = (y 1).val; rw [e1]; omega

/-- The proxy block at point t is rows 1024 (t / 4) … 1024 (t / 4) + 1023 of the proxies as entered. -/
theorem iblk1_2_apply (c : Dev nD) (t : Fin cfg1.N) (r : Fin 1024) (k : Fin 512) (p : Fin 16384) (hp : p.val = 1024 * (t.val / 4) + r.val) :
    (R1.iblk1 V c 2 t : Vec F S1024x512 .f32) (ix2 r k) = (V c main_arg2 : S16384x512.Idx → Elt F .f32) (ix2 p k) := by
  obtain ⟨-, -, -, -, e0, e1, -⟩ := idx_facts1 t
  unfold R1.iblk1
  rw [View.read_apply]
  show V c main_arg2 _ = V c main_arg2 _
  refine congrArg (V c main_arg2) (funext fun a => Fin.ext ?_)
  match a with
  | ⟨0, _⟩ => show win1_2.index t (0 : Fin 2) * 1024 + 1 * r.val = p.val; rw [e0, hp]; omega
  | ⟨1, _⟩ => show win1_2.index t (1 : Fin 2) * 512 + 1 * k.val = k.val; rw [e1]; omega

/-- The same with the proxy row written out. -/
theorem iblk1_2_eq (c : Dev nD) (t : Fin cfg1.N) (r : Fin 1024) (k : Fin 512) :
    (R1.iblk1 V c 2 t : Vec F S1024x512 .f32) (ix2 r k)
      = (V c main_arg2 : S16384x512.Idx → Elt F .f32) (ix2 ⟨1024 * (t.val / 4) + r.val, by
          have := t.isLt; have : cfg1.N = 64 := N_1; have := r.isLt; omega⟩ k) :=
  iblk1_2_apply V c t r k _ rfl

end Region1

end Cert.KernelIdeal.Arr

end
-- ==== Proof.KI.Pay1.lean ====
/-
  The second kernel's arithmetic, read one entry at a time over the extended reals.

  One grid point of the second kernel works on a tile of 1024 embedded batch rows (the inner coordinate picks it) against
  a tile of 1024 proxies (the outer coordinate picks it). Each piece of its arithmetic is read here at explicit
  coordinates `r` (a row of the batch tile), `j` (a proxy of the proxy tile) and `k` (a feature):
    • the proxy tile normalised: row `j` divided by √(∑ₖ row² + ε);
    • the cosine tile: entry `(r, j)` is ∑ₖ (batch row r)ₖ · (normalised proxy j)ₖ, and its two exponentials
      exp (−α (cos − δ)), exp (α (cos + δ));
    • the hit mask: set at `(r, j)` exactly when row r's label is the proxy number 1024 · (outer coordinate) + j;
    • the three row accumulators: each gains, per proxy j, the sum over the tile's rows of the positive exponentials
      the mask keeps, of the negative exponentials it drops, and of the number of rows it keeps;
    • the three single-cell results: each gains the sum over the 1024 proxies of log1p of an accumulator, or the number
      of proxies whose count is not zero;
    • the resets, which are zero everywhere;
    • which batch rows and labels a point reads, and at which of the 64 points each of the three conditions holds.
  Sums are finite sums of extended reals; a change of float format is the identity there; the zero word is `0`.
-/
import proofs.«105117_j51427938402969_1_alg».proof.Proof.KI.State1
import proofs.«105117_j51427938402969_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R1V

open Idealize.ShloMosaic Idealize.ShloMosaic.ValueIdx Cert.KernelIdeal Cert.KernelIdeal.Gen

/-! ## Layout operations of a keep-dims row or column, read at coordinates -/

section Layout
variable {α : Type}

/-- An `[a]` vector cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A float sum along one axis of a matrix, read at coordinates -/

/-- The sum along axis 1 of an `[a, b]` matrix is, at `p`, the sum of row `p`. -/
theorem sum_axis1_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  match c with
  | ⟨0, _⟩ => exact Fin.ext rfl
  | ⟨1, _⟩ => exact Fin.ext rfl

/-- The sum along axis 0 of an `[a, b]` matrix is, at `c`, the sum of column `c`. -/
theorem sum_axis0_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (c : Fin b) :
    multiReduction .add [0] ⟨1, ![b]⟩ src 0x00000000#32 h hφ hacc (ix1 c) = ∑ p : Fin a, src (ix2 p c) := by
  refine (Ideal.multiReduction_add_single src 0x00000000#32 h hφ hacc (ix1 c)).trans ?_
  refine Finset.sum_congr rfl fun p _ => congrArg src ?_
  funext d
  match d with
  | ⟨0, _⟩ => exact Fin.ext rfl
  | ⟨1, _⟩ => exact Fin.ext rfl

/-! ## Words and bits read back -/

/-- The column number a tile computes, `(outer coordinate) · 1024 + j` in 32-bit words, is the word of that number. -/
theorem word_col (c j : ℕ) :
    Scalar.muli (BitVec.ofNat 32 c) 1024#32 + BitVec.ofNat 32 j = BitVec.ofNat 32 (1024 * c + j) := by
  show BitVec.ofNat 32 c * BitVec.ofNat 32 1024 + BitVec.ofNat 32 j = _
  rw [← BitVec.ofNat_mul, ← BitVec.ofNat_add, Nat.mul_comm]

/-- A select against the zero word is the `if` with `0`. -/
theorem select_zero_right (c : BitVec 1) (a : EReal) :
    Scalar.select c a (Scalar.ofBits (F := Ideal) .f32 0x00000000#32) = if c = 1#1 then a else 0 := by
  rcases BitVec.eq_zero_or_eq_one c with h | h <;> subst h
  · exact (select_zero _ _).trans (Ideal.ofBits_zero_f32.trans (if_neg (by decide)).symm)
  · exact (select_one _ _).trans (if_pos rfl).symm

/-- A select of the zero word is the `if` with `0` first. -/
theorem select_zero_left (c : BitVec 1) (a : EReal) :
    Scalar.select c (Scalar.ofBits (F := Ideal) .f32 0x00000000#32) a = if c = 1#1 then 0 else a := by
  rcases BitVec.eq_zero_or_eq_one c with h | h <;> subst h
  · exact (select_zero _ _).trans (if_neg (by decide)).symm
  · exact (select_one _ _).trans (Ideal.ofBits_zero_f32.trans (if_pos rfl).symm)

/-- A bit widened to 32 bits and converted to a float is `1` or `0`. -/
theorem sitofp_bit (c : BitVec 1) :
    FloatOps.sitofp (F := Ideal) .f32 (c.setWidth 32) = if c = 1#1 then (1 : EReal) else 0 := by
  rcases BitVec.eq_zero_or_eq_one c with h | h <;> subst h
  · show ((((0#1 : BitVec 1).setWidth 32).toInt : ℝ) : EReal) = _
    rw [show ((0#1 : BitVec 1).setWidth 32).toInt = 0 by decide, if_neg (by decide)]
    simp
  · show ((((1#1 : BitVec 1).setWidth 32).toInt : ℝ) : EReal) = _
    rw [show ((1#1 : BitVec 1).setWidth 32).toInt = 1 by decide, if_pos rfl]
    simp

/-- "Not equal to the zero word", as a bit turned into a float, is the indicator of being non-zero. -/
theorem sitofp_ne_zero (x : EReal) :
    FloatOps.sitofp (F := Ideal) .f32 ((FloatOps.cmpf (F := Ideal) (φ := .f32) .one x (Scalar.ofBits (F := Ideal) .f32 0x00000000#32)).setWidth 32)
      = if x ≠ 0 then (1 : EReal) else 0 := by
  refine (sitofp_bit _).trans ?_
  show (if BitVec.ofBool (decide (x ≠ Ideal.ofBits .f32 0x00000000#32)) = 1#1 then (1 : EReal) else 0) = _
  rw [Ideal.ofBits_zero_f32]
  by_cases h : x = 0
  · rw [if_neg (by simp [h]), if_neg (by simp [h])]
  · rw [if_pos (by simp [h]), if_pos h]

/-! ## The normalised proxy tile -/

/-- A proxy row divided by the square root of its sum of squares plus ε. -/
theorem pay13_apply (x : Vec Ideal S1024x512 .f32) (r : Fin 1024) (k : Fin 512) :
    k1_pay13 (F := Ideal) x (ix2 r k)
      = Ideal.div (x (ix2 r k)) (Ideal.sqrt ((∑ k' : Fin 512, x (ix2 r k') * x (ix2 r k')) + Spec.eps)) := by
  unfold k1_pay13
  refine (congrFun (shapeCast_self _ _) (ix2 r k)).trans ?_
  refine congrArg (Ideal.div (x (ix2 r k))) ?_
  refine (broadcastTo_a1_ab_apply _ _ r k).trans ?_
  refine congrArg (fun z => Ideal.sqrt (z + Spec.eps)) ?_
  refine (shapeCast_a_a1_apply _ _ r 0).trans ?_
  exact sum_axis1_apply _ _ _ _ r

/-! ## The cosine tile: a row tile against the transposed proxy tile -/

/-- The contraction record of the tile product. -/
abbrev D1 : DotDims S1024x512 S512x1024 S1024x1024 := dot_S1024x512_S512x1024_S1024x1024_1_0_0_1_n_n

theorem D1_lhs0 (i : S1024x1024.Idx) (q : D1.contr.Idx) : (D1.lhsIdx i q 0).val = (i 0).val := by
  unfold DotDims.lhsIdx
  rw [dif_neg (show ¬(0 : Fin S1024x512.rank) ∈ D1.lhsBatch by decide),
    dif_pos (show (0 : Fin S1024x512.rank) ∈ D1.lhsNonContracting by decide)]
  rfl
theorem D1_lhs1 (i : S1024x1024.Idx) (q : D1.contr.Idx) : (D1.lhsIdx i q 1).val = (q ⟨0, by decide⟩).val :=
  D1.lhsIdx_val_of_single rfl i q
theorem D1_rhs0 (i : S1024x1024.Idx) (q : D1.contr.Idx) : (D1.rhsIdx i q 0).val = (q ⟨0, by decide⟩).val :=
  D1.rhsIdx_val_of_single rfl i q
theorem D1_rhs1 (i : S1024x1024.Idx) (q : D1.contr.Idx) : (D1.rhsIdx i q 1).val = (i 1).val := by
  unfold DotDims.rhsIdx
  rw [dif_neg (show ¬(1 : Fin S512x1024.rank) ∈ D1.rhsBatch by decide),
    dif_pos (show (1 : Fin S512x1024.rank) ∈ D1.rhsNonContracting by decide)]
  rfl

/-- Entry `(r, j)` of the tile product is row `r` of the left tile against row `j` of the right one. -/
theorem pay14_apply (v10 v16 : Vec Ideal S1024x512 .bf16) (r j : Fin 1024) :
    k1_pay14 (F := Ideal) v10 v16 (ix2 r j) = ∑ k : Fin 512, v10 (ix2 r k) * v16 (ix2 j k) := by
  unfold k1_pay14
  refine (Ideal.matmul_constant_zero_apply D1 none _ _ (ix2 r j)).trans ?_
  rw [← Equiv.sum_comp (contrEquiv1 D1 512 rfl rfl).symm]
  refine Finset.sum_congr rfl fun k _ => ?_
  have hk := contrEquiv1_symm_val D1 512 rfl rfl k
  have el : D1.lhsIdx (ix2 r j) ((contrEquiv1 D1 512 rfl rfl).symm k) = ix2 r k := funext fun a => Fin.ext (by
    match a with
    | ⟨0, _⟩ => exact D1_lhs0 _ _
    | ⟨1, _⟩ => exact (D1_lhs1 _ _).trans hk)
  have er : D1.rhsIdx (ix2 r j) ((contrEquiv1 D1 512 rfl rfl).symm k) = ix2 k j := funext fun a => Fin.ext (by
    match a with
    | ⟨0, _⟩ => exact (D1_rhs0 _ _).trans hk
    | ⟨1, _⟩ => exact D1_rhs1 _ _)
  rw [el, er]
  exact congrArg₂ (· * ·) (congrFun (shapeCast_self _ _) (ix2 r k)) (transpose_ix2_apply _ _ k j)

/-- exp (−α (cos − δ)) of the tile product, entry by entry. -/
theorem pay16_apply (v10 v16 : Vec Ideal S1024x512 .bf16) (r j : Fin 1024) :
    k1_pay16 (F := Ideal) v10 v16 (ix2 r j)
      = Ideal.exp (Spec.negAlpha * (k1_pay14 (F := Ideal) v10 v16 (ix2 r j) - Spec.mrg)) := rfl

/-- exp (α (cos + δ)) of the tile product, entry by entry. -/
theorem pay17_apply (v10 v16 : Vec Ideal S1024x512 .bf16) (r j : Fin 1024) :
    k1_pay17 (F := Ideal) v10 v16 (ix2 r j)
      = Ideal.exp (Spec.alpha * (k1_pay14 (F := Ideal) v10 v16 (ix2 r j) + Spec.mrg)) := rfl

/-! ## The hit mask of a tile -/

/-- The mask is set at `(r, j)` exactly when row `r`'s label is the column `1024 · (outer coordinate) + j`. -/
theorem pay15_apply (i : grid1.Coords) (v14 : Vec Ideal S1024x1 .i32) (r j : Fin 1024) :
    k1_pay15 (F := Ideal) i v14 (ix2 r j) = 1#1
      ↔ v14 (ix2 r (0 : Fin 1)) = BitVec.ofNat 32 (1024 * (i 0).val + j.val) := by
  unfold k1_pay15
  refine IntOp.cmpi_eq.trans ?_
  exact Eq.congr ((broadcastTo_a1_ab_apply _ _ r j).trans (congrFun (shapeCast_self _ _) _))
    ((broadcastTo_1b_ab_apply _ _ r j).trans
      ((congrArg (fun z => Scalar.muli (BitVec.ofNat 32 (i 0).val) 1024#32 + z)
        (iota_single_apply .tc S1x1024 32 1 _ (ix2 (0 : Fin 1) j))).trans (word_col _ _)))

/-- The same with the outer coordinate named. -/
theorem pay15_apply_of (i : grid1.Coords) (c : Fin 16) (hc : (i 0).val = c.val) (v14 : Vec Ideal S1024x1 .i32)
    (r j : Fin 1024) :
    k1_pay15 (F := Ideal) i v14 (ix2 r j) = 1#1
      ↔ v14 (ix2 r (0 : Fin 1)) = BitVec.ofNat 32 (1024 * c.val + j.val) := by
  rw [← hc]; exact pay15_apply i v14 r j

/-! ## The three row accumulators: one tile's column sums added in -/

/-- The positive accumulator: plus, per column, the sum over the tile's rows of the entries the mask keeps. -/
theorem pay1_apply (v25 : IVec S1024x1024 1) (v30 : FVec Ideal S1024x1024 .f32) (v36 : Vec Ideal S1x1024 .f32)
    (j : Fin 1024) :
    k1_pay1 (F := Ideal) v25 v30 v36 (ix2 (0 : Fin 1) j)
      = v36 (ix2 (0 : Fin 1) j) + ∑ r : Fin 1024, if v25 (ix2 r j) = 1#1 then v30 (ix2 r j) else 0 := by
  unfold k1_pay1
  refine (congrFun (shapeCast_self _ _) _).trans ?_
  refine congrArg (v36 (ix2 (0 : Fin 1) j) + ·) ?_
  refine (shapeCast_a_1a_apply _ _ 0 j).trans ?_
  refine (sum_axis0_apply _ _ _ _ j).trans ?_
  exact Finset.sum_congr rfl fun r _ => select_zero_right _ _

/-- The negative accumulator: plus, per column, the sum over the tile's rows of the entries the mask drops. -/
theorem pay2_apply (v25 : IVec S1024x1024 1) (v35 : FVec Ideal S1024x1024 .f32) (v45 : Vec Ideal S1x1024 .f32)
    (j : Fin 1024) :
    k1_pay2 (F := Ideal) v25 v35 v45 (ix2 (0 : Fin 1) j)
      = v45 (ix2 (0 : Fin 1) j) + ∑ r : Fin 1024, if v25 (ix2 r j) = 1#1 then 0 else v35 (ix2 r j) := by
  unfold k1_pay2
  refine (congrFun (shapeCast_self _ _) _).trans ?_
  refine congrArg (v45 (ix2 (0 : Fin 1) j) + ·) ?_
  refine (shapeCast_a_1a_apply _ _ 0 j).trans ?_
  refine (sum_axis0_apply _ _ _ _ j).trans ?_
  exact Finset.sum_congr rfl fun r _ => select_zero_left _ _

/-- The count accumulator: plus, per column, the number of the tile's rows the mask keeps. -/
theorem pay3_apply (v25 : IVec S1024x1024 1) (v54 : Vec Ideal S1x1024 .f32) (j : Fin 1024) :
    k1_pay3 (F := Ideal) v25 v54 (ix2 (0 : Fin 1) j)
      = v54 (ix2 (0 : Fin 1) j) + ∑ r : Fin 1024, if v25 (ix2 r j) = 1#1 then (1 : EReal) else 0 := by
  unfold k1_pay3
  refine (congrFun (shapeCast_self _ _) _).trans ?_
  refine congrArg (v54 (ix2 (0 : Fin 1) j) + ·) ?_
  refine (shapeCast_a_1a_apply _ _ 0 j).trans ?_
  refine (sum_axis0_apply _ _ _ _ j).trans ?_
  exact Finset.sum_congr rfl fun r _ => sitofp_bit _

/-! ## The three single-cell results: an accumulator's row summed in -/

/-- A result cell plus the sum over the columns of `log1p` of the accumulator. -/
theorem pay4_apply (v66 : Vec Ideal S1x1 .f32) (v68 : Vec Ideal S1x1024 .f32) :
    k1_pay4 (F := Ideal) v66 v68 (ix2 (0 : Fin 1) (0 : Fin 1))
      = v66 (ix2 (0 : Fin 1) (0 : Fin 1)) + ∑ j : Fin 1024, Ideal.log1p (v68 (ix2 (0 : Fin 1) j)) := by
  unfold k1_pay4
  refine congrArg₂ (· + ·) (congrFun (shapeCast_self _ _) _) ?_
  refine (shapeCast_a_1a_apply _ _ 0 0).trans ?_
  exact sum_axis1_apply _ _ _ _ 0

/-- The same for the second result cell. -/
theorem pay5_apply (v74 : Vec Ideal S1x1 .f32) (v76 : Vec Ideal S1x1024 .f32) :
    k1_pay5 (F := Ideal) v74 v76 (ix2 (0 : Fin 1) (0 : Fin 1))
      = v74 (ix2 (0 : Fin 1) (0 : Fin 1)) + ∑ j : Fin 1024, Ideal.log1p (v76 (ix2 (0 : Fin 1) j)) := by
  unfold k1_pay5
  refine congrArg₂ (· + ·) (congrFun (shapeCast_self _ _) _) ?_
  refine (shapeCast_a_1a_apply _ _ 0 0).trans ?_
  exact sum_axis1_apply _ _ _ _ 0

/-- The third result cell plus the number of columns whose count is not zero. -/
theorem pay6_apply (v82 : Vec Ideal S1x1 .f32) (v84 : Vec Ideal S1x1024 .f32) :
    k1_pay6 (F := Ideal) v82 v84 (ix2 (0 : Fin 1) (0 : Fin 1))
      = v82 (ix2 (0 : Fin 1) (0 : Fin 1)) + ∑ j : Fin 1024, if v84 (ix2 (0 : Fin 1) j) ≠ 0 then (1 : EReal) else 0 := by
  unfold k1_pay6
  refine congrArg₂ (· + ·) (congrFun (shapeCast_self _ _) _) ?_
  refine (shapeCast_a_1a_apply _ _ 0 0).trans ?_
  refine (sum_axis1_apply _ _ _ _ 0).trans ?_
  exact Finset.sum_congr rfl fun j _ => sitofp_ne_zero _

/-! ## The resets: splats of the zero word -/

theorem pay7_eq : k1_pay7 (F := Ideal) = fun _ => (0 : EReal) := funext fun _ => Ideal.ofBits_zero_f32
theorem pay8_eq : k1_pay8 (F := Ideal) = fun _ => (0 : EReal) := funext fun _ => Ideal.ofBits_zero_f32
theorem pay9_eq : k1_pay9 (F := Ideal) = fun _ => (0 : EReal) := funext fun _ => Ideal.ofBits_zero_f32
theorem pay10_eq : k1_pay10 (F := Ideal) = fun _ => (0 : EReal) := by
  unfold k1_pay10
  exact (shapeCast_self _ _).trans (funext fun _ => Ideal.ofBits_zero_f32)
theorem pay11_eq : k1_pay11 (F := Ideal) = fun _ => (0 : EReal) := by
  unfold k1_pay11
  exact (shapeCast_self _ _).trans (funext fun _ => Ideal.ofBits_zero_f32)
theorem pay12_eq : k1_pay12 (F := Ideal) = fun _ => (0 : EReal) := by
  unfold k1_pay12
  exact (shapeCast_self _ _).trans (funext fun _ => Ideal.ofBits_zero_f32)

/-! ## What a grid point reads of the embedded batch and of the labels -/

theorem coord0_lt (i : grid1.Coords) : (i 0).val < 16 := (i 0).isLt
theorem coord1_lt (i : grid1.Coords) : (i 1).val < 4 := (i 1).isLt

/-- Batch row `1024 · (inner coordinate) + r`: row `r` of the tile a point reads. -/
abbrev rowOf (i : grid1.Coords) (r : Fin 1024) : Fin 4096 :=
  ⟨1024 * (i 1).val + r.val, by have := coord1_lt i; have := r.isLt; omega⟩

section Reads
variable {F : FTy → Type} [FloatOps F]

/-- The row tile a point reads is the embedded batch from row `1024 · (inner coordinate)` on. -/
theorem rowsAt_apply (i : grid1.Coords) (x0 : Vec F S4096x512 .bf16) (r : Fin 1024) (k : Fin 512) :
    R1.rowsAt i x0 (ix2 r k) = x0 (ix2 (rowOf i r) k) := by
  show x0 ((Rect.unit (s := S4096x512) (k1_off1 i) S1024x512.size (k1_off1_inb i)).idx (ix2 r k)) = _
  refine congrArg x0 (funext fun a => Fin.ext ?_)
  match a with
  | ⟨0, _⟩ =>
    show (k1_off1 i) 0 + 1 * r.val = 1024 * (i 1).val + r.val
    rw [k1_off1_eq i]
    show 1024 * (i 1).val + 1 * r.val = _
    omega
  | ⟨1, _⟩ =>
    show (k1_off1 i) 1 + 1 * k.val = k.val
    rw [k1_off1_eq i]
    show 0 + 1 * k.val = _
    omega

/-- The labels a point reads are those of the same rows. -/
theorem labelsAt_apply (i : grid1.Coords) (x1 : Vec F S4096x1 .i32) (r : Fin 1024) :
    R1.labelsAt i x1 (ix2 r (0 : Fin 1)) = x1 (ix2 (rowOf i r) (0 : Fin 1)) := by
  show x1 ((Rect.unit (s := S4096x1) (k1_off2 i) S1024x1.size (k1_off2_inb i)).idx (ix2 r (0 : Fin 1))) = _
  refine congrArg x1 (funext fun a => Fin.ext ?_)
  match a with
  | ⟨0, _⟩ =>
    show (k1_off2 i) 0 + 1 * r.val = 1024 * (i 1).val + r.val
    rw [k1_off2_eq i]
    show 1024 * (i 1).val + 1 * r.val = _
    omega
  | ⟨1, _⟩ =>
    show (k1_off2 i) 1 + 1 * 0 = 0
    rw [k1_off2_eq i]
    rfl

end Reads

/-! ## The grid's coordinates and the three conditions, in closed form over the 64 points -/

/-- The outer coordinate of point `t` is `t / 4`. -/
theorem coords0_val : ∀ t : Fin cfg1.N, (grid1.coords t 0).val = t.val / 4 := by decide +kernel
/-- The inner coordinate of point `t` is `t % 4`. -/
theorem coords1_val : ∀ t : Fin cfg1.N, (grid1.coords t 1).val = t.val % 4 := by decide +kernel
/-- The results are reset at the very first point only. -/
theorem cond1_iff : ∀ t : Fin cfg1.N, k1_cond1 (grid1.coords t) = 1#1 ↔ t.val = 0 := by decide +kernel
/-- The proxy tile and the accumulators are reset where the inner coordinate is 0. -/
theorem cond2_iff : ∀ t : Fin cfg1.N, R1.cond2 (grid1.coords t) ↔ t.val % 4 = 0 := by decide +kernel
/-- The accumulators are added into the results where the inner coordinate is 3. -/
theorem cond3_iff : ∀ t : Fin cfg1.N, k1_cond3 (grid1.coords t) = 1#1 ↔ t.val % 4 = 3 := by decide +kernel

end Cert.KernelIdeal.R1V

end
-- ==== Proof.Fold1.lean ====
/-
  The tiled accumulation equals the flat sums.

  The second program walks a 16 × 4 grid; position n = 4·c + b handles the tile of classes 1024·c … 1024·c + 1023 against the
  tile of batch rows 1024·b … 1024·b + 1023. It keeps three row accumulators (one entry per class of the current class
  tile), cleared when a class tile begins (b = 0) and increased by the tile's column sums at every position, and three scalar
  results, cleared at the first position and increased, when a class tile ends (b = 3), by the sum over the tile's classes of
  a function of the finished accumulator entry.

  Since 4096 = 4 · 1024 and 16384 = 16 · 1024, and finite sums in a commutative monoid may be regrouped freely, after the
  last position (n = 63) each scalar result is the flat double sum ∑ c, g (∑ b, f b c) of the specification.
-/
import proofs.«105117_j51427938402969_1_alg».proof.Proof.Spec
import Mathlib.Data.Fintype.BigOperators
import Mathlib.Logic.Equiv.Fin.Basic

noncomputable section

namespace Cert.Fold1

open Idealize.ShloMosaic

/-- The state carried from one grid position to the next: three scalar results and three row accumulators. -/
structure M where
  o3 : EReal
  o4 : EReal
  o5 : EReal
  s1 : Fin 1024 → EReal
  s2 : Fin 1024 → EReal
  s3 : Fin 1024 → EReal

/-- Batch row r of batch tile b, i.e. row 1024·b + r (for b < 4; made total by reducing modulo 4096). -/
def row (b : ℕ) (r : Fin 1024) : Fin 4096 := ⟨(1024 * b + r.val) % 4096, Nat.mod_lt _ (by norm_num)⟩
/-- Class j of class tile c, i.e. class 1024·c + j (for c < 16; made total by reducing modulo 16384). -/
def col (c : ℕ) (j : Fin 1024) : Fin 16384 := ⟨(1024 * c + j.val) % 16384, Nat.mod_lt _ (by norm_num)⟩

theorem row_val (b : ℕ) (hb : b < 4) (r : Fin 1024) : (row b r).val = 1024 * b + r.val := by
  have := r.isLt
  simp only [row]; omega
theorem col_val (c : ℕ) (hc : c < 16) (j : Fin 1024) : (col c j).val = 1024 * c + j.val := by
  have := j.isLt
  simp only [col]; omega

variable (E : Fin 4096 → Fin 512 → EReal) (T : Fin 4096 → BitVec 32) (Pr : Fin 16384 → Fin 512 → EReal)

/-- One grid position, n = 4·c + b with c = n / 4 the class tile and b = n % 4 the batch tile. -/
def mstep (n : ℕ) (p : M) : M where
  o3 := if n % 4 = 3 then
      (if n = 0 then 0 else p.o3) + ∑ j : Fin 1024, Ideal.log1p ((if n % 4 = 0 then 0 else p.s1 j) +
        ∑ r : Fin 1024, if Spec.hit T (row (n % 4) r) (col (n / 4) j) then Spec.posEOf Pr E (row (n % 4) r) (col (n / 4) j) else 0)
    else (if n = 0 then 0 else p.o3)
  o4 := if n % 4 = 3 then
      (if n = 0 then 0 else p.o4) + ∑ j : Fin 1024, Ideal.log1p ((if n % 4 = 0 then 0 else p.s2 j) +
        ∑ r : Fin 1024, if Spec.hit T (row (n % 4) r) (col (n / 4) j) then 0 else Spec.negEOf Pr E (row (n % 4) r) (col (n / 4) j))
    else (if n = 0 then 0 else p.o4)
  o5 := if n % 4 = 3 then
      (if n = 0 then 0 else p.o5) + ∑ j : Fin 1024, (if ((if n % 4 = 0 then 0 else p.s3 j) +
        ∑ r : Fin 1024, if Spec.hit T (row (n % 4) r) (col (n / 4) j) then (1 : EReal) else 0) ≠ 0 then (1 : EReal) else 0)
    else (if n = 0 then 0 else p.o5)
  s1 := fun j => (if n % 4 = 0 then 0 else p.s1 j) +
    ∑ r : Fin 1024, if Spec.hit T (row (n % 4) r) (col (n / 4) j) then Spec.posEOf Pr E (row (n % 4) r) (col (n / 4) j) else 0
  s2 := fun j => (if n % 4 = 0 then 0 else p.s2 j) +
    ∑ r : Fin 1024, if Spec.hit T (row (n % 4) r) (col (n / 4) j) then 0 else Spec.negEOf Pr E (row (n % 4) r) (col (n / 4) j)
  s3 := fun j => (if n % 4 = 0 then 0 else p.s3 j) +
    ∑ r : Fin 1024, if Spec.hit T (row (n % 4) r) (col (n / 4) j) then (1 : EReal) else 0

/-- The state after positions 0 … n, started from init (whose content is never read: position 0 clears everything). -/
def mst (init : M) : ℕ → M
  | 0 => mstep E T Pr 0 init
  | n + 1 => mstep E T Pr (n + 1) (mst init n)

theorem mst_zero (init : M) : mst E T Pr init 0 = mstep E T Pr 0 init := rfl
theorem mst_succ (init : M) (n : ℕ) : mst E T Pr init (n + 1) = mstep E T Pr (n + 1) (mst E T Pr init n) := rfl

/-! ### One channel: a scalar result and its row accumulator -/

/-- One grid position of a single channel with summand f and per-class function g. -/
def cstep (f : Fin 4096 → Fin 16384 → EReal) (g : EReal → EReal) (n : ℕ) (p : EReal × (Fin 1024 → EReal)) :
    EReal × (Fin 1024 → EReal) :=
  (if n % 4 = 3 then
      (if n = 0 then 0 else p.1) + ∑ j : Fin 1024, g ((if n % 4 = 0 then 0 else p.2 j) +
        ∑ r : Fin 1024, f (row (n % 4) r) (col (n / 4) j))
    else (if n = 0 then 0 else p.1),
   fun j => (if n % 4 = 0 then 0 else p.2 j) + ∑ r : Fin 1024, f (row (n % 4) r) (col (n / 4) j))

/-- The channel after positions 0 … n. -/
def cst (f : Fin 4096 → Fin 16384 → EReal) (g : EReal → EReal) (init : EReal × (Fin 1024 → EReal)) :
    ℕ → EReal × (Fin 1024 → EReal)
  | 0 => cstep f g 0 init
  | n + 1 => cstep f g (n + 1) (cst f g init n)

/-- Regrouping a sum over m·k indices into m tiles of k. -/
theorem sum_tiles {A : Type*} [AddCommMonoid A] (m k N : ℕ) (hN : N = m * k) (h : Fin N → A)
    (t : ℕ → Fin k → Fin N) (ht : ∀ a, a < m → ∀ r : Fin k, (t a r).val = k * a + r.val) :
    ∑ i : Fin N, h i = ∑ a ∈ Finset.range m, ∑ r : Fin k, h (t a r) := by
  subst hN
  rw [← Fin.sum_univ_eq_sum_range (fun a => ∑ r : Fin k, h (t a r)) m]
  rw [← Fintype.sum_equiv finProdFinEquiv (fun p : Fin m × Fin k => h (finProdFinEquiv p)) h (fun _ => rfl)]
  rw [Fintype.sum_prod_type]
  refine Finset.sum_congr rfl (fun a _ => Finset.sum_congr rfl (fun r _ => ?_))
  congr 1
  apply Fin.ext
  rw [ht a.val a.isLt r]
  simp [finProdFinEquiv, Nat.add_comm]

/-- The invariant of a channel after position n = 4·c + b: the accumulator holds the column sums over the batch tiles
    0 … b of class tile c, the result holds the contributions of the finished class tiles. -/
theorem cst_inv (f : Fin 4096 → Fin 16384 → EReal) (g : EReal → EReal) (init : EReal × (Fin 1024 → EReal)) (n : ℕ) :
    (cst f g init n).2 = (fun j => ∑ b' ∈ Finset.range (n % 4 + 1), ∑ r : Fin 1024, f (row b' r) (col (n / 4) j)) ∧
    (cst f g init n).1 = ∑ c' ∈ Finset.range ((n + 1) / 4), ∑ j : Fin 1024,
      g (∑ b' ∈ Finset.range 4, ∑ r : Fin 1024, f (row b' r) (col c' j)) := by
  induction n with
  | zero =>
    refine ⟨?_, ?_⟩
    · funext j; simp [cst, cstep]
    · simp [cst, cstep]
  | succ n ih =>
    obtain ⟨ih2, ih1⟩ := ih
    have hm : n % 4 = 0 ∨ n % 4 = 1 ∨ n % 4 = 2 ∨ n % 4 = 3 := by omega
    have hn0 : n + 1 ≠ 0 := Nat.succ_ne_zero n
    rcases hm with hm | hm | hm | hm
    · have e1 : (n + 1) % 4 = 1 := by omega
      have e2 : (n + 1) / 4 = n / 4 := by omega
      have e3 : (n + 1 + 1) / 4 = n / 4 := by omega
      rw [hm] at ih2
      rw [e2] at ih1
      refine ⟨?_, ?_⟩
      · funext j
        simp only [cst, cstep, e1, e2, ih2]
        simp [Finset.sum_range_succ]
      · simp only [cst, cstep, e1, e3, ih1]
        simp [hn0]
    · have e1 : (n + 1) % 4 = 2 := by omega
      have e2 : (n + 1) / 4 = n / 4 := by omega
      have e3 : (n + 1 + 1) / 4 = n / 4 := by omega
      rw [hm] at ih2
      rw [e2] at ih1
      refine ⟨?_, ?_⟩
      · funext j
        simp only [cst, cstep, e1, e2, ih2]
        simp [Finset.sum_range_succ]
      · simp only [cst, cstep, e1, e3, ih1]
        simp [hn0]
    · have e1 : (n + 1) % 4 = 3 := by omega
      have e2 : (n + 1) / 4 = n / 4 := by omega
      have e3 : (n + 1 + 1) / 4 = n / 4 + 1 := by omega
      rw [hm] at ih2
      rw [e2] at ih1
      refine ⟨?_, ?_⟩
      · funext j
        simp only [cst, cstep, e1, e2, ih2]
        simp [Finset.sum_range_succ]
      · simp only [cst, cstep, e1, e2, e3, ih1, ih2]
        simp [hn0, Finset.sum_range_succ]
    · have e1 : (n + 1) % 4 = 0 := by omega
      have e2 : (n + 1) / 4 = n / 4 + 1 := by omega
      have e3 : (n + 1 + 1) / 4 = n / 4 + 1 := by omega
      rw [e2] at ih1
      refine ⟨?_, ?_⟩
      · funext j
        simp only [cst, cstep, e1, e2]
        simp
      · simp only [cst, cstep, e1, e3, ih1]
        simp [hn0]

/-- After the last position the result of a channel is the flat double sum. -/
theorem cst_final (f : Fin 4096 → Fin 16384 → EReal) (g : EReal → EReal) (init : EReal × (Fin 1024 → EReal)) :
    (cst f g init 63).1 = ∑ c : Fin 16384, g (∑ b : Fin 4096, f b c) := by
  rw [(cst_inv f g init 63).2]
  have h16 : (63 + 1) / 4 = 16 := by norm_num
  rw [h16]
  rw [sum_tiles 16 1024 16384 (by norm_num) (fun c => g (∑ b : Fin 4096, f b c)) col (fun a ha r => col_val a ha r)]
  refine Finset.sum_congr rfl (fun c' _ => Finset.sum_congr rfl (fun j _ => ?_))
  congr 1
  exact (sum_tiles 4 1024 4096 (by norm_num) (fun b => f b (col c' j)) row (fun a ha r => row_val a ha r)).symm

/-! ### The three channels of the walk -/

/-- The summand of the positive-similarity sums. -/
def fP : Fin 4096 → Fin 16384 → EReal := fun b c => if Spec.hit T b c then Spec.posEOf Pr E b c else 0
/-- The summand of the negative-similarity sums. -/
def fN : Fin 4096 → Fin 16384 → EReal := fun b c => if Spec.hit T b c then 0 else Spec.negEOf Pr E b c
/-- The summand of the label counts. -/
def fC : Fin 4096 → Fin 16384 → EReal := fun b c => if Spec.hit T b c then (1 : EReal) else 0
/-- The indicator of a nonzero count. -/
def gI : EReal → EReal := fun x => if x ≠ 0 then (1 : EReal) else 0

/-- Each (result, accumulator) pair of the walk is a channel of its own. -/
theorem mst_chan (init : M) (n : ℕ) :
    ((mst E T Pr init n).o3, (mst E T Pr init n).s1) = cst (fP E T Pr) Ideal.log1p (init.o3, init.s1) n ∧
    ((mst E T Pr init n).o4, (mst E T Pr init n).s2) = cst (fN E T Pr) Ideal.log1p (init.o4, init.s2) n ∧
    ((mst E T Pr init n).o5, (mst E T Pr init n).s3) = cst (fC T) gI (init.o5, init.s3) n := by
  induction n with
  | zero => exact ⟨rfl, rfl, rfl⟩
  | succ n ih =>
    obtain ⟨h1, h2, h3⟩ := ih
    refine ⟨?_, ?_, ?_⟩
    · show _ = cstep _ _ (n + 1) (cst _ _ _ n)
      rw [← h1]; rfl
    · show _ = cstep _ _ (n + 1) (cst _ _ _ n)
      rw [← h2]; rfl
    · show _ = cstep _ _ (n + 1) (cst _ _ _ n)
      rw [← h3]; rfl

/-- The first scalar result after the whole walk is ∑ c, log1p (Psum c). -/
theorem mst_o3 (init : M) : (mst E T Pr init 63).o3 = Spec.posLogOf T Pr E := by
  have h := congrArg Prod.fst (mst_chan E T Pr init 63).1
  exact h.trans (cst_final _ _ _)

/-- The second scalar result after the whole walk is ∑ c, log1p (Nsum c). -/
theorem mst_o4 (init : M) : (mst E T Pr init 63).o4 = Spec.negLogOf T Pr E := by
  have h := congrArg Prod.fst (mst_chan E T Pr init 63).2.1
  exact h.trans (cst_final _ _ _)

/-- The third scalar result after the whole walk is the number of classes with a labelled row. -/
theorem mst_o5 (init : M) : (mst E T Pr init 63).o5 = Spec.valid T := by
  have h := congrArg Prod.fst (mst_chan E T Pr init 63).2.2
  exact h.trans (cst_final _ _ _)

end Cert.Fold1

end
-- ==== Proof.KI.Glue1.lean ====
/-
  The second kernel's fold along its grid is the plain tiled walk.

  The kernel carries seven buffers from one grid point to the next; the plain walk carries six extended-real quantities:
  three results and three rows of 1024 accumulators. Reading the kernel's three result cells and three accumulator rows
  gives a walk state (`toM`). One grid point at position n = 4·c + b of the grid, fed the embedded batch E, the labels
  T and class tile c of the proxies Pr, does to those six quantities exactly what one step of the plain walk does:
    • the normalised proxy tile it uses is row by row `pn Pr` of class tile c (rewritten when b = 0, and otherwise left
      by the point before, which has the same c);
    • the hit mask is `hit T` of batch tile b's rows against class tile c's classes, the cosine tile is `cosOf Pr E` of
      them, so the three column sums it adds are the walk's;
    • the resets and the final additions happen at n = 0, b = 0 and b = 3, as in the walk.
  By induction along the 64 points the kernel's state after every point is the walk's, and after the last point the
  three result cells are the three flat sums of the specification.
-/
import proofs.«105117_j51427938402969_1_alg».proof.Proof.KI.Pay1
import proofs.«105117_j51427938402969_1_alg».proof.Proof.Fold1

noncomputable section

namespace Cert.KernelIdeal.R1V

open Idealize.ShloMosaic Idealize.ShloMosaic.ValueIdx Cert.KernelIdeal Cert.KernelIdeal.Gen

/-- The six quantities the plain walk carries, read off the kernel's buffers: the three result cells and the three
    accumulator rows. -/
def toM (s : R1.St Ideal) : Fold1.M :=
  ⟨s.o3 (ix2 (0 : Fin 1) (0 : Fin 1)), s.o4 (ix2 (0 : Fin 1) (0 : Fin 1)), s.o5 (ix2 (0 : Fin 1) (0 : Fin 1)),
    fun j => s.s1 (ix2 (0 : Fin 1) j), fun j => s.s2 (ix2 (0 : Fin 1) j), fun j => s.s3 (ix2 (0 : Fin 1) j)⟩

/-- Two walk states with the same six components are equal. -/
theorem M_ext {a b : Fold1.M} (h3 : a.o3 = b.o3) (h4 : a.o4 = b.o4) (h5 : a.o5 = b.o5)
    (g1 : a.s1 = b.s1) (g2 : a.s2 = b.s2) (g3 : a.s3 = b.s3) : a = b := by
  cases a; cases b; simp_all

/-- A buffer that is either reset to zero or kept, read at an index, with the condition restated. -/
theorem ite_zero_apply {S : Shape} {c d : Prop} [Decidable c] [Decidable d] (hcd : c ↔ d) (f g : S.Idx → EReal)
    (hf : f = fun _ => 0) (x : S.Idx) : (if c then f else g) x = if d then 0 else g x := by
  subst hf
  by_cases hc : c
  · rw [if_pos hc, if_pos (hcd.mp hc)]
  · rw [if_neg hc, if_neg (mt hcd.mpr hc)]

/-! ## One grid point at position `n` of the walk -/

/-- What one step uses of the grid point `i` at position `n`: its coordinates are `n / 4` and `n % 4`, and the three
    conditions hold at `n = 0`, `n % 4 = 0`, `n % 4 = 3`. -/
structure AtPos (i : grid1.Coords) (n : ℕ) : Prop where
  lt : n < 64
  c0 : (i 0).val = n / 4
  c1 : (i 1).val = n % 4
  k1 : k1_cond1 i = 1#1 ↔ n = 0
  k2 : R1.cond2 i ↔ n % 4 = 0
  k3 : k1_cond3 i = 1#1 ↔ n % 4 = 3

/-- Every point of the grid is at its own position. -/
theorem atPos (t : Fin cfg1.N) : AtPos (grid1.coords t) t.val :=
  ⟨t.isLt.trans_eq Gen.N_1, coords0_val t, coords1_val t, cond1_iff t, cond2_iff t, cond3_iff t⟩

variable (E : Fin 4096 → Fin 512 → EReal) (T : Fin 4096 → BitVec 32) (Pr : Fin 16384 → Fin 512 → EReal)

/-- What one step uses of its inputs: the embedded batch is `E`, the labels are `T`, the proxy tile is class tile
    `n / 4` of `Pr`, and, unless the step rewrites it, the normalised tile left by the step before is that of class tile
    `n / 4`. -/
structure StepHyp (i : grid1.Coords) (n : ℕ) (y0 : Vec Ideal S4096x512 .bf16) (y1 : Vec Ideal S4096x1 .i32)
    (y2 : Vec Ideal S1024x512 .f32) (p : R1.St Ideal) : Prop extends AtPos i n where
  e : ∀ b k, y0 (ix2 b k) = E b k
  t : ∀ b, y1 (ix2 b (0 : Fin 1)) = T b
  pr : ∀ r k, y2 (ix2 r k) = Pr (Fold1.col (n / 4) r) k
  tile : n % 4 ≠ 0 → ∀ r k, p.s0 (ix2 r k) = Spec.pn Pr (Fold1.col (n / 4) r) k

section Step
variable {E T Pr} {i : grid1.Coords} {n : ℕ} {y0 : Vec Ideal S4096x512 .bf16} {y1 : Vec Ideal S4096x1 .i32}
  {y2 : Vec Ideal S1024x512 .f32} {p : R1.St Ideal}

/-- Row `r` of the batch tile the point reads is row `r` of batch tile `n % 4`. -/
theorem rowOf_eq (h : AtPos i n) (r : Fin 1024) : rowOf i r = Fold1.row (n % 4) r :=
  Fin.ext (by
    rw [Fold1.row_val _ (Nat.mod_lt _ (by decide)) r]
    show 1024 * (i 1).val + r.val = _
    rw [h.c1])

/-- The normalised proxy tile after the step is that of class tile `n / 4`. -/
theorem step_tile (H : StepHyp E T Pr i n y0 y1 y2 p) (r : Fin 1024) (k : Fin 512) :
    (R1.step i y0 y1 y2 p).s0 (ix2 r k) = Spec.pn Pr (Fold1.col (n / 4) r) k := by
  show (if R1.cond2 i then k1_pay13 (F := Ideal) y2 else p.s0) (ix2 r k) = _
  by_cases hm : n % 4 = 0
  · rw [if_pos (H.k2.mpr hm)]
    refine (pay13_apply y2 r k).trans ?_
    simp only [H.pr]
    rfl
  · rw [if_neg (mt H.k2.mp hm)]
    exact H.tile hm r k

/-- The hit mask of the point is the specification's `hit` of the tile's rows and classes. -/
theorem mask_iff (H : StepHyp E T Pr i n y0 y1 y2 p) (r j : Fin 1024) :
    k1_pay15 (F := Ideal) i (R1.labelsAt i y1) (ix2 r j) = 1#1
      ↔ Spec.hit T (Fold1.row (n % 4) r) (Fold1.col (n / 4) j) := by
  refine (pay15_apply i _ r j).trans ?_
  have e : R1.labelsAt i y1 (ix2 r (0 : Fin 1)) = T (Fold1.row (n % 4) r) :=
    (labelsAt_apply i y1 r).trans ((H.t _).trans (congrArg T (rowOf_eq H.toAtPos r)))
  rw [e]
  unfold Spec.hit
  rw [Fold1.col_val _ (by have := H.lt; omega) j, H.c0]

/-- The cosine tile of the point is the specification's cosine of the tile's rows and classes. -/
theorem cos_eq (H : StepHyp E T Pr i n y0 y1 y2 p) (r j : Fin 1024) :
    k1_pay14 (F := Ideal) (R1.rowsAt i y0) (R1.step i y0 y1 y2 p).s0 (ix2 r j)
      = Spec.cosOf Pr E (Fold1.row (n % 4) r) (Fold1.col (n / 4) j) := by
  refine (pay14_apply _ _ r j).trans ?_
  unfold Spec.cosOf
  refine Finset.sum_congr rfl fun k _ => ?_
  rw [rowsAt_apply, H.e, step_tile H j k, rowOf_eq H.toAtPos r]

theorem posE_eq (H : StepHyp E T Pr i n y0 y1 y2 p) (r j : Fin 1024) :
    k1_pay16 (F := Ideal) (R1.rowsAt i y0) (R1.step i y0 y1 y2 p).s0 (ix2 r j)
      = Spec.posEOf Pr E (Fold1.row (n % 4) r) (Fold1.col (n / 4) j) :=
  (pay16_apply _ _ r j).trans (congrArg (fun z => Ideal.exp (Spec.negAlpha * (z - Spec.mrg))) (cos_eq H r j))

theorem negE_eq (H : StepHyp E T Pr i n y0 y1 y2 p) (r j : Fin 1024) :
    k1_pay17 (F := Ideal) (R1.rowsAt i y0) (R1.step i y0 y1 y2 p).s0 (ix2 r j)
      = Spec.negEOf Pr E (Fold1.row (n % 4) r) (Fold1.col (n / 4) j) :=
  (pay17_apply _ _ r j).trans (congrArg (fun z => Ideal.exp (Spec.alpha * (z + Spec.mrg))) (cos_eq H r j))

/-- The positive accumulator after the step. -/
theorem step_s1 (H : StepHyp E T Pr i n y0 y1 y2 p) (j : Fin 1024) :
    (R1.step i y0 y1 y2 p).s1 (ix2 (0 : Fin 1) j)
      = (if n % 4 = 0 then 0 else p.s1 (ix2 (0 : Fin 1) j)) + ∑ r : Fin 1024,
          if Spec.hit T (Fold1.row (n % 4) r) (Fold1.col (n / 4) j)
            then Spec.posEOf Pr E (Fold1.row (n % 4) r) (Fold1.col (n / 4) j) else 0 := by
  show k1_pay1 (F := Ideal) (k1_pay15 (F := Ideal) i (R1.labelsAt i y1))
    (k1_pay16 (F := Ideal) (R1.rowsAt i y0) (R1.step i y0 y1 y2 p).s0)
    (if R1.cond2 i then k1_pay10 (F := Ideal) else p.s1) (ix2 (0 : Fin 1) j) = _
  refine (pay1_apply _ _ _ j).trans ?_
  exact congrArg₂ (· + ·) (ite_zero_apply H.k2 _ _ pay10_eq _)
    (Finset.sum_congr rfl fun r _ => if_congr (mask_iff H r j) (posE_eq H r j) rfl)

/-- The negative accumulator after the step. -/
theorem step_s2 (H : StepHyp E T Pr i n y0 y1 y2 p) (j : Fin 1024) :
    (R1.step i y0 y1 y2 p).s2 (ix2 (0 : Fin 1) j)
      = (if n % 4 = 0 then 0 else p.s2 (ix2 (0 : Fin 1) j)) + ∑ r : Fin 1024,
          if Spec.hit T (Fold1.row (n % 4) r) (Fold1.col (n / 4) j)
            then 0 else Spec.negEOf Pr E (Fold1.row (n % 4) r) (Fold1.col (n / 4) j) := by
  show k1_pay2 (F := Ideal) (k1_pay15 (F := Ideal) i (R1.labelsAt i y1))
    (k1_pay17 (F := Ideal) (R1.rowsAt i y0) (R1.step i y0 y1 y2 p).s0)
    (if R1.cond2 i then k1_pay11 (F := Ideal) else p.s2) (ix2 (0 : Fin 1) j) = _
  refine (pay2_apply _ _ _ j).trans ?_
  exact congrArg₂ (· + ·) (ite_zero_apply H.k2 _ _ pay11_eq _)
    (Finset.sum_congr rfl fun r _ => if_congr (mask_iff H r j) rfl (negE_eq H r j))

/-- The count accumulator after the step. -/
theorem step_s3 (H : StepHyp E T Pr i n y0 y1 y2 p) (j : Fin 1024) :
    (R1.step i y0 y1 y2 p).s3 (ix2 (0 : Fin 1) j)
      = (if n % 4 = 0 then 0 else p.s3 (ix2 (0 : Fin 1) j)) + ∑ r : Fin 1024,
          if Spec.hit T (Fold1.row (n % 4) r) (Fold1.col (n / 4) j) then (1 : EReal) else 0 := by
  show k1_pay3 (F := Ideal) (k1_pay15 (F := Ideal) i (R1.labelsAt i y1))
    (if R1.cond2 i then k1_pay12 (F := Ideal) else p.s3) (ix2 (0 : Fin 1) j) = _
  refine (pay3_apply _ _ j).trans ?_
  exact congrArg₂ (· + ·) (ite_zero_apply H.k2 _ _ pay12_eq _)
    (Finset.sum_congr rfl fun r _ => if_congr (mask_iff H r j) rfl rfl)

/-- The first result cell after the step. -/
theorem step_o3 (H : StepHyp E T Pr i n y0 y1 y2 p) :
    (R1.step i y0 y1 y2 p).o3 (ix2 (0 : Fin 1) (0 : Fin 1))
      = if n % 4 = 3 then
          (if n = 0 then 0 else p.o3 (ix2 (0 : Fin 1) (0 : Fin 1))) + ∑ j : Fin 1024,
            Ideal.log1p ((if n % 4 = 0 then 0 else p.s1 (ix2 (0 : Fin 1) j)) + ∑ r : Fin 1024,
              if Spec.hit T (Fold1.row (n % 4) r) (Fold1.col (n / 4) j)
                then Spec.posEOf Pr E (Fold1.row (n % 4) r) (Fold1.col (n / 4) j) else 0)
        else (if n = 0 then 0 else p.o3 (ix2 (0 : Fin 1) (0 : Fin 1))) := by
  show (if k1_cond3 i = 1#1 then
      k1_pay4 (F := Ideal) (if k1_cond1 i = 1#1 then k1_pay7 (F := Ideal) else p.o3) (R1.step i y0 y1 y2 p).s1
    else (if k1_cond1 i = 1#1 then k1_pay7 (F := Ideal) else p.o3)) (ix2 (0 : Fin 1) (0 : Fin 1)) = _
  by_cases hm : n % 4 = 3
  · rw [if_pos (H.k3.mpr hm), if_pos hm]
    refine (pay4_apply _ _).trans ?_
    exact congrArg₂ (· + ·) (ite_zero_apply H.k1 _ _ pay7_eq _)
      (Finset.sum_congr rfl fun j _ => congrArg Ideal.log1p (step_s1 H j))
  · rw [if_neg (mt H.k3.mp hm), if_neg hm]
    exact ite_zero_apply H.k1 _ _ pay7_eq _

/-- The second result cell after the step. -/
theorem step_o4 (H : StepHyp E T Pr i n y0 y1 y2 p) :
    (R1.step i y0 y1 y2 p).o4 (ix2 (0 : Fin 1) (0 : Fin 1))
      = if n % 4 = 3 then
          (if n = 0 then 0 else p.o4 (ix2 (0 : Fin 1) (0 : Fin 1))) + ∑ j : Fin 1024,
            Ideal.log1p ((if n % 4 = 0 then 0 else p.s2 (ix2 (0 : Fin 1) j)) + ∑ r : Fin 1024,
              if Spec.hit T (Fold1.row (n % 4) r) (Fold1.col (n / 4) j)
                then 0 else Spec.negEOf Pr E (Fold1.row (n % 4) r) (Fold1.col (n / 4) j))
        else (if n = 0 then 0 else p.o4 (ix2 (0 : Fin 1) (0 : Fin 1))) := by
  show (if k1_cond3 i = 1#1 then
      k1_pay5 (F := Ideal) (if k1_cond1 i = 1#1 then k1_pay8 (F := Ideal) else p.o4) (R1.step i y0 y1 y2 p).s2
    else (if k1_cond1 i = 1#1 then k1_pay8 (F := Ideal) else p.o4)) (ix2 (0 : Fin 1) (0 : Fin 1)) = _
  by_cases hm : n % 4 = 3
  · rw [if_pos (H.k3.mpr hm), if_pos hm]
    refine (pay5_apply _ _).trans ?_
    exact congrArg₂ (· + ·) (ite_zero_apply H.k1 _ _ pay8_eq _)
      (Finset.sum_congr rfl fun j _ => congrArg Ideal.log1p (step_s2 H j))
  · rw [if_neg (mt H.k3.mp hm), if_neg hm]
    exact ite_zero_apply H.k1 _ _ pay8_eq _

/-- The third result cell after the step. -/
theorem step_o5 (H : StepHyp E T Pr i n y0 y1 y2 p) :
    (R1.step i y0 y1 y2 p).o5 (ix2 (0 : Fin 1) (0 : Fin 1))
      = if n % 4 = 3 then
          (if n = 0 then 0 else p.o5 (ix2 (0 : Fin 1) (0 : Fin 1))) + ∑ j : Fin 1024,
            (if ((if n % 4 = 0 then 0 else p.s3 (ix2 (0 : Fin 1) j)) + ∑ r : Fin 1024,
              if Spec.hit T (Fold1.row (n % 4) r) (Fold1.col (n / 4) j) then (1 : EReal) else 0) ≠ 0
              then (1 : EReal) else 0)
        else (if n = 0 then 0 else p.o5 (ix2 (0 : Fin 1) (0 : Fin 1))) := by
  show (if k1_cond3 i = 1#1 then
      k1_pay6 (F := Ideal) (if k1_cond1 i = 1#1 then k1_pay9 (F := Ideal) else p.o5) (R1.step i y0 y1 y2 p).s3
    else (if k1_cond1 i = 1#1 then k1_pay9 (F := Ideal) else p.o5)) (ix2 (0 : Fin 1) (0 : Fin 1)) = _
  by_cases hm : n % 4 = 3
  · rw [if_pos (H.k3.mpr hm), if_pos hm]
    refine (pay6_apply _ _).trans ?_
    refine congrArg₂ (· + ·) (ite_zero_apply H.k1 _ _ pay9_eq _) (Finset.sum_congr rfl fun j _ => ?_)
    rw [step_s3 H j]
  · rw [if_neg (mt H.k3.mp hm), if_neg hm]
    exact ite_zero_apply H.k1 _ _ pay9_eq _

/-- One step of the kernel's fold is one step of the plain walk. -/
theorem step_toM (H : StepHyp E T Pr i n y0 y1 y2 p) :
    toM (R1.step i y0 y1 y2 p) = Fold1.mstep E T Pr n (toM p) :=
  M_ext (step_o3 H) (step_o4 H) (step_o5 H) (funext fun j => step_s1 H j) (funext fun j => step_s2 H j)
    (funext fun j => step_s3 H j)

end Step

/-! ## The fold along the grid -/

section Fold
variable (x0 : Fin cfg1.N → Vec Ideal S4096x512 .bf16) (x1 : Fin cfg1.N → Vec Ideal S4096x1 .i32)
  (x2 : Fin cfg1.N → Vec Ideal S1024x512 .f32) (init : R1.St Ideal)
  (hx0 : ∀ t b k, x0 t (ix2 b k) = E b k) (hx1 : ∀ t b, x1 t (ix2 b (0 : Fin 1)) = T b)
  (hx2 : ∀ (t : Fin cfg1.N) (r : Fin 1024) (k : Fin 512), x2 t (ix2 r k) = Pr (Fold1.col (t.val / 4) r) k)

include hx0 hx1 hx2 in
/-- After every position the kernel's six carried quantities are the plain walk's, and the normalised proxy tile is
    that of the position's class tile. -/
theorem st_inv : ∀ (n : ℕ) (hn : n < cfg1.N),
    toM (R1.st x0 x1 x2 init n hn) = Fold1.mst E T Pr (toM init) n ∧
      ∀ r k, (R1.st x0 x1 x2 init n hn).s0 (ix2 r k) = Spec.pn Pr (Fold1.col (n / 4) r) k
  | 0, hn => by
    have H : StepHyp E T Pr (grid1.coords ⟨0, hn⟩) 0 (x0 ⟨0, hn⟩) (x1 ⟨0, hn⟩) (x2 ⟨0, hn⟩) init :=
      { toAtPos := atPos ⟨0, hn⟩, e := hx0 _, t := hx1 _, pr := hx2 _, tile := fun h => absurd rfl h }
    exact ⟨step_toM H, step_tile H⟩
  | n + 1, hn => by
    obtain ⟨ihM, ihT⟩ := st_inv n (Nat.lt_of_succ_lt hn)
    have H : StepHyp E T Pr (grid1.coords ⟨n + 1, hn⟩) (n + 1) (x0 ⟨n + 1, hn⟩) (x1 ⟨n + 1, hn⟩) (x2 ⟨n + 1, hn⟩)
        (R1.st x0 x1 x2 init n (Nat.lt_of_succ_lt hn)) :=
      { toAtPos := atPos ⟨n + 1, hn⟩, e := hx0 _, t := hx1 _, pr := hx2 _
        tile := fun hm r k => by
          have e4 : (n + 1) / 4 = n / 4 := by omega
          rw [e4]; exact ihT r k }
    refine ⟨?_, step_tile H⟩
    refine (step_toM H).trans ?_
    rw [ihM]
    rfl

include hx0 hx1 hx2 in
/-- After the last point the first result cell is ∑ c, log1p (Psum c). -/
theorem st_o3 (h63 : 63 < cfg1.N) :
    (R1.st x0 x1 x2 init 63 h63).o3 (ix2 (0 : Fin 1) (0 : Fin 1)) = Spec.posLogOf T Pr E :=
  (congrArg Fold1.M.o3 (st_inv E T Pr x0 x1 x2 init hx0 hx1 hx2 63 h63).1).trans (Fold1.mst_o3 E T Pr (toM init))

include hx0 hx1 hx2 in
/-- After the last point the second result cell is ∑ c, log1p (Nsum c). -/
theorem st_o4 (h63 : 63 < cfg1.N) :
    (R1.st x0 x1 x2 init 63 h63).o4 (ix2 (0 : Fin 1) (0 : Fin 1)) = Spec.negLogOf T Pr E :=
  (congrArg Fold1.M.o4 (st_inv E T Pr x0 x1 x2 init hx0 hx1 hx2 63 h63).1).trans (Fold1.mst_o4 E T Pr (toM init))

include hx0 hx1 hx2 in
/-- After the last point the third result cell is the number of classes with a labelled row. -/
theorem st_o5 (h63 : 63 < cfg1.N) :
    (R1.st x0 x1 x2 init 63 h63).o5 (ix2 (0 : Fin 1) (0 : Fin 1)) = Spec.valid T :=
  (congrArg Fold1.M.o5 (st_inv E T Pr x0 x1 x2 init hx0 hx1 hx2 63 h63).1).trans (Fold1.mst_o5 E T Pr (toM init))

end Fold

end Cert.KernelIdeal.R1V

end
-- ==== Proof.KI.Result.lean ====
/-
  The kernel program's value at the extended reals, read off its run: the host tail divides the first result cell by
  the third and the second by the number of classes and adds the quotients; the three cells are what the second
  kernel's fold leaves after its last grid point, which over the embedded batch the first kernel wrote, the reshaped
  labels and the proxy tiles are the two log1p sums and the count of classes with a labelled row; and the embedded
  batch is the specification's of the batch, the weights and the reshaped bias. Every argument array is read back
  to the launch memory.
-/
import proofs.«105117_j51427938402969_1_alg».proof.Proof.KI.RunW
import proofs.«105117_j51427938402969_1_alg».proof.Proof.KI.Arrays
import proofs.«105117_j51427938402969_1_alg».proof.Proof.KI.Glue1
import proofs.«105117_j51427938402969_1_alg».proof.Proof.Spec
import Idealize.ShloMosaic.Lib.IdealHost
import Idealize.ShloMosaic.Lib.StableHlo.Run
import Idealize.ShloMosaic.Lib.Pipeline.Value

set_option maxRecDepth 16384

noncomputable section

namespace Cert.KernelIdeal.Res

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Reshapes between a single cell and a scalar, a vector and a one-row or one-column matrix -/

/-- The one index of a 1 × 1 array. -/
theorem idx11_eq (k : S1x1.Idx) : k = ix2 (0 : Fin 1) (0 : Fin 1) :=
  funext fun a => match a with
    | ⟨0, _⟩ => Fin.ext (Nat.lt_one_iff.mp (k 0).isLt)
    | ⟨1, _⟩ => Fin.ext (Nat.lt_one_iff.mp (k 1).isLt)

/-- A 1 × 1 array reshaped to a scalar reads its one cell. -/
theorem shapeCast_11 {α : Type} (x : S1x1.Idx → α) (h : S1x1.ShapeCasts S_) (j : S_.Idx) :
    shapeCast S_ x h j = x (ix2 (0 : Fin 1) (0 : Fin 1)) := by
  unfold shapeCast
  exact congrArg x (idx11_eq _)

/-! ## The host tail: the two quotients and their sum -/

/-- The program's result is the first cell over the third plus the second over the number of classes. -/
theorem W5_v9 (c : Dev nD) :
    (Run.W5 m ρ c (Proc.devRef .tc main_v9) : S_.Idx → EReal)
      = fun _ => Ideal.div ((Run.W4 m ρ c (Proc.devRef .tc main_v3_0) : S1x1.Idx → EReal) (ix2 (0 : Fin 1) (0 : Fin 1)))
                   ((Run.W4 m ρ c (Proc.devRef .tc main_v3_2) : S1x1.Idx → EReal) (ix2 (0 : Fin 1) (0 : Fin 1)))
               + Ideal.div ((Run.W4 m ρ c (Proc.devRef .tc main_v3_1) : S1x1.Idx → EReal) (ix2 (0 : Fin 1) (0 : Fin 1))) Spec.nCls := by
  unfold Run.W5
  generalize Run.W4 m ρ c = G
  after_results
  funext i
  show Ideal.div (shapeCast S_ (G (Proc.devRef .tc main_v3_0) : S1x1.Idx → EReal) shapeCasts_S1x1_S_ i)
        (shapeCast S_ (G (Proc.devRef .tc main_v3_2) : S1x1.Idx → EReal) shapeCasts_S1x1_S_ i)
      + Ideal.div (shapeCast S_ (G (Proc.devRef .tc main_v3_1) : S1x1.Idx → EReal) shapeCasts_S1x1_S_ i)
        (Ideal.ofBits .f32 0x46800000#32) = _
  rw [shapeCast_11, shapeCast_11, shapeCast_11]

/-! ## The host prefixes: the reshaped bias and labels, and the arrays no stretch writes -/

/-- The bias row region 0 reads is the bias argument. -/
theorem W1_v0 (c : Dev nD) (j : Fin 512) :
    (Run.W1 m ρ c (Proc.devRef .tc main_v0) : S1x512.Idx → EReal) (ix2 (0 : Fin 1) j)
      = (m ((c : Thread nD τ).loc main_arg4) : S512.Idx → EReal) (ix1 j) := by
  have e : (Run.W1 m ρ c (Proc.devRef .tc main_v0) : S1x512.Idx → EReal)
      = shapeCast S1x512 (m ((c : Thread nD τ).loc main_arg4) : S512.Idx → EReal) shapeCasts_S512_S1x512 := by
    unfold Run.W1; after_results; rfl
  rw [e]
  refine shapeCast_apply _ _ _ _ ?_
  show (S512.rowMajor (ix1 j)).val = (S1x512.rowMajor (ix2 (0 : Fin 1) j)).val
  rw [Shape.rowMajor_val_one, Shape.rowMajor_val_two]
  show j.val = 0 * 512 + j.val
  omega

/-- The batch and the weights as region 0 finds them are the arguments. -/
theorem W1_arg0 (c : Dev nD) : Run.W1 m ρ c (Proc.devRef .tc main_arg0) = m ((c : Thread nD τ).loc main_arg0) :=
  Run.W1_of m ρ c main_arg0 (by decide)
theorem W1_arg3 (c : Dev nD) : Run.W1 m ρ c (Proc.devRef .tc main_arg3) = m ((c : Thread nD τ).loc main_arg3) :=
  Run.W1_of m ρ c main_arg3 (by decide)

/-- The label column region 1 reads is the label argument. -/
theorem W3_v2 (c : Dev nD) (b : Fin 4096) :
    (Run.W3 m ρ c (Proc.devRef .tc main_v2) : S4096x1.Idx → BitVec 32) (ix2 b (0 : Fin 1))
      = (m ((c : Thread nD τ).loc main_arg1) : S4096.Idx → BitVec 32) (ix1 b) := by
  have e : (Run.W3 m ρ c (Proc.devRef .tc main_v2) : S4096x1.Idx → BitVec 32)
      = shapeCast S4096x1 (Run.W2 m ρ c (Proc.devRef .tc main_arg1) : S4096.Idx → BitVec 32) shapeCasts_S4096_S4096x1 := by
    unfold Run.W3; generalize Run.W2 m ρ c = G; after_results; rfl
  rw [e, Run.W2_of_ne m ρ c main_arg1 (by decide), Run.W1_of m ρ c main_arg1 (by decide)]
  refine shapeCast_apply _ _ _ _ ?_
  show (S4096.rowMajor (ix1 b)).val = (S4096x1.rowMajor (ix2 b (0 : Fin 1))).val
  rw [Shape.rowMajor_val_one, Shape.rowMajor_val_two]
  show b.val = b.val * 1 + 0
  omega

/-- The embedded batch region 1 reads is what region 0 leaves in its output array. -/
theorem W3_v1 (c : Dev nD) :
    Run.W3 m ρ c (Proc.devRef .tc main_v1) = (R0.dat0 (Run.V1 m ρ) c).arrAt 3 cfg0.N :=
  (Run.W3_of m ρ c main_v1 (by decide)).trans (Run.W2_arr m ρ c 3)

/-- The proxies as region 1 finds them are the argument. -/
theorem W3_arg2 (c : Dev nD) : Run.W3 m ρ c (Proc.devRef .tc main_arg2) = m ((c : Thread nD τ).loc main_arg2) :=
  (Run.W3_of m ρ c main_arg2 (by decide)).trans <| (Run.W2_of_ne m ρ c main_arg2 (by decide)).trans <|
    Run.W1_of m ρ c main_arg2 (by decide)

/-! ## The arguments by coordinates -/

/-- The batch as a function of its two coordinates. -/
abbrev aX (c : Dev nD) : Fin 4096 → Fin 512 → EReal := fun b k => (m ((c : Thread nD τ).loc main_arg0) : S4096x512.Idx → EReal) (ix2 b k)
/-- The labels as a function of the row. -/
abbrev aT (c : Dev nD) : Fin 4096 → BitVec 32 := fun b => (m ((c : Thread nD τ).loc main_arg1) : S4096.Idx → BitVec 32) (ix1 b)
/-- The proxies as a function of their two coordinates. -/
abbrev aP (c : Dev nD) : Fin 16384 → Fin 512 → EReal := fun p k => (m ((c : Thread nD τ).loc main_arg2) : S16384x512.Idx → EReal) (ix2 p k)
/-- The weights as a function of their two coordinates. -/
abbrev aW (c : Dev nD) : Fin 512 → Fin 512 → EReal := fun j k => (m ((c : Thread nD τ).loc main_arg3) : S512x512.Idx → EReal) (ix2 j k)
/-- The bias as a function of its coordinate. -/
abbrev aB (c : Dev nD) : Fin 512 → EReal := fun j => (m ((c : Thread nD τ).loc main_arg4) : S512.Idx → EReal) (ix1 j)

/-! ## What region 1 reads -/

theorem V1_arg0 (c : Dev nD) : Run.V1 m ρ c main_arg0 = m ((c : Thread nD τ).loc main_arg0) := W1_arg0 m ρ c
theorem V1_arg3 (c : Dev nD) : Run.V1 m ρ c main_arg3 = m ((c : Thread nD τ).loc main_arg3) := W1_arg3 m ρ c
theorem V1_v0 (c : Dev nD) (j : Fin 512) :
    (Run.V1 m ρ c main_v0 : S1x512.Idx → EReal) (ix2 (0 : Fin 1) j) = aB m c j := W1_v0 m ρ c j
theorem V3_arg2 (c : Dev nD) : Run.V3 m ρ c main_arg2 = m ((c : Thread nD τ).loc main_arg2) := W3_arg2 m ρ c

/-- The embedded batch region 1 reads is the specification's, of the arguments. -/
theorem V3_v1 (c : Dev nD) (b : Fin 4096) (k : Fin 512) :
    (Run.V3 m ρ c main_v1 : S4096x512.Idx → EReal) (ix2 b k) = Spec.xn (aX m c) (aW m c) (aB m c) b k := by
  refine (congrFun (W3_v1 m ρ c) (ix2 b k)).trans ((Arr.arr0_3_apply (Run.V1 m ρ) c b k).trans ?_)
  rw [R0V.xn_eq_xnRow]
  have e0 : (fun k => (Run.V1 m ρ c main_arg0 : S4096x512.Idx → EReal) (ix2 b k)) = aX m c b := by rw [V1_arg0]
  have e3 : (fun j k => (Run.V1 m ρ c main_arg3 : S512x512.Idx → EReal) (ix2 j k)) = aW m c := by rw [V1_arg3]
  have e4 : (fun j => (Run.V1 m ρ c main_v0 : S1x512.Idx → EReal) (ix2 (0 : Fin 1) j)) = aB m c :=
    funext fun j => V1_v0 m ρ c j
  rw [e0, e3, e4]

/-- The label column region 1 reads is the label argument. -/
theorem V3_v2 (c : Dev nD) (b : Fin 4096) :
    (Run.V3 m ρ c main_v2 : S4096x1.Idx → BitVec 32) (ix2 b (0 : Fin 1)) = aT m c b := W3_v2 m ρ c b

/-! ## The three result cells after region 1 -/

section Cells
variable (c : Dev nD)

theorem hx0 (t : Fin cfg1.N) (b : Fin 4096) (k : Fin 512) :
    (R1.iblk1 (Run.V3 m ρ) c 0 t : Vec Ideal S4096x512 .bf16) (ix2 b k) = Spec.xn (aX m c) (aW m c) (aB m c) b k := by
  rw [Arr.iblk1_0_eq]; exact V3_v1 m ρ c b k

theorem hx1 (t : Fin cfg1.N) (b : Fin 4096) :
    (R1.iblk1 (Run.V3 m ρ) c 1 t : Vec Ideal S4096x1 .i32) (ix2 b (0 : Fin 1)) = aT m c b := by
  rw [Arr.iblk1_1_eq]; exact V3_v2 m ρ c b

theorem hx2 (t : Fin cfg1.N) (r : Fin 1024) (k : Fin 512) :
    (R1.iblk1 (Run.V3 m ρ) c 2 t : Vec Ideal S1024x512 .f32) (ix2 r k) = aP m c (Fold1.col (t.val / 4) r) k := by
  have hN : cfg1.N = 64 := N_1
  rw [Arr.iblk1_2_apply (Run.V3 m ρ) c t r k (Fold1.col (t.val / 4) r) (Fold1.col_val _ (by have := t.isLt; omega) r), V3_arg2]

/-- The first cell: ∑ c, log1p (Psum c). -/
theorem W4_v3_0 :
    (Run.W4 m ρ c (Proc.devRef .tc main_v3_0) : S1x1.Idx → EReal) (ix2 (0 : Fin 1) (0 : Fin 1))
      = Spec.posLogOf (aT m c) (aP m c) (Spec.xn (aX m c) (aW m c) (aB m c)) :=
  (congrFun ((Run.W4_arr m ρ c 3).trans (Arr.arr1_3 (Run.V3 m ρ) c)) _).trans
    (R1V.st_o3 _ _ _ _ _ _ R1.junkSt (hx0 m ρ c) (hx1 m ρ c) (hx2 m ρ c) Arr.lt63)

/-- The second cell: ∑ c, log1p (Nsum c). -/
theorem W4_v3_1 :
    (Run.W4 m ρ c (Proc.devRef .tc main_v3_1) : S1x1.Idx → EReal) (ix2 (0 : Fin 1) (0 : Fin 1))
      = Spec.negLogOf (aT m c) (aP m c) (Spec.xn (aX m c) (aW m c) (aB m c)) :=
  (congrFun ((Run.W4_arr m ρ c 4).trans (Arr.arr1_4 (Run.V3 m ρ) c)) _).trans
    (R1V.st_o4 _ _ _ _ _ _ R1.junkSt (hx0 m ρ c) (hx1 m ρ c) (hx2 m ρ c) Arr.lt63)

/-- The third cell: the number of classes with a labelled row. -/
theorem W4_v3_2 :
    (Run.W4 m ρ c (Proc.devRef .tc main_v3_2) : S1x1.Idx → EReal) (ix2 (0 : Fin 1) (0 : Fin 1))
      = Spec.valid (aT m c) :=
  (congrFun ((Run.W4_arr m ρ c 5).trans (Arr.arr1_5 (Run.V3 m ρ) c)) _).trans
    (R1V.st_o5 (Spec.xn (aX m c) (aW m c) (aB m c)) _ (aP m c) _ _ _ R1.junkSt (hx0 m ρ c) (hx1 m ρ c) (hx2 m ρ c) Arr.lt63)

end Cells

/-! ## The program's value -/

/-- The kernel program returns the specification's loss of its arguments read by coordinates. -/
theorem W5_result (c : Dev nD) :
    (Run.W5 m ρ c (Proc.devRef .tc main_v9) : S_.Idx → EReal)
      = fun _ => Spec.loss (aX m c) (aT m c) (aP m c) (aW m c) (aB m c) := by
  rw [W5_v9, W4_v3_0, W4_v3_1, W4_v3_2]
  rfl

end Cert.KernelIdeal.Res

end
-- ==== Proof.KI.RunLoss.lean ====
/-
  The run at the ideal instance (floats are extended reals, every operation exact), with the value of the result
  buffer: given what the last boundary's contents hold at the result buffer on each core, every weakly fair execution
  from a memory with zero counters terminates, the result buffer ends at that value and the five argument arrays end
  as launched.
-/
import proofs.«105117_j51427938402969_1_alg».proof.Proof.KI.Run
import Idealize.ShloMosaic.PureOps.Ideal

set_option maxRecDepth 16384

noncomputable section

namespace Cert.KernelIdeal.Run

open Cert.KernelIdeal Cert.KernelIdeal.Gen
open Idealize.ShloMosaic Idealize.ShloMosaic.TcCoe
open Idealize.SL Idealize.SL.Sem

/-- The run with the result's value: the result buffer read off the last boundary's contents, the arguments as launched. -/
theorem run_value (m : (ℓ : Loc nD τ sig) → Buf (Elt Ideal) ℓ) (ρ : Dev nD → PrngReg)
    (v0 : (c : Dev nD) → Buf (Elt Ideal) ((c.tc : Thread nD τ).loc main_v9))
    (hres : ∀ c, W5 (F := Ideal) m ρ c (Proc.devRef .tc main_v9) = v0 c) :
    θ_run (defs (F := Ideal)) (onTc (τ := τ) (main (F := Ideal))) ⟨m, fun _ => 0, ρ⟩ (fun r => ∀ c : Dev nD,
      r.2.mem ((c.tc : Thread nD τ).loc main_v9) = v0 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_v9 (by decide))).trans (hres c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩

end Cert.KernelIdeal.Run

end
-- ==== Proof.RefIsLoss1.lean ====
/-
  The reference program read stage by stage at the extended reals, first part: the embedded batch and the normalised
  proxies. Each lemma reads one stage of the reference at an index given by its coordinates and identifies it with the
  corresponding function of the specification: the linear layer, its row norm, the clamped normalisation, the positive
  part, the second normalisation, and the proxy rows divided by their norm.
-/
import proofs.«105117_j51427938402969_1_alg».proof.Proof.RefReadP
import proofs.«105117_j51427938402969_1_alg».proof.Proof.Spec
import Idealize.ShloMosaic.Lib.IdealHost

noncomputable section

namespace Cert.RefValue

open Cert.ReferenceIdeal Cert.ReferenceIdeal.Gen Cert.ReferenceIdeal.ReadP Idealize.ShloMosaic Idealize.ShloMosaic.ValueIdx

variable (x0 : (⟨S4096x512, .f32⟩ : BufTy).Contents (Elt Ideal)) (x1 : (⟨S4096, .i32⟩ : BufTy).Contents (Elt Ideal))
  (x2 : (⟨S16384x512, .f32⟩ : BufTy).Contents (Elt Ideal)) (x3 : (⟨S512x512, .f32⟩ : BufTy).Contents (Elt Ideal))
  (x4 : (⟨S512, .f32⟩ : BufTy).Contents (Elt Ideal))

/-- The batch as a function of its two coordinates. -/
abbrev aX : Fin 4096 → Fin 512 → EReal := fun b k => x0 (ix2 b k)
/-- The labels as a function of the row. -/
abbrev aT : Fin 4096 → BitVec 32 := fun b => x1 (ix1 b)
/-- The proxies as a function of their two coordinates. -/
abbrev aP : Fin 16384 → Fin 512 → EReal := fun c k => x2 (ix2 c k)
/-- The weights as a function of their two coordinates. -/
abbrev aW : Fin 512 → Fin 512 → EReal := fun j k => x3 (ix2 j k)
/-- The bias as a function of its coordinate. -/
abbrev aB : Fin 512 → EReal := fun j => x4 (ix1 j)

/-- The linear layer: the contraction of row `b` of the batch with row `j` of the weights, plus the bias. -/
theorem v4_eq (b : Fin 4096) (j : Fin 512) :
    val_main_v4 (F := Ideal) x0 x3 x4 (ix2 b j) = Spec.fc (aX x0) (aW x3) (aB x4) b j := by
  rw [val_main_v4_apply, val_main_v1_apply, val_main_v3_apply, val_main_v2_apply]
  have e1 : ∀ k : Fin 512, lidx_main_v1 (ix2 b j) k = ix2 b k := fun k =>
    funext fun a => Fin.ext (by match a with | ⟨0, _⟩ => rfl | ⟨1, _⟩ => rfl)
  have e2 : ∀ k : Fin 512, idx_main_v0 (ridx_main_v1 (ix2 b j) k) = ix2 j k := fun k =>
    funext fun a => Fin.ext (by match a with | ⟨0, _⟩ => rfl | ⟨1, _⟩ => rfl)
  have e3 : idx_main_v2 (idx_main_v3 (ix2 b j)) = ix1 j :=
    funext fun a => Fin.ext (by match a with | ⟨0, _⟩ => rfl)
  simp only [val_main_v0_apply, e1, e2, e3, Ideal.addf_def]
  rfl

/-- The Euclidean norm of row `b` of the linear layer. -/
theorem v8_eq (b : Fin 4096) (z : Fin 1) :
    val_main_v8 (F := Ideal) x0 x3 x4 (ix2 b z) = Spec.norm1 (aX x0) (aW x3) (aB x4) b := by
  rw [val_main_v8_apply, val_main_v7_apply, val_main_v6_apply, val_main_cst_apply]
  have e1 : ∀ k : Fin 512, idx_main_v6 (idx_main_v7 (ix2 b z)) k = ix2 b k := fun k =>
    funext fun a => Fin.ext (by match a with | ⟨0, _⟩ => rfl | ⟨1, _⟩ => rfl)
  simp only [val_main_v5_apply, e1, v4_eq, Ideal.ofBits_def, Ideal.ofBits_zero_f32, zero_add, Ideal.mulf_def,
    Ideal.hostUnary_sqrt_def]
  rfl

/-- The row divided by its norm clamped below by ε. -/
theorem v12_eq (b : Fin 4096) (j : Fin 512) :
    val_main_v12 (F := Ideal) x0 x3 x4 (ix2 b j) = Spec.fn (aX x0) (aW x3) (aB x4) b j := by
  rw [val_main_v12_apply, val_main_v11_apply, val_main_v10_apply, val_main_v9_apply, val_main_cst_0_apply, v4_eq]
  have e1 : idx_main_v11 (ix2 b j) = ix2 b (0 : Fin 1) :=
    funext fun a => Fin.ext (by match a with | ⟨0, _⟩ => rfl | ⟨1, _⟩ => rfl)
  rw [e1, v8_eq]
  simp only [Ideal.ofBits_def, Ideal.maximumf_def, Ideal.hostDivf_def]
  rfl

/-- Its positive part. -/
theorem v13_eq (b : Fin 4096) (j : Fin 512) :
    val_main_v13 (F := Ideal) x0 x3 x4 (ix2 b j) = Spec.relu (aX x0) (aW x3) (aB x4) b j := by
  rw [val_main_v13_apply, val_main_call0_v0_apply, val_main_call0_cst_apply, v12_eq]
  simp only [Ideal.ofBits_def, Ideal.ofBits_zero_f32, Ideal.maximumf_def]
  rfl

/-- The square root of the row's sum of squares plus ε. -/
theorem v19_eq (b : Fin 4096) (z : Fin 1) :
    val_main_v19 (F := Ideal) x0 x3 x4 (ix2 b z) = Spec.norm2 (aX x0) (aW x3) (aB x4) b := by
  rw [val_main_v19_apply, val_main_v18_apply, val_main_v17_apply, val_main_cst_2_apply, val_main_v16_apply,
    val_main_v15_apply, val_main_cst_1_apply]
  have e1 : ∀ k : Fin 512, idx_main_v15 (idx_main_v16 (ix2 b z)) k = ix2 b k := fun k =>
    funext fun a => Fin.ext (by match a with | ⟨0, _⟩ => rfl | ⟨1, _⟩ => rfl)
  simp only [val_main_v14_apply, e1, v13_eq, Ideal.ofBits_def, Ideal.ofBits_zero_f32, zero_add, Ideal.mulf_def,
    Ideal.addf_def, Ideal.hostUnary_sqrt_def]
  rfl

/-- The embedded, normalised batch. -/
theorem v21_eq (b : Fin 4096) (j : Fin 512) :
    val_main_v21 (F := Ideal) x0 x3 x4 (ix2 b j) = Spec.xn (aX x0) (aW x3) (aB x4) b j := by
  rw [val_main_v21_apply, val_main_v20_apply, v13_eq]
  have e1 : idx_main_v20 (ix2 b j) = ix2 b (0 : Fin 1) :=
    funext fun a => Fin.ext (by match a with | ⟨0, _⟩ => rfl | ⟨1, _⟩ => rfl)
  rw [e1, v19_eq]
  rfl

/-- The square root of a proxy row's sum of squares plus ε. -/
theorem v27_eq (c : Fin 16384) (z : Fin 1) :
    val_main_v27 (F := Ideal) x2 (ix2 c z) = Spec.pnorm (aP x2) c := by
  rw [val_main_v27_apply, val_main_v26_apply, val_main_v25_apply, val_main_cst_4_apply, val_main_v24_apply,
    val_main_v23_apply, val_main_cst_3_apply]
  have e1 : ∀ k : Fin 512, idx_main_v23 (idx_main_v24 (ix2 c z)) k = ix2 c k := fun k =>
    funext fun a => Fin.ext (by match a with | ⟨0, _⟩ => rfl | ⟨1, _⟩ => rfl)
  simp only [val_main_v22_apply, e1, Ideal.ofBits_def, Ideal.ofBits_zero_f32, zero_add, Ideal.mulf_def,
    Ideal.addf_def, Ideal.hostUnary_sqrt_def]
  rfl

/-- The normalised proxies. -/
theorem v29_eq (c : Fin 16384) (k : Fin 512) :
    val_main_v29 (F := Ideal) x2 (ix2 c k) = Spec.pn (aP x2) c k := by
  rw [val_main_v29_apply, val_main_v28_apply]
  have e1 : idx_main_v28 (ix2 c k) = ix2 c (0 : Fin 1) :=
    funext fun a => Fin.ext (by match a with | ⟨0, _⟩ => rfl | ⟨1, _⟩ => rfl)
  rw [e1, v27_eq]
  rfl

end Cert.RefValue

end
-- ==== Proof.RefIsLoss2.lean ====
/-
  The reference program read stage by stage at the extended reals, second part: the cosine of a batch row against a
  proxy, the two exponentials, the indicator of "row b is labelled c" as the extended real 1 or 0, and the two masked
  products. A product of the indicator with a value is the value where the label matches and 0 elsewhere; a product of
  one minus the indicator with a value is 0 where the label matches and the value elsewhere. Only 0·x = 0, 1·x = x,
  1 − 1 = 0 and 1 − 0 = 1 are used, all of which hold for every extended real x.
-/
import proofs.«105117_j51427938402969_1_alg».proof.Proof.RefIsLoss1

noncomputable section

namespace Cert.RefValue

open Cert.ReferenceIdeal Cert.ReferenceIdeal.Gen Cert.ReferenceIdeal.ReadP Idealize.ShloMosaic Idealize.ShloMosaic.ValueIdx

variable (x0 : (⟨S4096x512, .f32⟩ : BufTy).Contents (Elt Ideal)) (x1 : (⟨S4096, .i32⟩ : BufTy).Contents (Elt Ideal))
  (x2 : (⟨S16384x512, .f32⟩ : BufTy).Contents (Elt Ideal)) (x3 : (⟨S512x512, .f32⟩ : BufTy).Contents (Elt Ideal))
  (x4 : (⟨S512, .f32⟩ : BufTy).Contents (Elt Ideal))

/-- The cosine: the contraction of the embedded row `b` with the normalised proxy `c`. -/
theorem v31_eq (b : Fin 4096) (c : Fin 16384) :
    val_main_v31 (F := Ideal) x0 x2 x3 x4 (ix2 b c) = Spec.cos (aX x0) (aP x2) (aW x3) (aB x4) b c := by
  rw [val_main_v31_apply]
  have e1 : ∀ k : Fin 512, lidx_main_v31 (ix2 b c) k = ix2 b k := fun k =>
    funext fun a => Fin.ext (by match a with | ⟨0, _⟩ => rfl | ⟨1, _⟩ => rfl)
  have e2 : ∀ k : Fin 512, idx_main_v30 (ridx_main_v31 (ix2 b c) k) = ix2 c k := fun k =>
    funext fun a => Fin.ext (by match a with | ⟨0, _⟩ => rfl | ⟨1, _⟩ => rfl)
  simp only [val_main_v30_apply, e1, e2, v21_eq, v29_eq]
  rfl

/-- exp (−α (cos − δ)). -/
theorem v45_eq (b : Fin 4096) (c : Fin 16384) :
    val_main_v45 (F := Ideal) x0 x2 x3 x4 (ix2 b c) = Spec.posE (aX x0) (aP x2) (aW x3) (aB x4) b c := by
  rw [val_main_v45_apply, val_main_v44_apply, val_main_v43_apply, val_main_cst_7_apply, val_main_v42_apply,
    val_main_v41_apply, val_main_cst_6_apply, v31_eq]
  rfl

/-- exp (α (cos + δ)). -/
theorem v50_eq (b : Fin 4096) (c : Fin 16384) :
    val_main_v50 (F := Ideal) x0 x2 x3 x4 (ix2 b c) = Spec.negE (aX x0) (aP x2) (aW x3) (aB x4) b c := by
  rw [val_main_v50_apply, val_main_v49_apply, val_main_v48_apply, val_main_cst_9_apply, val_main_v47_apply,
    val_main_v46_apply, val_main_cst_8_apply, v31_eq]
  rfl

/-- The word of an integer equality, read unsigned as an extended real, is 1 when the operands are equal and 0 when
    they are not. -/
theorem uitofp_cmpi_eq (t u : BitVec 32) :
    (FloatOps.uitofp (F := Ideal) .f32 (IntOp.cmpi .eq t u) : EReal) = if t = u then 1 else 0 := by
  show (((IntOp.cmpi .eq t u).toNat : ℝ) : EReal) = _
  by_cases h : t = u
  · rw [if_pos h]; simp [IntOp.cmpi, h]
  · rw [if_neg h]; simp [IntOp.cmpi, h]

/-- The indicator: 1 where row `b` is labelled `c`, else 0. -/
theorem v38_eq (b : Fin 4096) (c : Fin 16384) :
    val_main_v38 (F := Ideal) x1 (ix2 b c) = if Spec.hit (aT x1) b c then (1 : EReal) else 0 := by
  rw [val_main_v38_apply, val_main_v37_apply, val_main_v35_apply, val_main_v32_apply, val_main_v36_apply,
    val_main_v34_apply, val_main_v33_apply]
  have e1 : idx_main_v32 (idx_main_v35 (ix2 b c)) = ix1 b :=
    funext fun a => Fin.ext (by match a with | ⟨0, _⟩ => rfl)
  rw [e1, uitofp_cmpi_eq]
  rfl

/-- The indicator times the first exponential. -/
theorem v57_eq (b : Fin 4096) (c : Fin 16384) :
    val_main_v57 (F := Ideal) x0 x1 x2 x3 x4 (ix2 b c)
      = if Spec.hit (aT x1) b c then Spec.posE (aX x0) (aP x2) (aW x3) (aB x4) b c else 0 := by
  rw [val_main_v57_apply, v38_eq, v45_eq, Ideal.mulf_def]
  by_cases h : Spec.hit (aT x1) b c
  · rw [if_pos h, if_pos h, one_mul]
  · rw [if_neg h, if_neg h, zero_mul]

/-- One minus the indicator: 0 where row `b` is labelled `c`, else 1. -/
theorem v40_eq (b : Fin 4096) (c : Fin 16384) :
    val_main_v40 (F := Ideal) x1 (ix2 b c) = if Spec.hit (aT x1) b c then (0 : EReal) else 1 := by
  rw [val_main_v40_apply, val_main_v39_apply, val_main_cst_5_apply, v38_eq, Ideal.ofBits_def, Ideal.ofBits_one_f32,
    Ideal.subf_def]
  by_cases h : Spec.hit (aT x1) b c
  · rw [if_pos h, if_pos h]
    show ((1 : ℝ) : EReal) - ((1 : ℝ) : EReal) = 0
    rw [← EReal.coe_sub, sub_self]; rfl
  · rw [if_neg h, if_neg h, sub_zero]

/-- One minus the indicator, times the second exponential. -/
theorem v59_eq (b : Fin 4096) (c : Fin 16384) :
    val_main_v59 (F := Ideal) x0 x1 x2 x3 x4 (ix2 b c)
      = if Spec.hit (aT x1) b c then 0 else Spec.negE (aX x0) (aP x2) (aW x3) (aB x4) b c := by
  rw [val_main_v59_apply, v40_eq, v50_eq, Ideal.mulf_def]
  by_cases h : Spec.hit (aT x1) b c
  · rw [if_pos h, if_pos h, zero_mul]
  · rw [if_neg h, if_neg h, one_mul]

end Cert.RefValue

end
-- ==== Proof.RefIsLoss3.lean ====
/-
  The reference program read stage by stage at the extended reals, third part: the number of classes that have a
  labelled row. The reference counts, per class, the rows labelled with it (a sum of indicators), compares the count
  with zero, widens the comparison bit to a 32-bit word, sums the 16384 words as 32-bit integers and converts the sum,
  read signed, to a float. The sum of 16384 words each 0 or 1 is at most 16384, below 2^31, so the 32-bit sum does not
  wrap and its signed reading is the number of ones; as an extended real that number is the sum of the indicators
  of "the count of class c is not zero".
-/
import proofs.«105117_j51427938402969_1_alg».proof.Proof.RefIsLoss2

noncomputable section

namespace Cert.RefValue

open Cert.ReferenceIdeal Cert.ReferenceIdeal.Gen Cert.ReferenceIdeal.ReadP Idealize.ShloMosaic Idealize.ShloMosaic.ValueIdx

variable (x1 : (⟨S4096, .i32⟩ : BufTy).Contents (Elt Ideal))

/-- The count of rows labelled `c`, as an extended real. -/
theorem v51_eq (c : Fin 16384) : val_main_v51 (F := Ideal) x1 (ix1 c) = Spec.cnt (aT x1) c := by
  rw [val_main_v51_apply, val_main_cst_10_apply]
  have e1 : ∀ k : Fin 4096, idx_main_v51 (ix1 c) k = ix2 k c := fun k =>
    funext fun a => Fin.ext (by match a with | ⟨0, _⟩ => rfl | ⟨1, _⟩ => rfl)
  simp only [e1, v38_eq, Ideal.ofBits_def, Ideal.ofBits_zero_f32, zero_add]
  rfl

/-- The widened comparison word of class `c`, read unsigned: 1 when the count is not zero, else 0. -/
theorem v54_toNat (c : Fin 16384) :
    (val_main_v54 (F := Ideal) x1 (ix1 c)).toNat = if Spec.cnt (aT x1) c ≠ 0 then 1 else 0 := by
  rw [val_main_v54_apply, val_main_v53_apply, val_main_v52_apply, val_main_cst_11_apply, v51_eq, Ideal.ofBits_def,
    Ideal.ofBits_zero_f32, Ideal.cmpf_def]
  show ((BitVec.ofBool (decide (Spec.cnt (aT x1) c ≠ 0))).setWidth 32).toNat = _
  by_cases h : Spec.cnt (aT x1) c ≠ 0
  · rw [if_pos h, decide_eq_true h]; rfl
  · rw [if_neg h, decide_eq_false h]; rfl

/-- A fold of 32-bit addition from the zero word is the word of the sum of the unsigned readings. -/
theorem fold_addi_eq {ι : Type} (s : Finset ι) (g : ι → BitVec 32) :
    s.fold IntOp.addi 0#32 g = BitVec.ofNat 32 (∑ i ∈ s, (g i).toNat) := by
  induction s using Finset.cons_induction with
  | empty => rfl
  | cons a s ha ih =>
    rw [Finset.fold_cons, Finset.sum_cons, ih]
    show g a + BitVec.ofNat 32 _ = _
    rw [BitVec.ofNat_add, BitVec.ofNat_toNat, BitVec.setWidth_eq]

/-- The word of a natural number up to 16384 reads signed as that number. -/
theorem toInt_ofNat_small (N : ℕ) (h : N ≤ 16384) : (BitVec.ofNat 32 N).toInt = (N : ℤ) := by
  rw [BitVec.toInt_eq_toNat_cond, BitVec.toNat_ofNat]
  have e : N % 2 ^ 32 = N := Nat.mod_eq_of_lt (by omega)
  rw [e, if_pos (by omega)]

/-- A natural-number count of indicators, as an extended real, is the sum of the indicators as extended reals. -/
theorem coe_sum_ite {ι : Type} (s : Finset ι) (p : ι → Prop) [DecidablePred p] :
    (((∑ i ∈ s, if p i then 1 else 0 : ℕ) : ℝ) : EReal) = ∑ i ∈ s, if p i then (1 : EReal) else 0 := by
  induction s using Finset.cons_induction with
  | empty => simp
  | cons a s ha ih =>
    rw [Finset.sum_cons, Finset.sum_cons, Nat.cast_add, EReal.coe_add, ih]
    by_cases h : p a
    · rw [if_pos h, if_pos h]; simp
    · rw [if_neg h, if_neg h]; simp

/-- The number of classes whose count is not zero. -/
def nValid : ℕ := ∑ c : Fin 16384, if Spec.cnt (aT x1) c ≠ 0 then 1 else 0

theorem nValid_le : nValid x1 ≤ 16384 := by
  unfold nValid
  refine (Finset.sum_le_sum (g := fun _ => 1) fun c _ => ?_).trans (by simp)
  by_cases h : Spec.cnt (aT x1) c ≠ 0
  · rw [if_pos h]
  · rw [if_neg h]; exact Nat.zero_le 1

/-- A rank-1 index set is its coordinate range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The 32-bit sum of the comparison words is the word of the number of classes whose count is not zero. Every index of
    the operand reduces to the one index of the scalar result, so the fold runs over all of them. -/
theorem v55_eq (j : S_.Idx) : val_main_v55 (F := Ideal) x1 j = BitVec.ofNat 32 (nValid x1) := by
  unfold val_main_v55
  have hy : ∀ c : Fin 16384, (val_main_v54 (F := Ideal) x1 (ix1 c)).toNat = if Spec.cnt (aT x1) c ≠ 0 then 1 else 0 :=
    v54_toNat x1
  generalize val_main_v54 (F := Ideal) x1 = y at hy
  rw [Host.reduce_eq_fold IntOp.addi y _ reducesTo_S16384_S_d0 h_S_ j, val_main_c_apply,
    Finset.filter_true_of_mem (fun i _ => funext fun a => a.elim0)]
  refine (fold_addi_eq _ _).trans (congrArg (BitVec.ofNat 32) ?_)
  unfold nValid
  rw [sum_idx1]
  exact Finset.sum_congr rfl fun c _ => hy c

/-- The converted sum is the specification's number of classes that have a labelled row. -/
theorem v56_eq (j : S_.Idx) : val_main_v56 (F := Ideal) x1 j = Spec.valid (aT x1) := by
  rw [val_main_v56_apply, v55_eq]
  show ((((BitVec.ofNat 32 (nValid x1)).toInt : ℝ) : EReal)) = _
  rw [toInt_ofNat_small _ (nValid_le x1), Int.cast_natCast]
  unfold nValid Spec.valid
  exact coe_sum_ite _ _

end Cert.RefValue

end
-- ==== Proof.RefIsLoss.lean ====
/-
  The reference program is the specification: the last part. The two masked products are summed over the batch for each
  class (the positive and negative similarity sums), log1p is applied, the results are summed over the classes, the
  first sum is divided by the number of classes that have a labelled row and the second by the number of classes, and
  the two quotients are added. Every sum is a finite sum of extended reals with initial value zero.
-/
import proofs.«105117_j51427938402969_1_alg».proof.Proof.RefIsLoss3

noncomputable section

namespace Cert.RefValue

open Cert.ReferenceIdeal Cert.ReferenceIdeal.Gen Cert.ReferenceIdeal.ReadP Idealize.ShloMosaic Idealize.ShloMosaic.ValueIdx

variable (x0 : (⟨S4096x512, .f32⟩ : BufTy).Contents (Elt Ideal)) (x1 : (⟨S4096, .i32⟩ : BufTy).Contents (Elt Ideal))
  (x2 : (⟨S16384x512, .f32⟩ : BufTy).Contents (Elt Ideal)) (x3 : (⟨S512x512, .f32⟩ : BufTy).Contents (Elt Ideal))
  (x4 : (⟨S512, .f32⟩ : BufTy).Contents (Elt Ideal))

/-- The positive-similarity sum of class `c`. -/
theorem v58_eq (c : Fin 16384) :
    val_main_v58 (F := Ideal) x0 x1 x2 x3 x4 (ix1 c) = Spec.Psum (aX x0) (aT x1) (aP x2) (aW x3) (aB x4) c := by
  rw [val_main_v58_apply, val_main_cst_12_apply]
  have e1 : ∀ k : Fin 4096, idx_main_v58 (ix1 c) k = ix2 k c := fun k =>
    funext fun a => Fin.ext (by match a with | ⟨0, _⟩ => rfl | ⟨1, _⟩ => rfl)
  simp only [e1, v57_eq, Ideal.ofBits_def, Ideal.ofBits_zero_f32, zero_add]
  rfl

/-- The negative-similarity sum of class `c`. -/
theorem v60_eq (c : Fin 16384) :
    val_main_v60 (F := Ideal) x0 x1 x2 x3 x4 (ix1 c) = Spec.Nsum (aX x0) (aT x1) (aP x2) (aW x3) (aB x4) c := by
  rw [val_main_v60_apply, val_main_cst_13_apply]
  have e1 : ∀ k : Fin 4096, idx_main_v60 (ix1 c) k = ix2 k c := fun k =>
    funext fun a => Fin.ext (by match a with | ⟨0, _⟩ => rfl | ⟨1, _⟩ => rfl)
  simp only [e1, v59_eq, Ideal.ofBits_def, Ideal.ofBits_zero_f32, zero_add]
  rfl

/-- The sum over the classes of log1p of the positive-similarity sums. -/
theorem v62_eq (j : S_.Idx) :
    val_main_v62 (F := Ideal) x0 x1 x2 x3 x4 j = Spec.posLog (aX x0) (aT x1) (aP x2) (aW x3) (aB x4) := by
  rw [val_main_v62_apply, val_main_cst_14_apply, sum_idx1]
  simp only [val_main_v61_apply, v58_eq, Ideal.ofBits_def, Ideal.ofBits_zero_f32, zero_add,
    Ideal.hostUnary_log1p_def]
  rfl

/-- The sum over the classes of log1p of the negative-similarity sums. -/
theorem v65_eq (j : S_.Idx) :
    val_main_v65 (F := Ideal) x0 x1 x2 x3 x4 j = Spec.negLog (aX x0) (aT x1) (aP x2) (aW x3) (aB x4) := by
  rw [val_main_v65_apply, val_main_cst_15_apply, sum_idx1]
  simp only [val_main_v64_apply, v60_eq, Ideal.ofBits_def, Ideal.ofBits_zero_f32, zero_add,
    Ideal.hostUnary_log1p_def]
  rfl

/-- The reference's result at its one index is the loss. -/
theorem v67_eq (j : S_.Idx) :
    val_main_v67 (F := Ideal) x0 x1 x2 x3 x4 j = Spec.loss (aX x0) (aT x1) (aP x2) (aW x3) (aB x4) := by
  rw [val_main_v67_apply, val_main_v63_apply, val_main_v66_apply, val_main_cst_16_apply, v62_eq, v65_eq, v56_eq]
  rfl

/-- The reference program computes the specification's loss of its argument arrays read by coordinates. -/
theorem ref_is_loss (x0 : (⟨S4096x512, .f32⟩ : BufTy).Contents (Elt Ideal)) (x1 : (⟨S4096, .i32⟩ : BufTy).Contents (Elt Ideal))
    (x2 : (⟨S16384x512, .f32⟩ : BufTy).Contents (Elt Ideal)) (x3 : (⟨S512x512, .f32⟩ : BufTy).Contents (Elt Ideal))
    (x4 : (⟨S512, .f32⟩ : BufTy).Contents (Elt Ideal)) :
    Cert.ReferenceIdeal.ReadP.val_main_v67 (F := Ideal) x0 x1 x2 x3 x4
      = fun _ => Cert.Spec.loss (fun b k => x0 (ValueIdx.ix2 b k)) (fun b => x1 (ValueIdx.ix1 b))
          (fun c k => x2 (ValueIdx.ix2 c k)) (fun j k => x3 (ValueIdx.ix2 j k)) (fun j => x4 (ValueIdx.ix1 j)) :=
  funext fun j => v67_eq x0 x1 x2 x3 x4 j

end Cert.RefValue

end
-- ==== Proof.RefRunLoss.lean ====
/- The reference program's run with its result named: at the ideal instance the reference ends with its one result
   cell at the specification's loss of its argument arrays read by coordinates, and its arguments unchanged; the same
   with the loss written over another memory's argument arrays that agree with the reference's. -/
import proofs.«105117_j51427938402969_1_alg».proof.Proof.RefIsLoss
import proofs.«105117_j51427938402969_1_alg».proof.KernelIdeal

noncomputable section

namespace Cert.RefValue

open Cert.ReferenceIdeal Idealize.ShloMosaic Idealize.ShloMosaic.TcCoe Idealize.SL.Sem

/-- The reference runs, its result is the loss of its own argument arrays, and its arguments end unchanged. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v67)
        = (fun _ => Cert.Spec.loss
            (fun b k => m' ((c.tc : Thread Cert.ReferenceIdeal.nD Cert.ReferenceIdeal.τ).loc Cert.ReferenceIdeal.main_arg0) (ValueIdx.ix2 b k))
            (fun b => m' ((c.tc : Thread Cert.ReferenceIdeal.nD Cert.ReferenceIdeal.τ).loc Cert.ReferenceIdeal.main_arg1) (ValueIdx.ix1 b))
            (fun c' k => m' ((c.tc : Thread Cert.ReferenceIdeal.nD Cert.ReferenceIdeal.τ).loc Cert.ReferenceIdeal.main_arg2) (ValueIdx.ix2 c' k))
            (fun j k => m' ((c.tc : Thread Cert.ReferenceIdeal.nD Cert.ReferenceIdeal.τ).loc Cert.ReferenceIdeal.main_arg3) (ValueIdx.ix2 j k))
            (fun j => m' ((c.tc : Thread Cert.ReferenceIdeal.nD Cert.ReferenceIdeal.τ).loc Cert.ReferenceIdeal.main_arg4) (ValueIdx.ix1 j)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((Cert.ReferenceIdeal.ReadP.val_main_v67_eq m' c).trans (ref_is_loss _ _ _ _ _)), (h c).2⟩)
    (Cert.ReferenceIdeal.ValueP.run (F := Ideal) m' ρ')

/-- The reference runs and its arguments end unchanged. -/
theorem ref_frame (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono (fun _ h c => (h c).2) (Cert.ReferenceIdeal.ValueP.run (F := Ideal) m' ρ')

/-- From a memory m of the kernel program whose argument arrays the reference's memory m' agrees with: the reference
    runs, its result is the loss of m's argument arrays, and its own arguments end unchanged. -/
theorem ref_run_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v67)
        = (fun _ => Cert.Spec.loss
            (fun b k => m ((c.tc : Thread Cert.KernelIdeal.nD Cert.KernelIdeal.τ).loc Cert.KernelIdeal.main_arg0) (ValueIdx.ix2 b k))
            (fun b => m ((c.tc : Thread Cert.KernelIdeal.nD Cert.KernelIdeal.τ).loc Cert.KernelIdeal.main_arg1) (ValueIdx.ix1 b))
            (fun c' k => m ((c.tc : Thread Cert.KernelIdeal.nD Cert.KernelIdeal.τ).loc Cert.KernelIdeal.main_arg2) (ValueIdx.ix2 c' k))
            (fun j k => m ((c.tc : Thread Cert.KernelIdeal.nD Cert.KernelIdeal.τ).loc Cert.KernelIdeal.main_arg3) (ValueIdx.ix2 j k))
            (fun j => m ((c.tc : Thread Cert.KernelIdeal.nD Cert.KernelIdeal.τ).loc Cert.KernelIdeal.main_arg4) (ValueIdx.ix1 j)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans (by
        obtain ⟨h0, h1, h2, h3, h4⟩ := hagree c
        rw [h0, h1, h2, h3, h4]), (h c).2⟩)
    (ref_run m' ρ')

end Cert.RefValue

end
-- ==== Proof.lean ====
/-
  The Proxy-Anchor loss, computed by two Pallas kernels, against its jnp reference: equal over the extended reals.

  THE PROGRAMS. The kernel program embeds the batch in a first kernel (linear layer, row-normalise with the norm clamped
  below, positive part, row-normalise again; 4 tiles of 1024 rows) and reduces in a second kernel over a 16 × 4 grid —
  the outer coordinate a tile of 1024 proxies, the inner one a tile of 1024 batch rows: at inner coordinate 0 the proxy
  tile is normalised into scratch and three row accumulators are zeroed; every point adds its 1024 × 1024 block of masked
  exponentials (and of label hits) column-wise into the accumulators; at inner coordinate 3 the accumulators' `log1p`
  sums and the number of non-empty columns are added into three single-cell results, zeroed at the very first point.
  The host then forms `pos / valid + neg / 16384`. The reference materialises the whole 4096 × 16384 cosine matrix and
  takes flat sums.

  THE MATHEMATICS. At the exact instance both are the function `Spec.loss` of the argument arrays: a change of float
  format is the identity, the kernel's matrix products into a zero accumulator and the reference's `dot_general` are
  the same finite sums, `where(hit, e, 0)` is `[hit] · e` because `0 · x = 0` and `1 · x = x` for every extended real,
  and the tiled accumulation is the flat sum regrouped (sums of extended reals form a commutative monoid). The
  reference counts non-empty classes with an integer sum — at most 16384, so it does not wrap and converts exactly —
  where the kernel sums ones. No step needs the inputs to be finite.

  THE PARTS. `Spec`: the loss. `RefIsLoss*`, `RefRunLoss`: the reference computes it. `KI/Region0`, `KI/Runs1`,
  `KI/Defs1`, `KI/Before1`, `KI/Region1`: each kernel's body at every grid point, the second one's carried buffers
  named by the fold `KI/State1.st`; `KI/RunW`, `KI/RunSegs`, `KI/Run`, `KI/RunLoss`: the program's run through its five segments with
  every buffer's final contents named; `KI/Value0`, `KI/Pay1`, `Fold1`, `KI/Glue1`, `KI/Arrays`, `KI/Result`: those
  contents, at the exact instance, are the loss. `K/*`: the same run for the program read at the word level (its frame).
-/
import proofs.«105117_j51427938402969_1_alg».proof.Defs
import proofs.«105117_j51427938402969_1_alg».proof.Proof.Gen.Kernel
import proofs.«105117_j51427938402969_1_alg».proof.Proof.Gen.KernelIdeal
import proofs.«105117_j51427938402969_1_alg».proof.Proof.Gen.ReferenceIdeal
import proofs.«105117_j51427938402969_1_alg».proof.Proof.Gen.Pre_finite_inputs
import proofs.«105117_j51427938402969_1_alg».proof.Proof.K.Run
import proofs.«105117_j51427938402969_1_alg».proof.Proof.KI.Run
import proofs.«105117_j51427938402969_1_alg».proof.Proof.KI.Result
import proofs.«105117_j51427938402969_1_alg».proof.Proof.KI.RunLoss
import proofs.«105117_j51427938402969_1_alg».proof.Proof.RefRunLoss

noncomputable section

namespace Cert.Proof

open Idealize.ShloMosaic Idealize.ShloMosaic.TcCoe Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Run.frame m ρ

/-- So does the program read at the exact instance. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => Cert.RefValue.ref_frame m ρ

/-- The idealisation rewrote nothing. -/
theorem preserves : Cert.preserves_Kernel_KernelIdeal := trivial

/-- At the exact instance, from memories agreeing on the arguments, both programs end with the loss of the argument
    arrays in their result buffer: the kernel program by its run (the result buffer read off the last segment), the
    reference by its run read stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.Spec.loss (fun b k => m ((c.tc : Thread Cert.KernelIdeal.nD Cert.KernelIdeal.τ).loc Cert.KernelIdeal.main_arg0) (ValueIdx.ix2 b k)) (fun b => m ((c.tc : Thread Cert.KernelIdeal.nD Cert.KernelIdeal.τ).loc Cert.KernelIdeal.main_arg1) (ValueIdx.ix1 b)) (fun c' k => m ((c.tc : Thread Cert.KernelIdeal.nD Cert.KernelIdeal.τ).loc Cert.KernelIdeal.main_arg2) (ValueIdx.ix2 c' k)) (fun j k => m ((c.tc : Thread Cert.KernelIdeal.nD Cert.KernelIdeal.τ).loc Cert.KernelIdeal.main_arg3) (ValueIdx.ix2 j k)) (fun j => m ((c.tc : Thread Cert.KernelIdeal.nD Cert.KernelIdeal.τ).loc Cert.KernelIdeal.main_arg4) (ValueIdx.ix1 j))), ?_, ?_⟩
  · exact Cert.KernelIdeal.Run.run_value m ρ _ (fun c => Cert.KernelIdeal.Res.W5_result m ρ c)
  · exact Cert.RefValue.ref_run_agree m m' ρ' hagree

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
